-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩
abbrev S128 : Shape := ⟨1, ![128]⟩
abbrev S1x128 : Shape := ⟨2, ![1, 128]⟩
abbrev S512x256 : Shape := ⟨2, ![512, 256]⟩
abbrev S512x128 : Shape := ⟨2, ![512, 128]⟩
abbrev S512x1 : Shape := ⟨2, ![512, 1]⟩
abbrev S256x512 : Shape := ⟨2, ![256, 512]⟩
abbrev S512x512 : Shape := ⟨2, ![512, 512]⟩
abbrev S128x512 : Shape := ⟨2, ![128, 512]⟩
abbrev S512 : Shape := ⟨1, ![512]⟩

abbrev nBuf : Space → Nat
  | .hbm => 36
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x1, .i32⟩
  | .hbm, ⟨10, _⟩ => ⟨S32, .i32⟩
  | .hbm, ⟨11, _⟩ => ⟨S1x32, .i32⟩
  | .hbm, ⟨12, _⟩ => ⟨S8192x32, .i32⟩
  | .hbm, ⟨13, _⟩ => ⟨S8192x32, .i32⟩
  | .hbm, ⟨14, _⟩ => ⟨S8192x32, .i1⟩
  | .hbm, ⟨15, _⟩ => ⟨S8192x32, .f32⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x128, .f32⟩
  | .local _ .vmem, ⟨14, _⟩ => ⟨S512x1, .f32⟩
  | .local _ .vmem, ⟨15, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call1_v0 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call2_v0 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  pads_S8192x32_S8192x128_000_0960 : S8192x32.Pads (![0, 0] : Fin 2 → Nat) ![0, 96] ![0, 0] S8192x128
  reducesTo_S8192x128_S128_d0 : S8192x128.ReducesTo [0] S128
  bcast_S128_S1x128_1 : S128.BroadcastsInDim S1x128 (![1] : Fin 1 → Fin S1x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  transposes_S512x256_p1_0_S256x512 : S512x256.Transposes [1, 0] S256x512
  iota_S512x512_d0_w32 : S512x512.Iotas .tc 32 [0]
  iota_S512x512_d1_w32 : S512x512.Iotas .tc 32 [1]
  natLt_1_32 : 1 < 32
  transposes_S512x128_p1_0_S128x512 : S512x128.Transposes [1, 0] S128x512
  reduces_S512x512_S512 : S512x512.Reduces [1] S512
  shapeCasts_S512_S512x1 : S512.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  reducesTo_S8192x1_S_d0_1 : S8192x1.ReducesTo [0, 1] S_
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v2) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S32 : Shape := ⟨1, ![32]⟩
abbrev S1x32 : Shape := ⟨2, ![1, 32]⟩
abbrev S8192x32 : Shape := ⟨2, ![8192, 32]⟩
abbrev S32x8192 : Shape := ⟨2, ![32, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x1, .i32⟩
  | .hbm, ⟨27, _⟩ => ⟨S32, .i32⟩
  | .hbm, ⟨28, _⟩ => ⟨S1x32, .i32⟩
  | .hbm, ⟨29, _⟩ => ⟨S8192x32, .i32⟩
  | .hbm, ⟨30, _⟩ => ⟨S8192x32, .i32⟩
  | .hbm, ⟨31, _⟩ => ⟨S8192x32, .i1⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S32, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192x32, .f32⟩
  | .hbm, ⟨41, _⟩ => ⟨S8192x32, .i1⟩
  | .hbm, ⟨42, _⟩ => ⟨S_, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S_, .f32⟩
  | .hbm, ⟨47, _⟩ => ⟨S_, .f32⟩
  | .hbm, ⟨48, _⟩ => ⟨S8192x32, .f32⟩
  | .hbm, ⟨49, _⟩ => ⟨S8192x32, .f32⟩
  | .hbm, ⟨50, _⟩ => ⟨S_, .f32⟩
  | .hbm, ⟨51, _⟩ => ⟨S8192, .f32⟩
  | .hbm, ⟨52, _⟩ => ⟨S32x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .i1⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_call2_v0 : Ref sig .tc := ⟨.hbm, 73, rfl⟩
abbrev main_call2_v1 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_call3_v0 : Ref sig .tc := ⟨.hbm, 88, rfl⟩
abbrev main_v59 : Ref sig .tc := ⟨.hbm, 89, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  reducesTo_S8192x32_S32_d0 : S8192x32.ReducesTo [0] S32
  bcast_S_S8192x32 : S_.BroadcastsInDim S8192x32 (![] : Fin 0 → Fin S8192x32.rank)
  reducesTo_S8192x32_S8192_d1 : S8192x32.ReducesTo [1] S8192
  transposes_S8192x32_S32x8192_1_0 : S8192x32.Transposes [1, 0] S32x8192
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x256_S256x8192_S8192x8192_1_0_0_1_n_n_wf : DotDims.WF S8192x256 S256x8192 S8192x8192 [1] [0] [0] [1] [] []
  dot_S8192x8192_S8192x32_S8192x32_1_0_0_1_n_n_wf : DotDims.WF S8192x8192 S8192x32 S8192x32 [1] [0] [0] [1] [] []
  dot_S8192x32_S32x8192_S8192x8192_1_0_0_1_n_n_wf : DotDims.WF S8192x32 S32x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.BodyCondsK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, read off the grid point

The accumulators are cleared where the key-block coordinate is 0 and the row block's loss is written where it is 15. -/

/-- The key-block coordinate is 0: the three accumulators are cleared first. -/
abbrev condFirst (i : grid0.Coords) : Prop :=
  (Scalar.cmpi .ne (Scalar.extui (Scalar.cmpi .eq (BitVec.ofNat 32 (i 1).val) 0#32)) 0#32) = 1#1
/-- The key-block coordinate is 15: the row block is finished and its two outputs are stored. -/
abbrev condLast (i : grid0.Coords) : Prop := k0_cond2 i = 1#1

theorem condFirst_iff : ∀ t : Fin cfg0.N, condFirst (grid0.coords t) ↔ t.val % 16 = 0 :=
  (by decide +kernel : ∀ t : Fin grid0.N, condFirst (grid0.coords t) ↔ t.val % 16 = 0)
theorem condLast_iff : ∀ t : Fin cfg0.N, condLast (grid0.coords t) ↔ t.val % 16 = 15 :=
  (by decide +kernel : ∀ t : Fin grid0.N, condLast (grid0.coords t) ↔ t.val % 16 = 15)

end Cert.Kernel.Body

end
-- ==== Proof.RunFirstK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyCondsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first key block of a row block (coordinate 0): the three accumulators are found at anything, cleared, and the block's
    contribution is added; the inputs come back as they were and each accumulator with the pieces written (last first);
    the two output buffers are not touched. -/
noncomputable def runFirst (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : condFirst i) (hc1 : ¬condLast i)
    (x0 x1 : Vec F S512x256 .f32) (x2 x3 : Vec F S512x128 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Body

end
-- ==== Proof.RunMidK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyCondsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle key block (coordinate neither 0 nor 15): on whole staging memrefs holding the five input blocks and the three
    accumulators, the body runs and hands back the inputs as they were and each accumulator with the pieces its store
    wrote; the two output buffers are not touched. The pieces are found by the run. -/
noncomputable def runMid (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : ¬condFirst i) (hc1 : ¬condLast i)
    (x0 x1 : Vec F S512x256 .f32) (x2 x3 : Vec F S512x128 .f32)
    (xs0 : Vec F S512x128 .f32) (xs1 xs2 : Vec F S512x1 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Body

end
-- ==== Proof.RunLastK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyCondsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last key block of a row block (coordinate 15): the block's contribution is added to the three accumulators, and
    from their totals, the class counts and the row block's one-hot rows the per-row loss and the validity flag are stored
    into the two output buffers, found at anything. Inputs come back as they were; accumulators and outputs with the pieces written. -/
noncomputable def runLast (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : ¬condFirst i) (hc1 : condLast i)
    (x0 x1 : Vec F S512x256 .f32) (x2 x3 : Vec F S512x128 .f32) (x4 : Vec F S1x128 .f32)
    (xs0 : Vec F S512x128 .f32) (xs1 xs2 : Vec F S512x1 .f32) :
    Σ' (L5 L6 : List (View.Piece (Elt F) S512x1 .f32)) (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1
                ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.Kernel.Body

end
-- ==== Proof.BodyDataK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.RunFirstK
import proofs.«118708_j2697239462642_1_alg».proof.Proof.RunMidK
import proofs.«118708_j2697239462642_1_alg».proof.Proof.RunLastK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region finds

The host lines before the region compute the normalized features, the one-hot label matrix padded to 128 classes and the
class counts; the region finds every buffer at the contents those lines leave. -/

/-- Core `c`'s buffer contents when the region is entered: after the four stretches of host lines before it. -/
abbrev V0 (c : Dev nD) : Valuation τ sig (Elt F) :=
  StableHlo.after (List.flatten [hostOps0 (F := F), hostOps0_1 (F := F), hostOps0_2 (F := F), hostOps0_3 (F := F)]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with -/

abbrev ms0 (t : Fin cfg0.N) : Memref sig .tc .vmem S512x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S512x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S512x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S512x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S1x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S512x1 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S512x1 .f32 := win0_6.stage (cfg0.slots t 6)
abbrev hs6 (t : Fin cfg0.N) : (ms6 t).IsWhole := Facts₀.hstage0_6 ((cfg0.slots t 6).cast Facts₀.nbuf0_6)
/-- The three accumulators: whole scoped buffers of the kernel's own. -/
abbrev scM0 : Memref sig .tc .vmem S512x128 .f32 := Memref.whole cc0_scratch0
abbrev scM1 : Memref sig .tc .vmem S512x1 .f32 := Memref.whole cc0_scratch1
abbrev scM2 : Memref sig .tc .vmem S512x1 .f32 := Memref.whole cc0_scratch2
abbrev VS0 : View sig .tc .vmem S512x128 .f32 := scM0.view
abbrev VS1 : View sig .tc .vmem S512x1 .f32 := scM1.view
abbrev VS2 : View sig .tc .vmem S512x1 .f32 := scM2.view
/-- One staging buffer of each output window, through which its contents are stated (the choice does not matter). -/
abbrev VO5 : View sig .tc .vmem S512x1 .f32 := (Memref.whole cc0_stg5_0 : Memref sig .tc .vmem S512x1 .f32).view
abbrev VO6 : View sig .tc .vmem S512x1 .f32 := (Memref.whole cc0_stg6_0 : Memref sig .tc .vmem S512x1 .f32).view

/-! ## Where the outputs are idle -/

theorem live_in : ∀ (w : Fin 7), w.val < 5 → ∀ t : Fin cfg0.N, cfg0.idle w (grid0.coords t) = false := by decide +kernel
theorem idle5 : ∀ t : Fin cfg0.N, ¬condLast (grid0.coords t) → cfg0.idle 5 (grid0.coords t) = true := by decide +kernel
theorem idle6 : ∀ t : Fin cfg0.N, ¬condLast (grid0.coords t) → cfg0.idle 6 (grid0.coords t) = true := by decide +kernel
theorem noFlush5 : ∀ t : Fin cfg0.N, ¬condLast (grid0.coords t) → (cfg0.win 5).flush t = false := by decide +kernel
theorem noFlush6 : ∀ t : Fin cfg0.N, ¬condLast (grid0.coords t) → (cfg0.win 6).flush t = false := by decide +kernel
theorem live5 : ∀ t : Fin cfg0.N, condLast (grid0.coords t) → cfg0.idle 5 (grid0.coords t) = false := by decide +kernel
theorem live6 : ∀ t : Fin cfg0.N, condLast (grid0.coords t) → cfg0.idle 6 (grid0.coords t) = false := by decide +kernel

/-! ## The three runs at a grid point -/

abbrev rF (c : Dev nD) (t : Fin cfg0.N) (hc0 : condFirst (grid0.coords t)) (hc1 : ¬condLast (grid0.coords t))
    (x0 x1 : Vec F S512x256 .f32) (x2 x3 : Vec F S512x128 .f32) :=
  runFirst c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3
abbrev rM (c : Dev nD) (t : Fin cfg0.N) (hc0 : ¬condFirst (grid0.coords t)) (hc1 : ¬condLast (grid0.coords t))
    (x0 x1 : Vec F S512x256 .f32) (x2 x3 : Vec F S512x128 .f32) (xs0 : Vec F S512x128 .f32) (xs1 xs2 : Vec F S512x1 .f32) :=
  runMid c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3 xs0 xs1 xs2
abbrev rL (c : Dev nD) (t : Fin cfg0.N) (hc0 : ¬condFirst (grid0.coords t)) (hc1 : condLast (grid0.coords t))
    (x0 x1 : Vec F S512x256 .f32) (x2 x3 : Vec F S512x128 .f32) (x4 : Vec F S1x128 .f32) (xs0 : Vec F S512x128 .f32) (xs1 xs2 : Vec F S512x1 .f32) :=
  runLast c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3 x4 xs0 xs1 xs2

/-- What a grid point leaves: the two output blocks (meaningful at a last key block only) and the three accumulators. -/
abbrev St (F : FTy → Type) [FloatOps F] : Type :=
  Vec F S512x1 .f32 × Vec F S512x1 .f32 × Vec F S512x128 .f32 × Vec F S512x1 .f32 × Vec F S512x1 .f32

/-- After a first key block: each accumulator's pieces read back (the outputs are placeholders nothing consults). -/
def stF (c : Dev nD) (t : Fin cfg0.N) (hc0 : condFirst (grid0.coords t)) (hc1 : ¬condLast (grid0.coords t))
    (x0 x1 : Vec F S512x256 .f32) (x2 x3 : Vec F S512x128 .f32) : St F :=
  (VO5.junk, VO6.junk,
   VS0.read (Elt F) (VS0.writes (Elt F) VS0.junk (rF c t hc0 hc1 x0 x1 x2 x3).1),
   VS1.read (Elt F) (VS1.writes (Elt F) VS1.junk (rF c t hc0 hc1 x0 x1 x2 x3).2.1),
   VS2.read (Elt F) (VS2.writes (Elt F) VS2.junk (rF c t hc0 hc1 x0 x1 x2 x3).2.2.1))
/-- After a middle key block. -/
def stM (c : Dev nD) (t : Fin cfg0.N) (hc0 : ¬condFirst (grid0.coords t)) (hc1 : ¬condLast (grid0.coords t))
    (x0 x1 : Vec F S512x256 .f32) (x2 x3 : Vec F S512x128 .f32) (xs0 : Vec F S512x128 .f32) (xs1 xs2 : Vec F S512x1 .f32) : St F :=
  (VO5.junk, VO6.junk,
   VS0.read (Elt F) (VS0.writes (Elt F) VS0.junk (rM c t hc0 hc1 x0 x1 x2 x3 xs0 xs1 xs2).1),
   VS1.read (Elt F) (VS1.writes (Elt F) VS1.junk (rM c t hc0 hc1 x0 x1 x2 x3 xs0 xs1 xs2).2.1),
   VS2.read (Elt F) (VS2.writes (Elt F) VS2.junk (rM c t hc0 hc1 x0 x1 x2 x3 xs0 xs1 xs2).2.2.1))
/-- After a last key block: the two outputs' pieces read back as well. -/
def stL (c : Dev nD) (t : Fin cfg0.N) (hc0 : ¬condFirst (grid0.coords t)) (hc1 : condLast (grid0.coords t))
    (x0 x1 : Vec F S512x256 .f32) (x2 x3 : Vec F S512x128 .f32) (x4 : Vec F S1x128 .f32) (xs0 : Vec F S512x128 .f32) (xs1 xs2 : Vec F S512x1 .f32) : St F :=
  (VO5.read (Elt F) (VO5.writes (Elt F) VO5.junk (rL c t hc0 hc1 x0 x1 x2 x3 x4 xs0 xs1 xs2).1),
   VO6.read (Elt F) (VO6.writes (Elt F) VO6.junk (rL c t hc0 hc1 x0 x1 x2 x3 x4 xs0 xs1 xs2).2.1),
   VS0.read (Elt F) (VS0.writes (Elt F) VS0.junk (rL c t hc0 hc1 x0 x1 x2 x3 x4 xs0 xs1 xs2).2.2.1),
   VS1.read (Elt F) (VS1.writes (Elt F) VS1.junk (rL c t hc0 hc1 x0 x1 x2 x3 x4 xs0 xs1 xs2).2.2.2.1),
   VS2.read (Elt F) (VS2.writes (Elt F) VS2.junk (rL c t hc0 hc1 x0 x1 x2 x3 x4 xs0 xs1 xs2).2.2.2.2.1))

/-! ## Each store covers its buffer -/

theorem covF0 (c : Dev nD) (t : Fin cfg0.N) (hc0) (hc1) (x0 x1 : Vec F S512x256 .f32) (x2 x3 : Vec F S512x128 .f32) (y : S512x128.Idx) :
    ∃ pc ∈ (rF c t hc0 hc1 x0 x1 x2 x3).1, y ∈ pc.1.set :=
  View.cover_of_tiledL (rF c t hc0 hc1 x0 x1 x2 x3).1 S512x128.size (by sl_kernel_rfl) y
theorem covF1 (c : Dev nD) (t : Fin cfg0.N) (hc0) (hc1) (x0 x1 : Vec F S512x256 .f32) (x2 x3 : Vec F S512x128 .f32) (y : S512x1.Idx) :
    ∃ pc ∈ (rF c t hc0 hc1 x0 x1 x2 x3).2.1, y ∈ pc.1.set :=
  View.cover_of_tiledL (rF c t hc0 hc1 x0 x1 x2 x3).2.1 S512x1.size (by sl_kernel_rfl) y
theorem covF2 (c : Dev nD) (t : Fin cfg0.N) (hc0) (hc1) (x0 x1 : Vec F S512x256 .f32) (x2 x3 : Vec F S512x128 .f32) (y : S512x1.Idx) :
    ∃ pc ∈ (rF c t hc0 hc1 x0 x1 x2 x3).2.2.1, y ∈ pc.1.set :=
  View.cover_of_tiledL (rF c t hc0 hc1 x0 x1 x2 x3).2.2.1 S512x1.size (by sl_kernel_rfl) y

theorem covM0 (c : Dev nD) (t : Fin cfg0.N) (hc0) (hc1) (x0 x1 : Vec F S512x256 .f32) (x2 x3 : Vec F S512x128 .f32) (xs0 : Vec F S512x128 .f32) (xs1 xs2 : Vec F S512x1 .f32) (y : S512x128.Idx) :
    ∃ pc ∈ (rM c t hc0 hc1 x0 x1 x2 x3 xs0 xs1 xs2).1, y ∈ pc.1.set :=
  View.cover_of_tiledL (rM c t hc0 hc1 x0 x1 x2 x3 xs0 xs1 xs2).1 S512x128.size (by sl_kernel_rfl) y
theorem covM1 (c : Dev nD) (t : Fin cfg0.N) (hc0) (hc1) (x0 x1 : Vec F S512x256 .f32) (x2 x3 : Vec F S512x128 .f32) (xs0 : Vec F S512x128 .f32) (xs1 xs2 : Vec F S512x1 .f32) (y : S512x1.Idx) :
    ∃ pc ∈ (rM c t hc0 hc1 x0 x1 x2 x3 xs0 xs1 xs2).2.1, y ∈ pc.1.set :=
  View.cover_of_tiledL (rM c t hc0 hc1 x0 x1 x2 x3 xs0 xs1 xs2).2.1 S512x1.size (by sl_kernel_rfl) y
theorem covM2 (c : Dev nD) (t : Fin cfg0.N) (hc0) (hc1) (x0 x1 : Vec F S512x256 .f32) (x2 x3 : Vec F S512x128 .f32) (xs0 : Vec F S512x128 .f32) (xs1 xs2 : Vec F S512x1 .f32) (y : S512x1.Idx) :
    ∃ pc ∈ (rM c t hc0 hc1 x0 x1 x2 x3 xs0 xs1 xs2).2.2.1, y ∈ pc.1.set :=
  View.cover_of_tiledL (rM c t hc0 hc1 x0 x1 x2 x3 xs0 xs1 xs2).2.2.1 S512x1.size (by sl_kernel_rfl) y

theorem covL5 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).1, y ∈ pc.1.set :=
  View.cover_of_tiledL (rL c t hc0 hc1 x0 x1 x2 x3 x4 xs0 xs1 xs2).1 S512x1.size (by sl_kernel_rfl) y
theorem covL6 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.1, y ∈ pc.1.set :=
  View.cover_of_tiledL (rL c t hc0 hc1 x0 x1 x2 x3 x4 xs0 xs1 xs2).2.1 S512x1.size (by sl_kernel_rfl) y
theorem covL0 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x128.Idx) :
    ∃ pc ∈ (rL c t hc0 hc1 x0 x1 x2 x3 x4 xs0 xs1 xs2).2.2.1, y ∈ pc.1.set :=
  View.cover_of_tiledL (rL c t hc0 hc1 x0 x1 x2 x3 x4 xs0 xs1 xs2).2.2.1 S512x128.size (by sl_kernel_rfl) y
theorem covL1 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.2.2.1, y ∈ pc.1.set :=
  View.cover_of_tiledL (rL c t hc0 hc1 x0 x1 x2 x3 x4 xs0 xs1 xs2).2.2.2.1 S512x1.size (by sl_kernel_rfl) y
theorem covL2 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.2.2.2.1, y ∈ pc.1.set :=
  View.cover_of_tiledL (rL c t hc0 hc1 x0 x1 x2 x3 x4 xs0 xs1 xs2).2.2.2.2.1 S512x1.size (by sl_kernel_rfl) y

end Cert.Kernel.Body

end
-- ==== Proof.BodyStateK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyDataK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the region has left after each grid point

Row block by row block the three accumulators are cleared at the first key block, added to at every key block, and read at
the last, where the row block's two outputs are stored. -/

/-- After point `n`: the case the point is in, run on the point's input blocks and (but at a first key block) on the
    accumulators the point before left. -/
def stateAt (c : Dev nD) : (n : ℕ) → n < cfg0.N → St F
  | 0, hn => stF c ⟨0, hn⟩ ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 16 = 0 then
      if h1 : (n + 1) % 16 = 15 then
        False.elim (by omega)
      else
        stF c ⟨n + 1, hn⟩ ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 16 = 15 then
        stL c ⟨n + 1, hn⟩ (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2.2.1 (stateAt c n (Nat.lt_of_succ_lt hn)).2.2.2.1 (stateAt c n (Nat.lt_of_succ_lt hn)).2.2.2.2
      else
        stM c ⟨n + 1, hn⟩ (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).2.2.1 (stateAt c n (Nat.lt_of_succ_lt hn)).2.2.2.1 (stateAt c n (Nat.lt_of_succ_lt hn)).2.2.2.2

/-- The state the point before `t` left (read only where `t` is not a first key block). -/
abbrev prevSt (c : Dev nD) (t : Fin cfg0.N) : St F := stateAt m c (t.val - 1) (Nat.lt_of_le_of_lt (Nat.sub_le _ _) t.isLt)

theorem stateAt_first (c : Dev nD) (t : Fin cfg0.N) (h0 : t.val % 16 = 0) (h1 : ¬t.val % 16 = 15) :
    stateAt m c t.val t.isLt = stF c t ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem stateAt_mid (c : Dev nD) (t : Fin cfg0.N) (h0 : ¬t.val % 16 = 0) (h1 : ¬t.val % 16 = 15) :
    stateAt m c t.val t.isLt = stM c t (fun h => h0 ((condFirst_iff t).mp h)) (fun h => h1 ((condLast_iff t).mp h)) (iblk m c 0 t) (iblk m c 1 t) (iblk m c 2 t) (iblk m c 3 t)
      (prevSt m c t).2.2.1 (prevSt m c t).2.2.2.1 (prevSt m c t).2.2.2.2 := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 16 = 0) (h1 : t.val % 16 = 15) :
    stateAt m c t.val t.isLt = stL c t (fun h => h0 ((condFirst_iff t).mp h)) ((condLast_iff t).mpr h1) (iblk m c 0 t) (iblk m c 1 t) (iblk m c 2 t) (iblk m c 3 t) (iblk m c 4 t)
      (prevSt m c t).2.2.1 (prevSt m c t).2.2.2.1 (prevSt m c t).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every accumulator holds anything; after point `n` each holds what that point left. -/
def PhiS (c : Dev nD) : (n : ℕ) → n ≤ cfg0.N → sProp 𝕄
  | 0, _ => Pipeline.ΦA spec0 c
  | n + 1, hn => iprop(iprop(owns (c : Thread nD τ) scM0 fullShare ((stateAt m c n hn).2.2.1) ∗ owns (c : Thread nD τ) scM1 fullShare ((stateAt m c n hn).2.2.2.1) ∗ owns (c : Thread nD τ) scM2 fullShare ((stateAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((stateAt m c n hn).2.2.1) ∗ owns (c : Thread nD τ) scM1 fullShare ((stateAt m c n hn).2.2.2.1) ∗ owns (c : Thread nD τ) scM2 fullShare ((stateAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((stateAt m c (n - 1) (by omega)).2.2.1) ∗ owns (c : Thread nD τ) scM1 fullShare ((stateAt m c (n - 1) (by omega)).2.2.2.1) ∗ owns (c : Thread nD τ) scM2 fullShare ((stateAt m c (n - 1) (by omega)).2.2.2.2)) ∗ (∃ r, prngReg c r)) := by
  cases n with
  | zero => exact absurd rfl hz
  | succ n => rfl

/-- The launch's invariant with the three accumulators as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The pipeline's proof data -/

/-- The arrays as the region finds them; after the body at point `t` each input's buffer at its block and the outputs' at
    `stateAt`; the invariant `PhiS`; nothing owed. The two windows on the normalized features hold its array at one half
    share each, and so the two on the one-hot matrix. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
    | ⟨6, _⟩ => (stateAt m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stateAt m c t.val t.isLt).1 := by dsimp only [dats]
theorem after6 (c : Dev nD) (t : Fin cfg0.N) : (dats m 0 c).after 6 t = (stateAt m c t.val t.isLt).2.1 := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.Body

end
-- ==== Proof.BodyObligK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyStateK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
/-- The body at any point. The inputs' memrefs hold their blocks; the point's key-block coordinate says which of the three
    cases it is in; the invariant hands the body the accumulators at what the point before left (at anything at the very
    first point) and takes them back at this point's contents; an output is handed back untouched except at a last key
    block, where it is returned with its stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live_in 0 (by decide) t], after0]
    rw [show (dats m 0 c).leavesExact 1 t = owns (c : Thread nD τ) (ms1 t) fullShare ((dats m 0 c).after 1 t) from by
      unfold Dat.leavesExact; rw [live_in 1 (by decide) t], after1]
    rw [show (dats m 0 c).leavesExact 2 t = owns (c : Thread nD τ) (ms2 t) fullShare ((dats m 0 c).after 2 t) from by
      unfold Dat.leavesExact; rw [live_in 2 (by decide) t], after2]
    rw [show (dats m 0 c).leavesExact 3 t = owns (c : Thread nD τ) (ms3 t) fullShare ((dats m 0 c).after 3 t) from by
      unfold Dat.leavesExact; rw [live_in 3 (by decide) t], after3]
    rw [show (dats m 0 c).leavesExact 4 t = owns (c : Thread nD τ) (ms4 t) fullShare ((dats m 0 c).after 4 t) from by
      unfold Dat.leavesExact; rw [live_in 4 (by decide) t], after4]
    rw [Dat.leavesExact_idle (dats m 0 c) 5 t (idle5 t (fun h => h1 ((condLast_iff t).mp h))) (noFlush5 t (fun h => h1 ((condLast_iff t).mp h)))]
    rw [Dat.leavesExact_idle (dats m 0 c) 6 t (idle6 t (fun h => h1 ((condLast_iff t).mp h))) (noFlush6 t (fun h => h1 ((condLast_iff t).mp h)))]
    rw [stateAt_first m c t h0 h1]
    unfold stF; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rF c t ((condFirst_iff t).mpr h0) (fun h => h1 ((condLast_iff t).mp h)) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covF0 c t _ _ _ _ _ _)
          isplitl [HS1]
          · unfold owns; iexists _; isplitr
            swap; · iexact HS1
            ipureintro; exact View.read_writes_of_cover _ _ _ _ _ (covF1 c t _ _ _ _ _ _)
          · unfold owns; iexists _; isplitr
            swap; · iexact HS2
            ipureintro; exact View.read_writes_of_cover _ _ _ _ _ (covF2 c t _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rF c t ((condFirst_iff t).mpr h0) (fun h => h1 ((condLast_iff t).mp h)) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covF0 c t _ _ _ _ _ _)
          isplitl [HS1]
          · unfold owns; iexists _; isplitr
            swap; · iexact HS1
            ipureintro; exact View.read_writes_of_cover _ _ _ _ _ (covF1 c t _ _ _ _ _ _)
          · unfold owns; iexists _; isplitr
            swap; · iexact HS2
            ipureintro; exact View.read_writes_of_cover _ _ _ _ _ (covF2 c t _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun hz => h0 (by rw [hz])
    by_cases h1 : t.val % 16 = 15
    · rw [PhiS_castSucc m c t, PhiS_pos m c _ _ hz]
      rw [show (dats m 0 c).leavesExact 0 t = owns (c : Thread nD τ) (ms0 t) fullShare ((dats m 0 c).after 0 t) from by
        unfold Dat.leavesExact; rw [live_in 0 (by decide) t], after0]
      rw [show (dats m 0 c).leavesExact 1 t = owns (c : Thread nD τ) (ms1 t) fullShare ((dats m 0 c).after 1 t) from by
        unfold Dat.leavesExact; rw [live_in 1 (by decide) t], after1]
      rw [show (dats m 0 c).leavesExact 2 t = owns (c : Thread nD τ) (ms2 t) fullShare ((dats m 0 c).after 2 t) from by
        unfold Dat.leavesExact; rw [live_in 2 (by decide) t], after2]
      rw [show (dats m 0 c).leavesExact 3 t = owns (c : Thread nD τ) (ms3 t) fullShare ((dats m 0 c).after 3 t) from by
        unfold Dat.leavesExact; rw [live_in 3 (by decide) t], after3]
      rw [show (dats m 0 c).leavesExact 4 t = owns (c : Thread nD τ) (ms4 t) fullShare ((dats m 0 c).after 4 t) from by
        unfold Dat.leavesExact; rw [live_in 4 (by decide) t], after4]
      rw [show (dats m 0 c).leavesExact 5 t = owns (c : Thread nD τ) (ms5 t) fullShare ((dats m 0 c).after 5 t) from by
        unfold Dat.leavesExact; rw [live5 t ((condLast_iff t).mpr h1)], after5]
      rw [show (dats m 0 c).leavesExact 6 t = owns (c : Thread nD τ) (ms6 t) fullShare ((dats m 0 c).after 6 t) from by
        unfold Dat.leavesExact; rw [live6 t ((condLast_iff t).mpr h1)], after6]
      rw [stateAt_last m c t h0 h1]
      unfold stL; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((rL c t (fun h => h0 ((condFirst_iff t).mp h)) ((condLast_iff t).mpr h1) (iblk m c 0 t) (iblk m c 1 t) (iblk m c 2 t) (iblk m c 3 t) (iblk m c 4 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covL0 c t _ _ _ _ _ _ _ _ _ _)
          isplitl [HS1]
          · unfold owns; iexists _; isplitr
            swap; · iexact HS1
            ipureintro; exact View.read_writes_of_cover _ _ _ _ _ (covL1 c t _ _ _ _ _ _ _ _ _ _)
          · unfold owns; iexists _; isplitr
            swap; · iexact HS2
            ipureintro; exact View.read_writes_of_cover _ _ _ _ _ (covL2 c t _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (covL5 c t _ _ _ _ _ _ _ _ _ _)
      · unfold owns; iexists _; isplitr
        swap; · iexact H6
        ipureintro; exact View.read_writes_of_cover _ _ _ _ _ (covL6 c t _ _ _ _ _ _ _ _ _ _)
    · rw [PhiS_castSucc m c t, PhiS_pos m c _ _ hz]
      rw [show (dats m 0 c).leavesExact 0 t = owns (c : Thread nD τ) (ms0 t) fullShare ((dats m 0 c).after 0 t) from by
        unfold Dat.leavesExact; rw [live_in 0 (by decide) t], after0]
      rw [show (dats m 0 c).leavesExact 1 t = owns (c : Thread nD τ) (ms1 t) fullShare ((dats m 0 c).after 1 t) from by
        unfold Dat.leavesExact; rw [live_in 1 (by decide) t], after1]
      rw [show (dats m 0 c).leavesExact 2 t = owns (c : Thread nD τ) (ms2 t) fullShare ((dats m 0 c).after 2 t) from by
        unfold Dat.leavesExact; rw [live_in 2 (by decide) t], after2]
      rw [show (dats m 0 c).leavesExact 3 t = owns (c : Thread nD τ) (ms3 t) fullShare ((dats m 0 c).after 3 t) from by
        unfold Dat.leavesExact; rw [live_in 3 (by decide) t], after3]
      rw [show (dats m 0 c).leavesExact 4 t = owns (c : Thread nD τ) (ms4 t) fullShare ((dats m 0 c).after 4 t) from by
        unfold Dat.leavesExact; rw [live_in 4 (by decide) t], after4]
      rw [Dat.leavesExact_idle (dats m 0 c) 5 t (idle5 t (fun h => h1 ((condLast_iff t).mp h))) (noFlush5 t (fun h => h1 ((condLast_iff t).mp h)))]
      rw [Dat.leavesExact_idle (dats m 0 c) 6 t (idle6 t (fun h => h1 ((condLast_iff t).mp h))) (noFlush6 t (fun h => h1 ((condLast_iff t).mp h)))]
      rw [stateAt_mid m c t h0 h1]
      unfold stM; (try dsimp only)
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rM c t (fun h => h0 ((condFirst_iff t).mp h)) (fun h => h1 ((condLast_iff t).mp h)) (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covM0 c t _ _ _ _ _ _ _ _ _)
          isplitl [HS1]
          · unfold owns; iexists _; isplitr
            swap; · iexact HS1
            ipureintro; exact View.read_writes_of_cover _ _ _ _ _ (covM1 c t _ _ _ _ _ _ _ _ _)
          · unfold owns; iexists _; isplitr
            swap; · iexact HS2
            ipureintro; exact View.read_writes_of_cover _ _ _ _ _ (covM2 c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

set_option maxHeartbeats 3200000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulators' named contents are forgotten. -/
theorem hout (c : Dev nD) : (dats m 0 c).Φ (Fin.last cfg0.N) ⊢ Pipeline.ΦA spec0 c := by
  have h : (dats m 0 c).Φ (Fin.last cfg0.N) = PhiS m c (Fin.last cfg0.N).val (Nat.le_of_lt_succ (Fin.last cfg0.N).isLt) := by
    dsimp only [dats]
  have hz : (Fin.last cfg0.N).val ≠ 0 := by rw [Fin.val_last]; have : cfg0.N = 256 := N_0; omega
  rw [h, PhiS_pos m c _ _ hz, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.Kernel.Body

end
-- ==== Proof.LaunchSharedK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyStateK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The arrays behind the windows

Seven windows, five arrays: the normalized features are handed to the kernel twice (as the row block and as the key block),
and so is the one-hot matrix. Each doubly windowed array is held at one half share by each of its two windows. -/

abbrev arrList : List (Ref sig .tc) := [main_v2, main_v10, main_v12, main_v13_0, main_v13_1]
theorem arrImg : Finset.univ.image (arrRef spec0) = arrList.toFinset := by decide
theorem arrList_nodup : arrList.Nodup := by decide

/-- The five distinct buffers, one by one. -/
theorem arrBufs_chain (c : Dev nD) (Vb : (b : Ref sig .tc) → Buf (Elt F) ((c.tc : Thread nD τ).loc b)) :
    (arrBufs spec0 c Vb : sProp 𝕄)
      = iprop((((c.tc : Thread nD τ).loc main_v2) ↦{fullShare} Vb main_v2) ∗ (((c.tc : Thread nD τ).loc main_v10) ↦{fullShare} Vb main_v10)
          ∗ (((c.tc : Thread nD τ).loc main_v12) ↦{fullShare} Vb main_v12) ∗ (((c.tc : Thread nD τ).loc main_v13_0) ↦{fullShare} Vb main_v13_0)
          ∗ (((c.tc : Thread nD τ).loc main_v13_1) ↦{fullShare} Vb main_v13_1)) := by
  unfold Pipeline.arrBufs
  exact bigSep_eq_bigSepL_of_eq arrList arrImg arrList_nodup _

/-- The seven windows' holdings, one by one: each window's array whole, at the window's share. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_v2) ↦{fullShare.left} Fa 0) ∗ (((c.tc : Thread nD τ).loc main_v2) ↦{fullShare.right} Fa 1)
          ∗ (((c.tc : Thread nD τ).loc main_v10) ↦{fullShare.left} Fa 2) ∗ (((c.tc : Thread nD τ).loc main_v10) ↦{fullShare.right} Fa 3)
          ∗ (((c.tc : Thread nD τ).loc main_v12) ↦{fullShare} Fa 4) ∗ (((c.tc : Thread nD τ).loc main_v13_0) ↦{fullShare} Fa 5)
          ∗ (((c.tc : Thread nD τ).loc main_v13_1) ↦{fullShare} Fa 6)) := by
  unfold Dat.arrays
  rw [bigSep_W0]
  rw [(arr_whole0 0).set_eq_univ, (arr_whole0 2).set_eq_univ, (arr_whole0 4).set_eq_univ, (arr_whole0 5).set_eq_univ, (arr_whole0 6).set_eq_univ]
  rfl

/-- A whole buffer held outright is the same buffer held at two half shares, and back. -/
theorem halve (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem unhalve (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- At the region's entry: the five buffers at the entry contents make the seven holdings. -/
theorem hsplit (c : Dev nD) : (arrBufs spec0 c (V m c) : sProp 𝕄) ⊢ (dats m 0 c).arrays ((dats m 0 c).arrAt · 0) := by
  rw [arrBufs_chain, arrays_chain]
  iintro ⟨H2, H10, H12, H130, H131⟩
  ihave H2' := (halve _ _) $$ H2
  icases H2' with ⟨H2l, H2r⟩
  ihave H10' := (halve _ _) $$ H10
  icases H10' with ⟨H10l, H10r⟩
  isplitl [H2l]; · iexact H2l
  isplitl [H2r]; · iexact H2r
  isplitl [H10l]; · iexact H10l
  isplitl [H10r]; · iexact H10r
  isplitl [H12]; · iexact H12
  isplitl [H130]; · iexact H130
  iexact H131

/-! ## Leaving the region, and the host lines after it -/

/-- The buffer contents when the region is left: the two outputs at what the write-backs made of them, everything else as
    the region found it. -/
def Vexit (c : Dev nD) : Valuation τ sig (Elt F) :=
  Function.update (Function.update (V0 m c) (Proc.devRef .tc main_v13_0) ((dats m 0 c).arrAt 5 cfg0.N))
    (Proc.devRef .tc main_v13_1) ((dats m 0 c).arrAt 6 cfg0.N)
/-- The buffer contents after the host lines that follow the region. -/
def Vfin (c : Dev nD) : Valuation τ sig (Elt F) :=
  StableHlo.after (List.flatten [hostOps1 (F := F), hostOps1_1 (F := F)]) (Vexit m c)

theorem Vexit_o6 (c : Dev nD) : Vexit m c (Proc.devRef .tc main_v13_1) = (dats m 0 c).arrAt 6 cfg0.N := Function.update_self ..
theorem Vexit_o5 (c : Dev nD) : Vexit m c (Proc.devRef .tc main_v13_0) = (dats m 0 c).arrAt 5 cfg0.N :=
  (Function.update_of_ne (by decide) ..).trans (Function.update_self ..)
theorem Vexit_other (c : Dev nD) (b : Ref sig .tc) (h5 : b ≠ main_v13_0) (h6 : b ≠ main_v13_1) :
    Vexit m c (Proc.devRef .tc b) = V m c b :=
  (Function.update_of_ne (fun h => h6 (Proc.devRef_injective _ h)) ..).trans (Function.update_of_ne (fun h => h5 (Proc.devRef_injective _ h)) ..)

/-- The seven holdings at the region's exit are the five buffers at the exit contents (the halves rejoined), and back. -/
theorem arrays_exit (c : Dev nD) :
    ((dats m 0 c).arrays ((dats m 0 c).arrAt · cfg0.N) : sProp 𝕄) ⊣⊢ arrBufs spec0 c (fun b => Vexit m c (Proc.devRef .tc b)) := by
  rw [arrBufs_chain, arrays_chain, Vexit_o5, Vexit_o6,
    Vexit_other m c main_v2 (by decide) (by decide), Vexit_other m c main_v10 (by decide) (by decide), Vexit_other m c main_v12 (by decide) (by decide),
    (dats m 0 c).arrAt_in 0 rfl, (dats m 0 c).arrAt_in 1 rfl, (dats m 0 c).arrAt_in 2 rfl, (dats m 0 c).arrAt_in 3 rfl, (dats m 0 c).arrAt_in 4 rfl,
    A_eq, A_eq, A_eq, A_eq, A_eq]
  constructor
  · iintro ⟨H2l, H2r, H10l, H10r, H12, H130, H131⟩
    isplitl [H2l H2r]
    · iapply (unhalve _ _)
      isplitl [H2l] <;> iassumption
    isplitl [H10l H10r]
    · iapply (unhalve _ _)
      isplitl [H10l] <;> iassumption
    isplitl [H12]; · iexact H12
    isplitl [H130]; · iexact H130
    iexact H131
  · iintro ⟨H2, H10, H12, H130, H131⟩
    ihave H2' := (halve _ _) $$ H2
    icases H2' with ⟨H2l, H2r⟩
    ihave H10' := (halve _ _) $$ H10
    icases H10' with ⟨H10l, H10r⟩
    isplitl [H2l]; · iexact H2l
    isplitl [H2r]; · iexact H2r
    isplitl [H10l]; · iexact H10l
    isplitl [H10r]; · iexact H10r
    isplitl [H12]; · iexact H12
    isplitl [H130]; · iexact H130
    iexact H131

/-- The buffers no window stages are where the region found them. -/
theorem rest_exit (c : Dev nD) :
    (unscopedRestP Pipeline.Prefetch.none spec0 c (V m c) : sProp 𝕄)
      = unscopedRestP Pipeline.Prefetch.none spec0 c (fun b => Vexit m c (Proc.devRef .tc b)) := by
  unfold Pipeline.unscopedRestP
  exact bigSep_congr fun b hb => by
    have hb' : b ∉ Finset.univ.image (arrRef spec0) := (Finset.mem_sdiff.mp (Finset.mem_sdiff.mp hb).1).2
    rw [arrImg] at hb'
    dsimp only
    rw [Vexit_other m c b (fun h => hb' (by rw [h]; decide)) (fun h => hb' (by rw [h]; decide))]

/-- The buffers a host line after the region may touch, held at a valuation: the five arrays' buffers and the rest. No
    injectivity of the windows' arrays is needed: the split is over the SET of arrays. -/
theorem held_tail (c : Dev nD) (Wv : Valuation τ sig (Elt F)) :
    (StableHlo.held (c.tc : Thread nD τ) (tailRefs sig Pipeline.Prefetch.none spec0) Wv : sProp 𝕄)
      = iprop(arrBufs spec0 c (fun b => Wv (Proc.devRef .tc b)) ∗ unscopedRestP Pipeline.Prefetch.none spec0 c (fun b => Wv (Proc.devRef .tc b))) := by
  classical
  have hdisj : Disjoint (Finset.univ.image (arrRef spec0)) (restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

theorem tail_sub : ∀ ops ∈ ([hostOps1, hostOps1_1] : List (List (HloOp τ sig (Elt F)))), ∀ op ∈ ops,
    op.bufs ⊆ tailRefs sig Pipeline.Prefetch.none spec0 := by
  rw [Pipeline.tailRefs_none spec0 winFacts₀0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The host lines after the region write none of the five arrays. -/
theorem Vfin_arr (c : Dev nD) (b : Ref sig .tc) (hb : b ∈ arrList) : Vfin m c (Proc.devRef .tc b) = Vexit m c (Proc.devRef .tc b) := by
  unfold Vfin
  refine StableHlo.after_of_forall_not_mem _ _ fun op hop => ?_
  simp only [List.flatten_cons, List.flatten_nil, List.append_nil, hostOps1, hostOps1_1, List.cons_append, List.nil_append,
    List.mem_cons, List.mem_nil_iff, or_false] at hop
  simp only [arrList, List.mem_cons, List.mem_nil_iff, or_false] at hb
  rcases hop with rfl | rfl | rfl | rfl | rfl | rfl | rfl | rfl | rfl | rfl | rfl | rfl <;>
    rcases hb with rfl | rfl | rfl | rfl | rfl <;>
    simp only [StableHlo.nullary_writes, StableHlo.unary_writes, StableHlo.binary_writes, StableHlo.ternary_writes,
      StableHlo.TRef.unary, StableHlo.TRef.ternary, Finset.mem_singleton] <;>
    exact StableHlo.devRef_ne_of_ne (by decide)

end Cert.Kernel.Body

end
-- ==== Proof.RunMainK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.BodyObligK
import proofs.«118708_j2697239462642_1_alg».proof.Proof.LaunchSharedK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## @main around the region -/

theorem pre_sub : ([hostOps0, hostOps0_1, hostOps0_2, hostOps0_3] : List (List (HloOp τ sig (Elt F)))).Forall
    fun ops => ops.Forall fun op => op.bufs ⊆ StableHlo.tcRefs τ sig :=
  ⟨hostOps0_sub, hostOps0_1_sub, hostOps0_2_sub, hostOps0_3_sub⟩
theorem pre_fresh : ([hostOps0, hostOps0_1, hostOps0_2, hostOps0_3] : List (List (HloOp τ sig (Elt F)))).Forall
    fun ops => ops.Forall fun op => op.fresh = ∅ := by
  simp only [List.Forall]; repeat' constructor

/-- @main is the host lines before the region, the region, the host lines after it: it reduces to the region continued by
    the later lines, at the contents the earlier lines leave. -/
theorem hmain (𝒱₀ : Variants) : HMainK (Ix := Unit) (Name := ℕ) (U := UR sig nD τ) (Lvl := ℕ) cfgs 0 defs₀ 𝒱₀ m (main (F := F)) (V m)
      (fun _ => chain [StableHlo.seq hostOps1, StableHlo.seq hostOps1_1]) :=
  hmain_around cfgs 0 defs₀ 𝒱₀ m main [hostOps0, hostOps0_1, hostOps0_2, hostOps0_3] [hostOps1, hostOps1_1] pre_sub pre_fresh main_chain

/-! ## The lines after the region, from the seven holdings -/

theorem arrBufs_fin (c : Dev nD) :
    (arrBufs spec0 c (fun b => Vfin m c (Proc.devRef .tc b)) : sProp 𝕄) = arrBufs spec0 c (fun b => Vexit m c (Proc.devRef .tc b)) := by
  unfold Pipeline.arrBufs
  exact bigSep_congr fun b hb => by
    dsimp only
    rw [Vfin_arr m c b (by rw [arrImg] at hb; exact List.mem_toFinset.mp hb)]

theorem pre_tail (c : Dev nD) :
    iprop(boundary (c.tc : Thread nD τ) ∗ (dats m 0 c).arrays ((dats m 0 c).arrAt · cfg0.N) ∗ unscopedRestP Prefetch.none spec0 c (V m c))
      ⊢ (iprop(boundary (c.tc : Thread nD τ) ∗ StableHlo.held (c.tc : Thread nD τ) (tailRefs sig Prefetch.none spec0) (Vexit m c)) : sProp 𝕄) := by
  rw [held_tail, rest_exit]
  iintro ⟨Hb, Ha, Hr⟩
  isplitl [Hb]; · iexact Hb
  isplitl [Ha]
  · iapply (arrays_exit m c).1; iexact Ha
  iexact Hr

theorem post_tail (c : Dev nD) :
    (StableHlo.held (c.tc : Thread nD τ) (tailRefs sig Prefetch.none spec0) (Vfin m c) : sProp 𝕄)
      ⊢ iprop((dats m 0 c).arrays ((dats m 0 c).arrAt · cfg0.N) ∗ unscopedRestP Prefetch.none spec0 c (fun b => Vfin m c (Proc.devRef .tc b))) := by
  rw [held_tail, arrBufs_fin]
  iintro ⟨Ha, Hr⟩
  isplitl [Ha]
  · iapply (arrays_exit m c).2; iexact Ha
  iexact Hr

set_option backward.isDefEq.respectTransparency.types false in
/-- From the region's exit the later host lines run within the five arrays' buffers and the buffers no window stages, and
    hand the seven holdings back unchanged with the rest at what the lines leave. -/
theorem htail (𝒱₀ : Variants) (c : Dev nD) (Q' : PUnit → sProp 𝕄) :
    iprop((iprop((dats m 0 c).arrays ((dats m 0 c).arrAt · cfg0.N) ∗ unscopedRestP Prefetch.none spec0 c (fun b => Vfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift 𝒱₀) (c.tc : Thread nD τ) none) Set.univ
          (chain (([hostOps1, hostOps1_1] : List (List (HloOp τ sig (Elt F)))).map StableHlo.seq)) Q' := by
  rw [← List.append_nil (([hostOps1, hostOps1_1] : List (List (HloOp τ sig (Elt F)))).map StableHlo.seq)]
  iintro ⟨Hk, H⟩
  ihave H' := (pre_tail m c) $$ H
  iapply (wp_seqs_then (fun q => (cfgs q).toPCfg (Val := Elt F)) defs₀ 𝒱₀ c (tailRefs sig Prefetch.none spec0) [] [hostOps1, hostOps1_1] tail_sub tail_fresh (Vexit m c)) $$ H'
  iintro H''
  rw [chain_nil, wp_pure]
  imodintro
  iapply Hk
  icases H'' with ⟨-, Hh⟩
  iapply (post_tail m c)
  iexact Hh

/-! ## The run -/

set_option backward.isDefEq.respectTransparency.types false in
set_option maxHeartbeats 1600000 in
/-- Every weakly fair execution of @main terminates, each window's array ends at what the proof data computes and every
    other unscoped buffer at what the host lines after the region leave. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefsP sig Prefetch.none spec0, r.2.mem ((c.tc : Thread nD τ).loc b) = Vfin m c (Proc.devRef .tc b)) := by
  classical
  exact θ_run_region_pf_tail (fun q => (cfgs q).toPCfg (Val := Elt F)) (fun q => (cfgs q).toPCfg_adm) (dats m) () cellOf_inj (0 : Fin 1)
    winFacts₀0 (OwnSemFacts.none spec0) (PreFacts.none _) emb₁ defs₀ Variants.none m ρ main
    (fun _ => chain (([hostOps1, hostOps1_1] : List (List (HloOp τ sig (Elt F)))).map StableHlo.seq))
    (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Vfin m c (Proc.devRef .tc b)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := htail m Variants.none)
    (QY := fun c s => ∀ b ∈ restRefsP sig Prefetch.none spec0, s.mem ((c.tc : Thread nD τ).loc b) = Vfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Vfin m c (Proc.devRef .tc b)) s')
      isplitl [HU] <;> iassumption)
    (hQ := fun s h c => ⟨(h c).1, (h c).2.2⟩)

end Cert.Kernel.Body

end
-- ==== Proof.FrameOfK.lean ====
import proofs.«118708_j2697239462642_1_alg».proof.Proof.Gen.Kernel.Launch
import proofs.«118708_j2697239462642_1_alg».proof.Proof.Gen.Kernel.Skeleton
import proofs.«118708_j2697239462642_1_alg».proof.Proof.Gen.Kernel.Points
import proofs.«118708_j2697239462642_1_alg».proof.Proof.RunMainK
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The argument arrays are never written -/

theorem V_arg0 (c : Dev nD) : V m c main_arg0 = m ((c.tc : Thread nD τ).loc main_arg0) := by
  dsimp only [V, V0]
  simp only [hostOps0, hostOps0_1, hostOps0_2, hostOps0_3, List.flatten_cons, List.flatten_nil, List.append_nil, List.cons_append, List.nil_append]
  after_results
theorem V_arg1 (c : Dev nD) : V m c main_arg1 = m ((c.tc : Thread nD τ).loc main_arg1) := by
  dsimp only [V, V0]
  simp only [hostOps0, hostOps0_1, hostOps0_2, hostOps0_3, List.flatten_cons, List.flatten_nil, List.append_nil, List.cons_append, List.nil_append]
  after_results

theorem Vfin_arg0 (c : Dev nD) : Vfin m c (Proc.devRef .tc main_arg0) = m ((c.tc : Thread nD τ).loc main_arg0) := by
  have h : Vfin m c (Proc.devRef .tc main_arg0) = Vexit m c (Proc.devRef .tc main_arg0) := by
    unfold Vfin
    simp only [hostOps1, hostOps1_1, List.flatten_cons, List.flatten_nil, List.append_nil, List.cons_append, List.nil_append]
    after_results
  rw [h, Vexit_other m c main_arg0 (by decide) (by decide)]
  exact V_arg0 m c
theorem Vfin_arg1 (c : Dev nD) : Vfin m c (Proc.devRef .tc main_arg1) = m ((c.tc : Thread nD τ).loc main_arg1) := by
  have h : Vfin m c (Proc.devRef .tc main_arg1) = Vexit m c (Proc.devRef .tc main_arg1) := by
    unfold Vfin
    simp only [hostOps1, hostOps1_1, List.flatten_cons, List.flatten_nil, List.append_nil, List.cons_append, List.nil_append]
    after_results
  rw [h, Vexit_other m c main_arg1 (by decide) (by decide)]
  exact V_arg1 m c

theorem arg0_rest : main_arg0 ∈ restRefsP sig Prefetch.none spec0 := by decide
theorem arg1_rest : main_arg1 ∈ restRefsP sig Prefetch.none spec0 := by decide
theorem v19_rest : main_v19 ∈ restRefsP sig Prefetch.none spec0 := by decide

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (Vfin_arg0 m c), ((h c).2 main_arg1 arg1_rest).trans (Vfin_arg1 m c)⟩)
    (run_main m ρ)

/-- The same run with the result named: the scalar the last host line writes. -/
theorem run_value : θ_run defs (onTc (τ := τ) (main (F := F))) ⟨m, fun _ => 0, ρ⟩ (fun r => ∀ c : Dev nD,
      r.2.mem ((c.tc : Thread nD τ).loc main_v19) = Vfin m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v19 v19_rest, ((h c).2 main_arg0 arg0_rest).trans (Vfin_arg0 m c), ((h c).2 main_arg1 arg1_rest).trans (Vfin_arg1 m c)⟩)
    (run_main m ρ)

end Cert.Kernel.Body

end
-- ==== Proof.BodyConds.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, read off the grid point

The accumulators are cleared where the key-block coordinate is 0 and the row block's loss is written where it is 15. -/

/-- The key-block coordinate is 0: the three accumulators are cleared first. -/
abbrev condFirst (i : grid0.Coords) : Prop :=
  (Scalar.cmpi .ne (Scalar.extui (Scalar.cmpi .eq (BitVec.ofNat 32 (i 1).val) 0#32)) 0#32) = 1#1
/-- The key-block coordinate is 15: the row block is finished and its two outputs are stored. -/
abbrev condLast (i : grid0.Coords) : Prop := k0_cond2 i = 1#1

theorem condFirst_iff : ∀ t : Fin cfg0.N, condFirst (grid0.coords t) ↔ t.val % 16 = 0 :=
  (by decide +kernel : ∀ t : Fin grid0.N, condFirst (grid0.coords t) ↔ t.val % 16 = 0)
theorem condLast_iff : ∀ t : Fin cfg0.N, condLast (grid0.coords t) ↔ t.val % 16 = 15 :=
  (by decide +kernel : ∀ t : Fin grid0.N, condLast (grid0.coords t) ↔ t.val % 16 = 15)

end Cert.KernelIdeal.Body

end
-- ==== Proof.RunFirst.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The first key block of a row block (coordinate 0): the three accumulators are found at anything, cleared, and the block's
    contribution is added; the inputs come back as they were and each accumulator with the pieces written (last first);
    the two output buffers are not touched. -/
noncomputable def runFirst (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : condFirst i) (hc1 : ¬condLast i)
    (x0 x1 : Vec F S512x256 .f32) (x2 x3 : Vec F S512x128 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Body

end
-- ==== Proof.RunMid.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A middle key block (coordinate neither 0 nor 15): on whole staging memrefs holding the five input blocks and the three
    accumulators, the body runs and hands back the inputs as they were and each accumulator with the pieces its store
    wrote; the two output buffers are not touched. The pieces are found by the run. -/
noncomputable def runMid (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : ¬condFirst i) (hc1 : ¬condLast i)
    (x0 x1 : Vec F S512x256 .f32) (x2 x3 : Vec F S512x128 .f32)
    (xs0 : Vec F S512x128 .f32) (xs1 xs2 : Vec F S512x1 .f32) :
    Σ' (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Body

end
-- ==== Proof.RunLast.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyConds
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The last key block of a row block (coordinate 15): the block's contribution is added to the three accumulators, and
    from their totals, the class counts and the row block's one-hot rows the per-row loss and the validity flag are stored
    into the two output buffers, found at anything. Inputs come back as they were; accumulators and outputs with the pieces written. -/
noncomputable def runLast (c : Dev nD) (i : grid0.Coords)
    (arg2 : Memref sig .tc .vmem S512x256 .f32) (harg2 : arg2.IsWhole) (arg3 : Memref sig .tc .vmem S512x256 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S1x128 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x128 .f32) (harg9 : arg9.IsWhole)
    (arg10 : Memref sig .tc .vmem S512x1 .f32) (harg10 : arg10.IsWhole) (arg11 : Memref sig .tc .vmem S512x1 .f32) (harg11 : arg11.IsWhole)
    (hc0 : ¬condFirst i) (hc1 : condLast i)
    (x0 x1 : Vec F S512x256 .f32) (x2 x3 : Vec F S512x128 .f32) (x4 : Vec F S1x128 .f32)
    (xs0 : Vec F S512x128 .f32) (xs1 xs2 : Vec F S512x1 .f32) :
    Σ' (L5 L6 : List (View.Piece (Elt F) S512x1 .f32)) (LS0 : List (View.Piece (Elt F) S512x128 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1
                ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__bsc_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__bsc_kernel_eq_skeleton]; unfold cc0__bsc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hf2; obtain rfl := harg5.eq_unread hf3; obtain rfl := harg6.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Body

end
-- ==== Proof.BodyData.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.RunFirst
import proofs.«118708_j2697239462642_1_alg».proof.Proof.RunMid
import proofs.«118708_j2697239462642_1_alg».proof.Proof.RunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the region finds

The host lines before the region compute the normalized features, the one-hot label matrix padded to 128 classes and the
class counts; the region finds every buffer at the contents those lines leave. -/

/-- Core `c`'s buffer contents when the region is entered: after the four stretches of host lines before it. -/
abbrev V0 (c : Dev nD) : Valuation τ sig (Elt F) :=
  StableHlo.after (List.flatten [hostOps0 (F := F), hostOps0_1 (F := F), hostOps0_2 (F := F), hostOps0_3 (F := F)]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The memrefs the body is called with -/

abbrev ms0 (t : Fin cfg0.N) : Memref sig .tc .vmem S512x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S512x256 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S512x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S512x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S1x128 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S512x1 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S512x1 .f32 := win0_6.stage (cfg0.slots t 6)
abbrev hs6 (t : Fin cfg0.N) : (ms6 t).IsWhole := Facts₀.hstage0_6 ((cfg0.slots t 6).cast Facts₀.nbuf0_6)
/-- The three accumulators: whole scoped buffers of the kernel's own. -/
abbrev scM0 : Memref sig .tc .vmem S512x128 .f32 := Memref.whole cc0_scratch0
abbrev scM1 : Memref sig .tc .vmem S512x1 .f32 := Memref.whole cc0_scratch1
abbrev scM2 : Memref sig .tc .vmem S512x1 .f32 := Memref.whole cc0_scratch2
abbrev VS0 : View sig .tc .vmem S512x128 .f32 := scM0.view
abbrev VS1 : View sig .tc .vmem S512x1 .f32 := scM1.view
abbrev VS2 : View sig .tc .vmem S512x1 .f32 := scM2.view
/-- One staging buffer of each output window, through which its contents are stated (the choice does not matter). -/
abbrev VO5 : View sig .tc .vmem S512x1 .f32 := (Memref.whole cc0_stg5_0 : Memref sig .tc .vmem S512x1 .f32).view
abbrev VO6 : View sig .tc .vmem S512x1 .f32 := (Memref.whole cc0_stg6_0 : Memref sig .tc .vmem S512x1 .f32).view

/-! ## Where the outputs are idle -/

theorem live_in : ∀ (w : Fin 7), w.val < 5 → ∀ t : Fin cfg0.N, cfg0.idle w (grid0.coords t) = false := by decide +kernel
theorem idle5 : ∀ t : Fin cfg0.N, ¬condLast (grid0.coords t) → cfg0.idle 5 (grid0.coords t) = true := by decide +kernel
theorem idle6 : ∀ t : Fin cfg0.N, ¬condLast (grid0.coords t) → cfg0.idle 6 (grid0.coords t) = true := by decide +kernel
theorem noFlush5 : ∀ t : Fin cfg0.N, ¬condLast (grid0.coords t) → (cfg0.win 5).flush t = false := by decide +kernel
theorem noFlush6 : ∀ t : Fin cfg0.N, ¬condLast (grid0.coords t) → (cfg0.win 6).flush t = false := by decide +kernel
theorem live5 : ∀ t : Fin cfg0.N, condLast (grid0.coords t) → cfg0.idle 5 (grid0.coords t) = false := by decide +kernel
theorem live6 : ∀ t : Fin cfg0.N, condLast (grid0.coords t) → cfg0.idle 6 (grid0.coords t) = false := by decide +kernel

/-! ## The three runs at a grid point -/

abbrev rF (c : Dev nD) (t : Fin cfg0.N) (hc0 : condFirst (grid0.coords t)) (hc1 : ¬condLast (grid0.coords t))
    (x0 x1 : Vec F S512x256 .f32) (x2 x3 : Vec F S512x128 .f32) :=
  runFirst c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3
abbrev rM (c : Dev nD) (t : Fin cfg0.N) (hc0 : ¬condFirst (grid0.coords t)) (hc1 : ¬condLast (grid0.coords t))
    (x0 x1 : Vec F S512x256 .f32) (x2 x3 : Vec F S512x128 .f32) (xs0 : Vec F S512x128 .f32) (xs1 xs2 : Vec F S512x1 .f32) :=
  runMid c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3 xs0 xs1 xs2
abbrev rL (c : Dev nD) (t : Fin cfg0.N) (hc0 : ¬condFirst (grid0.coords t)) (hc1 : condLast (grid0.coords t))
    (x0 x1 : Vec F S512x256 .f32) (x2 x3 : Vec F S512x128 .f32) (x4 : Vec F S1x128 .f32) (xs0 : Vec F S512x128 .f32) (xs1 xs2 : Vec F S512x1 .f32) :=
  runLast c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) hc0 hc1 x0 x1 x2 x3 x4 xs0 xs1 xs2

/-- What a grid point leaves: the two output blocks (meaningful at a last key block only) and the three accumulators. -/
abbrev St (F : FTy → Type) [FloatOps F] : Type :=
  Vec F S512x1 .f32 × Vec F S512x1 .f32 × Vec F S512x128 .f32 × Vec F S512x1 .f32 × Vec F S512x1 .f32

/-- After a first key block: each accumulator's pieces read back (the outputs are placeholders nothing consults). -/
def stF (c : Dev nD) (t : Fin cfg0.N) (hc0 : condFirst (grid0.coords t)) (hc1 : ¬condLast (grid0.coords t))
    (x0 x1 : Vec F S512x256 .f32) (x2 x3 : Vec F S512x128 .f32) : St F :=
  (VO5.junk, VO6.junk,
   VS0.read (Elt F) (VS0.writes (Elt F) VS0.junk (rF c t hc0 hc1 x0 x1 x2 x3).1),
   VS1.read (Elt F) (VS1.writes (Elt F) VS1.junk (rF c t hc0 hc1 x0 x1 x2 x3).2.1),
   VS2.read (Elt F) (VS2.writes (Elt F) VS2.junk (rF c t hc0 hc1 x0 x1 x2 x3).2.2.1))
/-- After a middle key block. -/
def stM (c : Dev nD) (t : Fin cfg0.N) (hc0 : ¬condFirst (grid0.coords t)) (hc1 : ¬condLast (grid0.coords t))
    (x0 x1 : Vec F S512x256 .f32) (x2 x3 : Vec F S512x128 .f32) (xs0 : Vec F S512x128 .f32) (xs1 xs2 : Vec F S512x1 .f32) : St F :=
  (VO5.junk, VO6.junk,
   VS0.read (Elt F) (VS0.writes (Elt F) VS0.junk (rM c t hc0 hc1 x0 x1 x2 x3 xs0 xs1 xs2).1),
   VS1.read (Elt F) (VS1.writes (Elt F) VS1.junk (rM c t hc0 hc1 x0 x1 x2 x3 xs0 xs1 xs2).2.1),
   VS2.read (Elt F) (VS2.writes (Elt F) VS2.junk (rM c t hc0 hc1 x0 x1 x2 x3 xs0 xs1 xs2).2.2.1))
/-- After a last key block: the two outputs' pieces read back as well. -/
def stL (c : Dev nD) (t : Fin cfg0.N) (hc0 : ¬condFirst (grid0.coords t)) (hc1 : condLast (grid0.coords t))
    (x0 x1 : Vec F S512x256 .f32) (x2 x3 : Vec F S512x128 .f32) (x4 : Vec F S1x128 .f32) (xs0 : Vec F S512x128 .f32) (xs1 xs2 : Vec F S512x1 .f32) : St F :=
  (VO5.read (Elt F) (VO5.writes (Elt F) VO5.junk (rL c t hc0 hc1 x0 x1 x2 x3 x4 xs0 xs1 xs2).1),
   VO6.read (Elt F) (VO6.writes (Elt F) VO6.junk (rL c t hc0 hc1 x0 x1 x2 x3 x4 xs0 xs1 xs2).2.1),
   VS0.read (Elt F) (VS0.writes (Elt F) VS0.junk (rL c t hc0 hc1 x0 x1 x2 x3 x4 xs0 xs1 xs2).2.2.1),
   VS1.read (Elt F) (VS1.writes (Elt F) VS1.junk (rL c t hc0 hc1 x0 x1 x2 x3 x4 xs0 xs1 xs2).2.2.2.1),
   VS2.read (Elt F) (VS2.writes (Elt F) VS2.junk (rL c t hc0 hc1 x0 x1 x2 x3 x4 xs0 xs1 xs2).2.2.2.2.1))

/-! ## Each store covers its buffer -/

theorem covF0 (c : Dev nD) (t : Fin cfg0.N) (hc0) (hc1) (x0 x1 : Vec F S512x256 .f32) (x2 x3 : Vec F S512x128 .f32) (y : S512x128.Idx) :
    ∃ pc ∈ (rF c t hc0 hc1 x0 x1 x2 x3).1, y ∈ pc.1.set :=
  View.cover_of_tiledL (rF c t hc0 hc1 x0 x1 x2 x3).1 S512x128.size (by sl_kernel_rfl) y
theorem covF1 (c : Dev nD) (t : Fin cfg0.N) (hc0) (hc1) (x0 x1 : Vec F S512x256 .f32) (x2 x3 : Vec F S512x128 .f32) (y : S512x1.Idx) :
    ∃ pc ∈ (rF c t hc0 hc1 x0 x1 x2 x3).2.1, y ∈ pc.1.set :=
  View.cover_of_tiledL (rF c t hc0 hc1 x0 x1 x2 x3).2.1 S512x1.size (by sl_kernel_rfl) y
theorem covF2 (c : Dev nD) (t : Fin cfg0.N) (hc0) (hc1) (x0 x1 : Vec F S512x256 .f32) (x2 x3 : Vec F S512x128 .f32) (y : S512x1.Idx) :
    ∃ pc ∈ (rF c t hc0 hc1 x0 x1 x2 x3).2.2.1, y ∈ pc.1.set :=
  View.cover_of_tiledL (rF c t hc0 hc1 x0 x1 x2 x3).2.2.1 S512x1.size (by sl_kernel_rfl) y

theorem covM0 (c : Dev nD) (t : Fin cfg0.N) (hc0) (hc1) (x0 x1 : Vec F S512x256 .f32) (x2 x3 : Vec F S512x128 .f32) (xs0 : Vec F S512x128 .f32) (xs1 xs2 : Vec F S512x1 .f32) (y : S512x128.Idx) :
    ∃ pc ∈ (rM c t hc0 hc1 x0 x1 x2 x3 xs0 xs1 xs2).1, y ∈ pc.1.set :=
  View.cover_of_tiledL (rM c t hc0 hc1 x0 x1 x2 x3 xs0 xs1 xs2).1 S512x128.size (by sl_kernel_rfl) y
theorem covM1 (c : Dev nD) (t : Fin cfg0.N) (hc0) (hc1) (x0 x1 : Vec F S512x256 .f32) (x2 x3 : Vec F S512x128 .f32) (xs0 : Vec F S512x128 .f32) (xs1 xs2 : Vec F S512x1 .f32) (y : S512x1.Idx) :
    ∃ pc ∈ (rM c t hc0 hc1 x0 x1 x2 x3 xs0 xs1 xs2).2.1, y ∈ pc.1.set :=
  View.cover_of_tiledL (rM c t hc0 hc1 x0 x1 x2 x3 xs0 xs1 xs2).2.1 S512x1.size (by sl_kernel_rfl) y
theorem covM2 (c : Dev nD) (t : Fin cfg0.N) (hc0) (hc1) (x0 x1 : Vec F S512x256 .f32) (x2 x3 : Vec F S512x128 .f32) (xs0 : Vec F S512x128 .f32) (xs1 xs2 : Vec F S512x1 .f32) (y : S512x1.Idx) :
    ∃ pc ∈ (rM c t hc0 hc1 x0 x1 x2 x3 xs0 xs1 xs2).2.2.1, y ∈ pc.1.set :=
  View.cover_of_tiledL (rM c t hc0 hc1 x0 x1 x2 x3 xs0 xs1 xs2).2.2.1 S512x1.size (by sl_kernel_rfl) y

theorem covL5 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).1, y ∈ pc.1.set :=
  View.cover_of_tiledL (rL c t hc0 hc1 x0 x1 x2 x3 x4 xs0 xs1 xs2).1 S512x1.size (by sl_kernel_rfl) y
theorem covL6 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.1, y ∈ pc.1.set :=
  View.cover_of_tiledL (rL c t hc0 hc1 x0 x1 x2 x3 x4 xs0 xs1 xs2).2.1 S512x1.size (by sl_kernel_rfl) y
theorem covL0 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x128.Idx) :
    ∃ pc ∈ (rL c t hc0 hc1 x0 x1 x2 x3 x4 xs0 xs1 xs2).2.2.1, y ∈ pc.1.set :=
  View.cover_of_tiledL (rL c t hc0 hc1 x0 x1 x2 x3 x4 xs0 xs1 xs2).2.2.1 S512x128.size (by sl_kernel_rfl) y
theorem covL1 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.2.2.1, y ∈ pc.1.set :=
  View.cover_of_tiledL (rL c t hc0 hc1 x0 x1 x2 x3 x4 xs0 xs1 xs2).2.2.2.1 S512x1.size (by sl_kernel_rfl) y
theorem covL2 (c : Dev nD) (t : Fin cfg0.N) (hc0) (hc1) (x0 x1 : Vec F S512x256 .f32) (x2 x3 : Vec F S512x128 .f32) (x4 : Vec F S1x128 .f32) (xs0 : Vec F S512x128 .f32) (xs1 xs2 : Vec F S512x1 .f32) (y : S512x1.Idx) :
    ∃ pc ∈ (rL c t hc0 hc1 x0 x1 x2 x3 x4 xs0 xs1 xs2).2.2.2.2.1, y ∈ pc.1.set :=
  View.cover_of_tiledL (rL c t hc0 hc1 x0 x1 x2 x3 x4 xs0 xs1 xs2).2.2.2.2.1 S512x1.size (by sl_kernel_rfl) y

end Cert.KernelIdeal.Body

end
-- ==== Proof.BodyState.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the region has left after each grid point

Row block by row block the three accumulators are cleared at the first key block, added to at every key block, and read at
the last, where the row block's two outputs are stored. -/

/-- After point `n`: the case the point is in, run on the point's input blocks and (but at a first key block) on the
    accumulators the point before left. -/
def stateAt (c : Dev nD) : (n : ℕ) → n < cfg0.N → St F
  | 0, hn => stF c ⟨0, hn⟩ ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 16 = 0 then
      if h1 : (n + 1) % 16 = 15 then
        False.elim (by omega)
      else
        stF c ⟨n + 1, hn⟩ ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 16 = 15 then
        stL c ⟨n + 1, hn⟩ (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2.2.1 (stateAt c n (Nat.lt_of_succ_lt hn)).2.2.2.1 (stateAt c n (Nat.lt_of_succ_lt hn)).2.2.2.2
      else
        stM c ⟨n + 1, hn⟩ (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (stateAt c n (Nat.lt_of_succ_lt hn)).2.2.1 (stateAt c n (Nat.lt_of_succ_lt hn)).2.2.2.1 (stateAt c n (Nat.lt_of_succ_lt hn)).2.2.2.2

/-- The state the point before `t` left (read only where `t` is not a first key block). -/
abbrev prevSt (c : Dev nD) (t : Fin cfg0.N) : St F := stateAt m c (t.val - 1) (Nat.lt_of_le_of_lt (Nat.sub_le _ _) t.isLt)

theorem stateAt_first (c : Dev nD) (t : Fin cfg0.N) (h0 : t.val % 16 = 0) (h1 : ¬t.val % 16 = 15) :
    stateAt m c t.val t.isLt = stF c t ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem stateAt_mid (c : Dev nD) (t : Fin cfg0.N) (h0 : ¬t.val % 16 = 0) (h1 : ¬t.val % 16 = 15) :
    stateAt m c t.val t.isLt = stM c t (fun h => h0 ((condFirst_iff t).mp h)) (fun h => h1 ((condLast_iff t).mp h)) (iblk m c 0 t) (iblk m c 1 t) (iblk m c 2 t) (iblk m c 3 t)
      (prevSt m c t).2.2.1 (prevSt m c t).2.2.2.1 (prevSt m c t).2.2.2.2 := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 16 = 0) (h1 : t.val % 16 = 15) :
    stateAt m c t.val t.isLt = stL c t (fun h => h0 ((condFirst_iff t).mp h)) ((condLast_iff t).mpr h1) (iblk m c 0 t) (iblk m c 1 t) (iblk m c 2 t) (iblk m c 3 t) (iblk m c 4 t)
      (prevSt m c t).2.2.1 (prevSt m c t).2.2.2.1 (prevSt m c t).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point every accumulator holds anything; after point `n` each holds what that point left. -/
def PhiS (c : Dev nD) : (n : ℕ) → n ≤ cfg0.N → sProp 𝕄
  | 0, _ => Pipeline.ΦA spec0 c
  | n + 1, hn => iprop(iprop(owns (c : Thread nD τ) scM0 fullShare ((stateAt m c n hn).2.2.1) ∗ owns (c : Thread nD τ) scM1 fullShare ((stateAt m c n hn).2.2.2.1) ∗ owns (c : Thread nD τ) scM2 fullShare ((stateAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((stateAt m c n hn).2.2.1) ∗ owns (c : Thread nD τ) scM1 fullShare ((stateAt m c n hn).2.2.2.1) ∗ owns (c : Thread nD τ) scM2 fullShare ((stateAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((stateAt m c (n - 1) (by omega)).2.2.1) ∗ owns (c : Thread nD τ) scM1 fullShare ((stateAt m c (n - 1) (by omega)).2.2.2.1) ∗ owns (c : Thread nD τ) scM2 fullShare ((stateAt m c (n - 1) (by omega)).2.2.2.2)) ∗ (∃ r, prngReg c r)) := by
  cases n with
  | zero => exact absurd rfl hz
  | succ n => rfl

/-- The launch's invariant with the three accumulators as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The pipeline's proof data -/

/-- The arrays as the region finds them; after the body at point `t` each input's buffer at its block and the outputs' at
    `stateAt`; the invariant `PhiS`; nothing owed. The two windows on the normalized features hold its array at one half
    share each, and so the two on the one-hot matrix. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
    | ⟨6, _⟩ => (stateAt m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (stateAt m c t.val t.isLt).1 := by dsimp only [dats]
theorem after6 (c : Dev nD) (t : Fin cfg0.N) : (dats m 0 c).after 6 t = (stateAt m c t.val t.isLt).2.1 := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.Body

end
-- ==== Proof.BlockReads.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyState
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-! ## Where each window's block sits

Point `t` of the 16 × 16 grid is row block `t / 16` and key block `t % 16`. The row-block windows (features, one-hot rows,
the two outputs) sit at block `t / 16`, the key-block windows at block `t % 16`, the class counts at block 0. -/

theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

theorem coords_facts : ∀ t : Fin cfg0.N, (grid0.coords t 0).val = t.val / 16 ∧ (grid0.coords t 1).val = t.val % 16 :=
  (by decide +kernel : ∀ t : Fin grid0.N, _)

/-- Row `p` of block `q` of an array of 8192 rows. -/
abbrev rowOf (q : ℕ) (hq : q < 16) (p : Fin 512) : Fin 8192 := ⟨q * 512 + p.val, by have := p.isLt; omega⟩

theorem tq (t : Fin cfg0.N) : t.val / 16 < 16 := by
  have : t.val < 256 := lt_of_lt_of_eq t.isLt (show cfg0.N = 256 from N_0); omega
theorem tk (t : Fin cfg0.N) : t.val % 16 < 16 := Nat.mod_lt _ (by decide)

/-- The row block of normalized features at point `t`. -/
theorem iblk0_at (c : Dev nD) (t : Fin cfg0.N) (p : Fin 512) (h : Fin 256) :
    iblk m c 0 t (ix2 p h) = V m c main_v2 (ix2 (rowOf (t.val / 16) (tq t) p) h) := by
  obtain ⟨e00, e01, -⟩ := idx_facts t
  show V m c main_v2 (((cfg0.win 0).blk t).view.emb (ix2 p h)) = _
  congr 1
  funext a; apply Fin.ext
  match a with
  | ⟨0, _⟩ => show win0_0.index t (0 : Fin 2) * 512 + 1 * p.val = t.val / 16 * 512 + p.val; omega
  | ⟨1, _⟩ => show win0_0.index t (1 : Fin 2) * 256 + 1 * h.val = h.val; omega

/-- The key block of normalized features at point `t`. -/
theorem iblk1_at (c : Dev nD) (t : Fin cfg0.N) (j : Fin 512) (h : Fin 256) :
    iblk m c 1 t (ix2 j h) = V m c main_v2 (ix2 (rowOf (t.val % 16) (tk t) j) h) := by
  obtain ⟨-, -, e10, e11, -⟩ := idx_facts t
  show V m c main_v2 (((cfg0.win 1).blk t).view.emb (ix2 j h)) = _
  congr 1
  funext a; apply Fin.ext
  match a with
  | ⟨0, _⟩ => show win0_1.index t (0 : Fin 2) * 512 + 1 * j.val = t.val % 16 * 512 + j.val; omega
  | ⟨1, _⟩ => show win0_1.index t (1 : Fin 2) * 256 + 1 * h.val = h.val; omega

/-- The row block of one-hot rows at point `t`. -/
theorem iblk2_at (c : Dev nD) (t : Fin cfg0.N) (p : Fin 512) (k : Fin 128) :
    iblk m c 2 t (ix2 p k) = V m c main_v10 (ix2 (rowOf (t.val / 16) (tq t) p) k) := by
  obtain ⟨-, -, -, -, e20, e21, -⟩ := idx_facts t
  show V m c main_v10 (((cfg0.win 2).blk t).view.emb (ix2 p k)) = _
  congr 1
  funext a; apply Fin.ext
  match a with
  | ⟨0, _⟩ => show win0_2.index t (0 : Fin 2) * 512 + 1 * p.val = t.val / 16 * 512 + p.val; omega
  | ⟨1, _⟩ => show win0_2.index t (1 : Fin 2) * 128 + 1 * k.val = k.val; omega

/-- The key block of one-hot rows at point `t`. -/
theorem iblk3_at (c : Dev nD) (t : Fin cfg0.N) (j : Fin 512) (k : Fin 128) :
    iblk m c 3 t (ix2 j k) = V m c main_v10 (ix2 (rowOf (t.val % 16) (tk t) j) k) := by
  obtain ⟨-, -, -, -, -, -, e30, e31, -⟩ := idx_facts t
  show V m c main_v10 (((cfg0.win 3).blk t).view.emb (ix2 j k)) = _
  congr 1
  funext a; apply Fin.ext
  match a with
  | ⟨0, _⟩ => show win0_3.index t (0 : Fin 2) * 512 + 1 * j.val = t.val % 16 * 512 + j.val; omega
  | ⟨1, _⟩ => show win0_3.index t (1 : Fin 2) * 128 + 1 * k.val = k.val; omega

/-- The class counts, the same block at every point. -/
theorem iblk4_at (c : Dev nD) (t : Fin cfg0.N) (z : Fin 1) (k : Fin 128) :
    iblk m c 4 t (ix2 z k) = V m c main_v12 (ix2 z k) := by
  obtain ⟨-, -, -, -, -, -, -, -, e40, e41, -⟩ := idx_facts t
  show V m c main_v12 (((cfg0.win 4).blk t).view.emb (ix2 z k)) = _
  congr 1
  funext a; apply Fin.ext
  match a with
  | ⟨0, _⟩ => show win0_4.index t (0 : Fin 2) * 1 + 1 * z.val = z.val; omega
  | ⟨1, _⟩ => show win0_4.index t (1 : Fin 2) * 128 + 1 * k.val = k.val; omega

end Cert.KernelIdeal.Body

end
-- ==== Proof.Pieces.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyData
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case's stores leave, as the body's own arithmetic

Each accumulator (and, at a last key block, each output) after a grid point is one payload of the body — the named pure
term of the values the body loaded — at the point's input blocks and the accumulators the point found. -/

theorem hz2 : (![0, 0] : Fin 2 → Nat) = fun _ => 0 := by funext a; fin_cases a <;> rfl

section Mid
variable (c : Dev nD) (t : Fin cfg0.N) (hc0 : ¬condFirst (grid0.coords t)) (hc1 : ¬condLast (grid0.coords t))
  (x0 x1 : Vec F S512x256 .f32) (x2 x3 : Vec F S512x128 .f32) (xs0 : Vec F S512x128 .f32) (xs1 xs2 : Vec F S512x1 .f32)

/-- Middle key block: the class sums gain the tile's contribution. -/
theorem stM_a0 : (stM c t hc0 hc1 x0 x1 x2 x3 xs0 xs1 xs2).2.2.1 = k0_pay14 (grid0.coords t) x0 x1 x3 xs0 := by
  unfold stM; dsimp only
  rw [View.read_writes_eq_canon _ _ _ (covM0 c t hc0 hc1 x0 x1 x2 x3 xs0 xs1 xs2)]
  unfold rM runMid; dsimp only
  sl_unfold_words
  rw [View.canon_unit_zero hz2]
  simp only [View.readAt_eq_ld, Memref.IsWhole.read_unread, View.ld_unit_zero (S := S512x256) hz2, View.ld_unit_zero (S := S512x128) hz2]
  exact congrArg _ (Memref.IsWhole.read_unread _ _)

/-- Middle key block: the number of positives gains the tile's. -/
theorem stM_a1 : (stM c t hc0 hc1 x0 x1 x2 x3 xs0 xs1 xs2).2.2.2.1
    = k0_pay2 (k0_pay11 (F := F) (grid0.coords t)) (k0_pay12 x2) (k0_pay13 x3) xs1 := by
  unfold stM; dsimp only
  rw [View.read_writes_eq_canon _ _ _ (covM1 c t hc0 hc1 x0 x1 x2 x3 xs0 xs1 xs2)]
  unfold rM runMid; dsimp only
  sl_unfold_words
  rw [View.canon_unit_zero hz2]
  simp only [View.readAt_eq_ld, Memref.IsWhole.read_unread, View.ld_unit_zero (S := S512x128) hz2, View.ld_unit_zero (S := S512x1) hz2]
  exact congrArg _ (Memref.IsWhole.read_unread _ _)

/-- Middle key block: the sum of similarities to the positives gains the tile's. -/
theorem stM_a2 : (stM c t hc0 hc1 x0 x1 x2 x3 xs0 xs1 xs2).2.2.2.2
    = k0_pay3 (k0_pay10 x0 x1) (k0_pay11 (F := F) (grid0.coords t)) (k0_pay12 x2) (k0_pay13 x3) xs2 := by
  unfold stM; dsimp only
  rw [View.read_writes_eq_canon _ _ _ (covM2 c t hc0 hc1 x0 x1 x2 x3 xs0 xs1 xs2)]
  unfold rM runMid; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2]
  exact congrArg _ (Memref.IsWhole.read_unread _ _)
end Mid

section First
variable (c : Dev nD) (t : Fin cfg0.N) (hc0 : condFirst (grid0.coords t)) (hc1 : ¬condLast (grid0.coords t))
  (x0 x1 : Vec F S512x256 .f32) (x2 x3 : Vec F S512x128 .f32)

/-- First key block: the accumulators are the tile's contribution added to a cleared accumulator. -/
theorem stF_a0 : (stF c t hc0 hc1 x0 x1 x2 x3).2.2.1 = k0_pay14 (grid0.coords t) x0 x1 x3 (k0_pay7 (F := F)) := by
  unfold stF; dsimp only
  rw [View.read_writes_eq_canon _ _ _ (covF0 c t hc0 hc1 x0 x1 x2 x3)]
  unfold rF runFirst; dsimp only
  sl_unfold_words
  rw [View.canon_cons_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]

theorem stF_a1 : (stF c t hc0 hc1 x0 x1 x2 x3).2.2.2.1 = k0_pay2 (k0_pay11 (F := F) (grid0.coords t)) (k0_pay12 x2) (k0_pay13 x3) (k0_pay8 (F := F)) := by
  unfold stF; dsimp only
  rw [View.read_writes_eq_canon _ _ _ (covF1 c t hc0 hc1 x0 x1 x2 x3)]
  unfold rF runFirst; dsimp only
  sl_unfold_words
  rw [View.canon_cons_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]

theorem stF_a2 : (stF c t hc0 hc1 x0 x1 x2 x3).2.2.2.2 = k0_pay3 (k0_pay10 x0 x1) (k0_pay11 (F := F) (grid0.coords t)) (k0_pay12 x2) (k0_pay13 x3) (k0_pay9 (F := F)) := by
  unfold stF; dsimp only
  rw [View.read_writes_eq_canon _ _ _ (covF2 c t hc0 hc1 x0 x1 x2 x3)]
  unfold rF runFirst; dsimp only
  sl_unfold_words
  rw [View.canon_cons_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]

end First

section Last
variable (c : Dev nD) (t : Fin cfg0.N) (hc0 : ¬condFirst (grid0.coords t)) (hc1 : condLast (grid0.coords t))
  (x0 x1 : Vec F S512x256 .f32) (x2 x3 : Vec F S512x128 .f32) (x4 : Vec F S1x128 .f32) (xs0 : Vec F S512x128 .f32) (xs1 xs2 : Vec F S512x1 .f32)

/-- Last key block: the accumulators gain the tile's contribution as at any other key block, -/
theorem stL_a0 : (stL c t hc0 hc1 x0 x1 x2 x3 x4 xs0 xs1 xs2).2.2.1 = k0_pay14 (grid0.coords t) x0 x1 x3 xs0 := by
  unfold stL; dsimp only
  rw [View.read_writes_eq_canon _ _ _ (covL0 c t hc0 hc1 x0 x1 x2 x3 x4 xs0 xs1 xs2)]
  unfold rL runLast; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]
  exact congrArg _ (Memref.IsWhole.read_unread _ _)

theorem stL_a1 : (stL c t hc0 hc1 x0 x1 x2 x3 x4 xs0 xs1 xs2).2.2.2.1 = k0_pay2 (k0_pay11 (F := F) (grid0.coords t)) (k0_pay12 x2) (k0_pay13 x3) xs1 := by
  unfold stL; dsimp only
  rw [View.read_writes_eq_canon _ _ _ (covL1 c t hc0 hc1 x0 x1 x2 x3 x4 xs0 xs1 xs2)]
  unfold rL runLast; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]
  exact congrArg _ (Memref.IsWhole.read_unread _ _)

theorem stL_a2 : (stL c t hc0 hc1 x0 x1 x2 x3 x4 xs0 xs1 xs2).2.2.2.2 = k0_pay3 (k0_pay10 x0 x1) (k0_pay11 (F := F) (grid0.coords t)) (k0_pay12 x2) (k0_pay13 x3) xs2 := by
  unfold stL; dsimp only
  rw [View.read_writes_eq_canon _ _ _ (covL2 c t hc0 hc1 x0 x1 x2 x3 x4 xs0 xs1 xs2)]
  unfold rL runLast; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]
  exact congrArg _ (Memref.IsWhole.read_unread _ _)

/-- and the two outputs are the finishing arithmetic of the three totals, the class counts and the row block's one-hot rows. -/
theorem stL_o5 : (stL c t hc0 hc1 x0 x1 x2 x3 x4 xs0 xs1 xs2).1 = k0_pay5 (k0_pay12 x2) x4 (k0_pay14 (grid0.coords t) x0 x1 x3 xs0) (k0_pay2 (k0_pay11 (F := F) (grid0.coords t)) (k0_pay12 x2) (k0_pay13 x3) xs1) (k0_pay3 (k0_pay10 x0 x1) (k0_pay11 (F := F) (grid0.coords t)) (k0_pay12 x2) (k0_pay13 x3) xs2) := by
  unfold stL; dsimp only
  rw [View.read_writes_eq_canon _ _ _ (covL5 c t hc0 hc1 x0 x1 x2 x3 x4 xs0 xs1 xs2)]
  unfold rL runLast; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]
  congr 1 <;> exact congrArg _ (Memref.IsWhole.read_unread _ _)

theorem stL_o6 : (stL c t hc0 hc1 x0 x1 x2 x3 x4 xs0 xs1 xs2).2.1 = k0_pay6 (k0_pay2 (k0_pay11 (F := F) (grid0.coords t)) (k0_pay12 x2) (k0_pay13 x3) xs1) := by
  unfold stL; dsimp only
  rw [View.read_writes_eq_canon _ _ _ (covL6 c t hc0 hc1 x0 x1 x2 x3 x4 xs0 xs1 xs2)]
  unfold rL runLast; dsimp only
  sl_unfold_words
  rw [View.canon_unit_zero hz2]
  simp only [View.readAt_eq_ld, Memref.IsWhole.read_unread, View.ld_unit_zero (S := S512x256) hz2, View.ld_unit_zero (S := S512x128) hz2, View.ld_unit_zero (S := S512x1) hz2, View.ld_unit_zero (S := S1x128) hz2, View.readCov_unit_zero (S := S512x128) _ hz2, View.readCov_unit_zero (S := S512x1) _ hz2]
  exact congrArg _ (congrArg _ (Memref.IsWhole.read_unread _ _))

end Last

end Cert.KernelIdeal.Body

end
-- ==== Proof.KerSpec.lean ====
import Idealize.ShloMosaic.PureOps.Ideal
import Idealize.ShloMosaic.Lib.ValueIdx

/-!
# The loss as the kernel computes it, as one function on extended reals

The kernel walks a 16 × 16 grid of 512 × 512 tiles of the pairwise similarity matrix. For the row block `q` and the key
block `kj` it adds to three accumulators, per row `r` of the row block: the class sums of `exp` similarities over the
tile's keys, the number of positives among the tile's keys, and the sum of the similarities to those positives; at the last
key block it turns the three totals into the row's loss and validity flag. Everything below is stated from

* `f r h` — the normalized feature matrix (8192 rows, 256 columns),
* `oh r c` — the one-hot label matrix PADDED with zero columns to 128 classes,
* `cnt c` — the column sums of the padded one-hot matrix, and
* `κ` — the factor the similarities are multiplied by (the reciprocal of the temperature),

with exact operations on `EReal`. The words of `0.0` and `1.0` are written `0` and `1`; the floor under the logarithm is kept
as its word; a sum into a cleared accumulator is written without the leading zero.
-/

noncomputable section

open scoped BigOperators

namespace KerSpec

open Idealize.ShloMosaic

/-- Row `p` of block `q`: blocks are 512 consecutive rows. -/
def row (q : Fin 16) (p : Fin 512) : Fin 8192 := ⟨q.val * 512 + p.val, by have := q.isLt; have := p.isLt; omega⟩

/-- Similarity of rows `r` and `k`: the inner product of the normalized rows times `κ`. -/
def sim (κ : EReal) (f : Fin 8192 → Fin 256 → EReal) (r k : Fin 8192) : EReal :=
  (∑ h : Fin 256, f r h * f k h) * κ

/-- The off-diagonal factor `[r ≠ k]`. -/
def offd (r k : Fin 8192) : EReal := if r = k then 0 else 1

/-- `E r k = exp (sim r k) · [r ≠ k]`. -/
def E (κ : EReal) (f : Fin 8192 → Fin 256 → EReal) (r k : Fin 8192) : EReal :=
  Ideal.exp (sim κ f r k) * offd r k

/-- One tile's contribution to the class sums of row `r`: over the 512 keys of key block `kj`. -/
def part0 (κ : EReal) (f : Fin 8192 → Fin 256 → EReal) (oh : Fin 8192 → Fin 128 → EReal) (r : Fin 8192) (kj : Fin 16) (c : Fin 128) : EReal :=
  ∑ j : Fin 512, E κ f r (row kj j) * oh (row kj j) c

/-- `pos r k`: the product of the padded one-hot rows of `r` and `k`, times `[r ≠ k]`. -/
def pos (oh : Fin 8192 → Fin 128 → EReal) (r k : Fin 8192) : EReal :=
  (∑ c : Fin 128, oh r c * oh k c) * offd r k

/-- One tile's contribution to the number of positives of row `r`. -/
def part1 (oh : Fin 8192 → Fin 128 → EReal) (r : Fin 8192) (kj : Fin 16) : EReal :=
  ∑ j : Fin 512, pos oh r (row kj j)

/-- One tile's contribution to the sum of the similarities to the positives of row `r`. -/
def part2 (κ : EReal) (f : Fin 8192 → Fin 256 → EReal) (oh : Fin 8192 → Fin 128 → EReal) (r : Fin 8192) (kj : Fin 16) : EReal :=
  ∑ j : Fin 512, sim κ f r (row kj j) * pos oh r (row kj j)

/-- The three totals over the 16 key blocks. -/
def A0 (κ : EReal) (f : Fin 8192 → Fin 256 → EReal) (oh : Fin 8192 → Fin 128 → EReal) (r : Fin 8192) (c : Fin 128) : EReal :=
  ∑ kj : Fin 16, part0 κ f oh r kj c
def A1 (oh : Fin 8192 → Fin 128 → EReal) (r : Fin 8192) : EReal := ∑ kj : Fin 16, part1 oh r kj
def A2 (κ : EReal) (f : Fin 8192 → Fin 256 → EReal) (oh : Fin 8192 → Fin 128 → EReal) (r : Fin 8192) : EReal :=
  ∑ kj : Fin 16, part2 κ f oh r kj

/-- Per row and class: the number of other rows of the class. -/
def cnti (cnt : Fin 128 → EReal) (oh : Fin 8192 → Fin 128 → EReal) (r : Fin 8192) (c : Fin 128) : EReal := cnt c - oh r c

/-- One class's term of the denominator. -/
def term (κ : EReal) (f : Fin 8192 → Fin 256 → EReal) (oh : Fin 8192 → Fin 128 → EReal) (cnt : Fin 128 → EReal) (r : Fin 8192) (c : Fin 128) : EReal :=
  if 0 < cnti cnt oh r c then Ideal.div (A0 κ f oh r c) (max (cnti cnt oh r c) 1) else 0

/-- The denominator of row `r`: over all 128 (padded) classes. -/
def denom (κ : EReal) (f : Fin 8192 → Fin 256 → EReal) (oh : Fin 8192 → Fin 128 → EReal) (cnt : Fin 128 → EReal) (r : Fin 8192) : EReal :=
  ∑ c : Fin 128, term κ f oh cnt r c

/-- The loss of row `r`. -/
def lossRow (κ : EReal) (f : Fin 8192 → Fin 256 → EReal) (oh : Fin 8192 → Fin 128 → EReal) (cnt : Fin 128 → EReal) (r : Fin 8192) : EReal :=
  if 0 < A1 oh r then
    Ideal.log (max (denom κ f oh cnt r) (Ideal.ofBits .f32 0x0DA24260#32)) - Ideal.div (A2 κ f oh r) (max (A1 oh r) 1)
  else 0

/-- The validity flag of row `r` as a number. -/
def validf (oh : Fin 8192 → Fin 128 → EReal) (r : Fin 8192) : EReal := if 0 < A1 oh r then 1 else 0

/-- The number of valid rows. -/
def nValid (oh : Fin 8192 → Fin 128 → EReal) : EReal := ∑ r : Fin 8192, validf oh r

/-- The loss: the mean of the row losses over the valid rows, `0` when there is none. -/
def kerLoss (κ : EReal) (f : Fin 8192 → Fin 256 → EReal) (oh : Fin 8192 → Fin 128 → EReal) (cnt : Fin 128 → EReal) : EReal :=
  if 0 < nValid oh then Ideal.div (∑ r : Fin 8192, lossRow κ f oh cnt r) (max (nValid oh) 1) else 0

/-- The one-hot matrix padded with zero columns from 32 to 128 classes. -/
def pad (o : Fin 8192 → Fin 32 → EReal) (r : Fin 8192) (c : Fin 128) : EReal :=
  if h : c.val < 32 then o r ⟨c.val, h⟩ else 0

/-- The column sums of a padded one-hot matrix. -/
def colSum (oh : Fin 8192 → Fin 128 → EReal) (c : Fin 128) : EReal := ∑ r : Fin 8192, oh r c

end KerSpec

end
-- ==== Proof.PayAt.lean ====
import proofs.«118708_j2697239462642_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

/-!
# The body's arithmetic, read at an index

Each pure value the kernel body computes is read at one index, at the exact values: a rounding to bf16 is the identity, a
product into a cleared accumulator is the sum over the contracted coordinate, a lane sum is the sum over the row, and the
integer comparison of the global row and key positions (each below 8192) cannot wrap.
-/

noncomputable section

open scoped BigOperators

namespace Cert.KernelIdeal.PayAt

open Cert.KernelIdeal Cert.KernelIdeal.Gen Idealize.ShloMosaic Idealize.ShloMosaic.ValueIdx

/-- The factor the similarities are multiplied by: the reciprocal of the float nearest `0.1`. -/
abbrev κv : EReal := ((134217728 / 13421773 : ℝ) : EReal)

theorem named_κ : Named.named (F := Ideal) Cert.KernelIdeal.κ "inv_temperature" (φ := .f32) 0x41200000#32 = κv :=
  IdealRules.named_const.ideal_named_scalar _ _ _ _ rfl

/-! ### The contraction `S512x256 × S256x512 → S512x512` -/

theorem lhs0_A (i : S512x512.Idx) (q : dot_S512x256_S256x512_S512x512_1_0_0_1_n_n.contr.Idx) : (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem rhs1_A (i : S512x512.Idx) (q : dot_S512x256_S256x512_S512x512_1_0_0_1_n_n.contr.Idx) : (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- A product into the zero accumulator, at row `p` and column `j`: the sum over the contracted coordinate. -/
theorem mm_A {φ₁ φ₂ : FTy} (l : FVec Ideal S512x256 φ₁) (r : FVec Ideal S256x512 φ₂) (p : Fin 512) (j : Fin 512) :
    matmul (F := Ideal) dot_S512x256_S256x512_S512x512_1_0_0_1_n_n none l r (constant (F := Ideal) S512x512 .f32 0x00000000#32) (ix2 p j)
      = ∑ k : Fin 256, l (ix2 p k) * r (ix2 k j) := by
  show FloatOps.matmul dot_S512x256_S256x512_S512x512_1_0_0_1_n_n none l r (constant (F := Ideal) S512x512 .f32 0x00000000#32) (ix2 p j) = _
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p j) ((contrEquiv1 dot_S512x256_S256x512_S512x512_1_0_0_1_n_n 256 rfl rfl).symm k) = ix2 p k := funext fun a => Fin.ext (by
    match a with
    | ⟨0, _⟩ => exact lhs0_A _ _
    | ⟨1, _⟩ => exact (dot_S512x256_S256x512_S512x512_1_0_0_1_n_n.lhsIdx_val_of_single rfl _ _).trans hk)
  have er : dot_S512x256_S256x512_S512x512_1_0_0_1_n_n.rhsIdx (ix2 p j) ((contrEquiv1 dot_S512x256_S256x512_S512x512_1_0_0_1_n_n 256 rfl rfl).symm k) = ix2 k j := funext fun a => Fin.ext (by
    match a with
    | ⟨0, _⟩ => exact (dot_S512x256_S256x512_S512x512_1_0_0_1_n_n.rhsIdx_val_of_single rfl _ _).trans hk
    | ⟨1, _⟩ => exact rhs1_A _ _)
  rw [el, er]

/-! ### The contraction `S512x128 × S128x512 → S512x512` -/

theorem lhs0_B (i : S512x512.Idx) (q : dot_S512x128_S128x512_S512x512_1_0_0_1_n_n.contr.Idx) : (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem rhs1_B (i : S512x512.Idx) (q : dot_S512x128_S128x512_S512x512_1_0_0_1_n_n.contr.Idx) : (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A product into the zero accumulator, at row `p` and column `j`: the sum over the contracted coordinate. -/
theorem mm_B {φ₁ φ₂ : FTy} (l : FVec Ideal S512x128 φ₁) (r : FVec Ideal S128x512 φ₂) (p : Fin 512) (j : Fin 512) :
    matmul (F := Ideal) dot_S512x128_S128x512_S512x512_1_0_0_1_n_n none l r (constant (F := Ideal) S512x512 .f32 0x00000000#32) (ix2 p j)
      = ∑ k : Fin 128, l (ix2 p k) * r (ix2 k j) := by
  show FloatOps.matmul dot_S512x128_S128x512_S512x512_1_0_0_1_n_n none l r (constant (F := Ideal) S512x512 .f32 0x00000000#32) (ix2 p j) = _
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p j) ((contrEquiv1 dot_S512x128_S128x512_S512x512_1_0_0_1_n_n 128 rfl rfl).symm k) = ix2 p k := funext fun a => Fin.ext (by
    match a with
    | ⟨0, _⟩ => exact lhs0_B _ _
    | ⟨1, _⟩ => exact (dot_S512x128_S128x512_S512x512_1_0_0_1_n_n.lhsIdx_val_of_single rfl _ _).trans hk)
  have er : dot_S512x128_S128x512_S512x512_1_0_0_1_n_n.rhsIdx (ix2 p j) ((contrEquiv1 dot_S512x128_S128x512_S512x512_1_0_0_1_n_n 128 rfl rfl).symm k) = ix2 k j := funext fun a => Fin.ext (by
    match a with
    | ⟨0, _⟩ => exact (dot_S512x128_S128x512_S512x512_1_0_0_1_n_n.rhsIdx_val_of_single rfl _ _).trans hk
    | ⟨1, _⟩ => exact rhs1_B _ _)
  rw [el, er]

/-! ### The contraction `S512x512 × S512x128 → S512x128` -/

theorem lhs0_C (i : S512x128.Idx) (q : dot_S512x512_S512x128_S512x128_1_0_0_1_n_n.contr.Idx) : (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem rhs1_C (i : S512x128.Idx) (q : dot_S512x512_S512x128_S512x128_1_0_0_1_n_n.contr.Idx) : (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- A product into the zero accumulator, at row `p` and column `j`: the sum over the contracted coordinate. -/
theorem mm_C {φ₁ φ₂ : FTy} (l : FVec Ideal S512x512 φ₁) (r : FVec Ideal S512x128 φ₂) (p : Fin 512) (j : Fin 128) :
    matmul (F := Ideal) dot_S512x512_S512x128_S512x128_1_0_0_1_n_n none l r (constant (F := Ideal) S512x128 .f32 0x00000000#32) (ix2 p j)
      = ∑ k : Fin 512, l (ix2 p k) * r (ix2 k j) := by
  show FloatOps.matmul dot_S512x512_S512x128_S512x128_1_0_0_1_n_n none l r (constant (F := Ideal) S512x128 .f32 0x00000000#32) (ix2 p j) = _
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p j) ((contrEquiv1 dot_S512x512_S512x128_S512x128_1_0_0_1_n_n 512 rfl rfl).symm k) = ix2 p k := funext fun a => Fin.ext (by
    match a with
    | ⟨0, _⟩ => exact lhs0_C _ _
    | ⟨1, _⟩ => exact (dot_S512x512_S512x128_S512x128_1_0_0_1_n_n.lhsIdx_val_of_single rfl _ _).trans hk)
  have er : dot_S512x512_S512x128_S512x128_1_0_0_1_n_n.rhsIdx (ix2 p j) ((contrEquiv1 dot_S512x512_S512x128_S512x128_1_0_0_1_n_n 512 rfl rfl).symm k) = ix2 k j := funext fun a => Fin.ext (by
    match a with
    | ⟨0, _⟩ => exact (dot_S512x512_S512x128_S512x128_1_0_0_1_n_n.rhsIdx_val_of_single rfl _ _).trans hk
    | ⟨1, _⟩ => exact rhs1_C _ _)
  rw [el, er]

/-! ### Words: the diagonal test -/

/-- The global position `512·a + p` of a row or key, as a 32-bit word, is that number (no wrap below `2^32`). -/
theorem pos_word (a p : Nat) (ha : a < 16) (hp : p < 512) :
    (IntOp.addi (Scalar.muli (BitVec.ofNat 32 a) 512#32) (BitVec.ofNat 32 p)).toNat = a * 512 + p := by
  show (BitVec.ofNat 32 a * 512#32 + BitVec.ofNat 32 p).toNat = _
  rw [BitVec.toNat_add, BitVec.toNat_mul, BitVec.toNat_ofNat, BitVec.toNat_ofNat]
  show ((a % 2 ^ 32) * 512 % 2 ^ 32 + p % 2 ^ 32) % 2 ^ 32 = _
  omega

/-- The test "not equal" of two words, widened and converted to a float: `0` where they are equal, else `1`. -/
theorem sitofp_ne_word (A B : BitVec 32) :
    FloatOps.sitofp (F := Ideal) .f32 ((IntOp.cmpi .ne A B).setWidth 32) = if A = B then (0 : EReal) else 1 := by
  show (((((BitVec.ofBool (A != B)).setWidth 32).toInt : ℤ) : ℝ) : EReal) = _
  by_cases h : A = B
  · have hb : (A != B) = false := by simp [h]
    rw [hb, if_pos h]
    have : ((BitVec.ofBool false).setWidth 32).toInt = 0 := by decide
    rw [this]; simp
  · have hb : (A != B) = true := by simp [h]
    rw [hb, if_neg h]
    have : ((BitVec.ofBool true).setWidth 32).toInt = 1 := by decide
    rw [this]; simp

/-! ### The similarity tile, the diagonal mask, the positives -/

/-- The similarity tile: rows `p` of the row block against rows `j` of the key block, times `κ`. -/
theorem pay10_at (x0 x1 : Vec Ideal S512x256 .f32) (p j : Fin 512) :
    k0_pay10 (F := Ideal) x0 x1 (ix2 p j) = (∑ h : Fin 256, x0 (ix2 p h) * x1 (ix2 j h)) * κv := by
  unfold k0_pay10
  dsimp only
  simp only [shapeCast_self]
  rw [mulf_apply, broadcast_apply, named_κ, mm_A]
  refine congrArg (· * κv) (Finset.sum_congr rfl fun h _ => ?_)
  rw [truncf_apply, transpose_ix2_apply, truncf_apply]

/-- The off-diagonal mask of tile `(i 0, i 1)`: `0` where the global row and key positions coincide, else `1`. -/
theorem pay11_at (i : grid0.Coords) (p j : Fin 512) :
    k0_pay11 (F := Ideal) i (ix2 p j)
      = if (i 0).val * 512 + p.val = (i 1).val * 512 + j.val then (0 : EReal) else 1 := by
  have h0 : (i 0).val < 16 := (i 0).isLt
  have h1 : (i 1).val < 16 := (i 1).isLt
  unfold k0_pay11
  dsimp only
  rw [sitofp_apply, extui_apply]
  show FloatOps.sitofp (F := Ideal) .f32 ((IntOp.cmpi .ne
      (IntOp.addi (Scalar.muli (BitVec.ofNat 32 (i 0).val) 512#32) (iota .tc S512x512 32 [0] iota_S512x512_d0_w32 (ix2 p j)))
      (IntOp.addi (Scalar.muli (BitVec.ofNat 32 (i 1).val) 512#32) (iota .tc S512x512 32 [1] iota_S512x512_d1_w32 (ix2 p j)))).setWidth 32) = _
  rw [iota_single_apply, iota_single_apply, sitofp_ne_word]
  refine if_congr ?_ rfl rfl
  rw [← BitVec.toNat_inj]
  show (IntOp.addi (Scalar.muli (BitVec.ofNat 32 (i 0).val) 512#32) (BitVec.ofNat 32 p.val)).toNat
      = (IntOp.addi (Scalar.muli (BitVec.ofNat 32 (i 1).val) 512#32) (BitVec.ofNat 32 j.val)).toNat ↔ _
  rw [pos_word _ _ h0 p.isLt, pos_word _ _ h1 j.isLt]

theorem pay12_eq (x : Vec Ideal S512x128 .f32) : k0_pay12 (F := Ideal) x = x := by
  unfold k0_pay12
  exact shapeCast_self _ _

theorem pay13_eq (x : Vec Ideal S512x128 .f32) : k0_pay13 (F := Ideal) x = x := by
  unfold k0_pay13
  exact shapeCast_self _ _

/-- The positives of a tile: the product of the one-hot rows of `p` and `j`, times the mask. -/
theorem pay1_at (v23 : FVec Ideal S512x512 .f32) (v27 v29 : FVec Ideal S512x128 .f32) (p j : Fin 512) :
    k0_pay1 (F := Ideal) v23 v27 v29 (ix2 p j) = (∑ c : Fin 128, v27 (ix2 p c) * v29 (ix2 j c)) * v23 (ix2 p j) := by
  unfold k0_pay1
  dsimp only
  rw [mulf_apply, mm_B]
  refine congrArg (· * v23 (ix2 p j)) (Finset.sum_congr rfl fun c _ => ?_)
  rw [truncf_apply, truncf_apply, transpose_ix2_apply]

/-! ### Lane sums and the column shape -/

/-- A lane sum of a `512 × 512` tile, at row `p`: the sum over the row. -/
theorem laneSum_512x512 (src : FVec Ideal S512x512 .f32) (p : Fin 512) :
    multiReduction (F := Ideal) .add [1] S512 src 0x00000000#32 reduces_S512x512_S512 (.inl rfl) rfl (ix1 p)
      = ∑ j : Fin 512, src (ix2 p j) := by
  refine (Ideal.multiReduction_add_single src 0x00000000#32 reduces_S512x512_S512 (.inl rfl) rfl (ix1 p)).trans ?_
  refine Finset.sum_congr rfl fun j _ => congrArg src (funext fun a => Fin.ext ?_)
  match a with
  | ⟨0, _⟩ => rfl
  | ⟨1, _⟩ => rfl

/-- A lane sum of a `512 × 128` tile, at row `p`: the sum over the row. -/
theorem laneSum_512x128 (src : FVec Ideal S512x128 .f32) (p : Fin 512) :
    multiReduction (F := Ideal) .add [1] S512 src 0x00000000#32 reduces_S512x128_S512 (.inl rfl) rfl (ix1 p)
      = ∑ c : Fin 128, src (ix2 p c) := by
  refine (Ideal.multiReduction_add_single src 0x00000000#32 reduces_S512x128_S512 (.inl rfl) rfl (ix1 p)).trans ?_
  refine Finset.sum_congr rfl fun j _ => congrArg src (funext fun a => Fin.ext ?_)
  match a with
  | ⟨0, _⟩ => rfl
  | ⟨1, _⟩ => rfl

/-- An `[a]` array cast to the column shape `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The three accumulators' updates -/

/-- The class sums: the accumulator plus, over the tile's keys, `exp` similarity times mask times the key's one-hot row. -/
theorem pay14_at (i : grid0.Coords) (x0 x1 : Vec Ideal S512x256 .f32) (x3 xs0 : Vec Ideal S512x128 .f32) (p : Fin 512)
    (c : Fin 128) :
    k0_pay14 (F := Ideal) i x0 x1 x3 xs0 (ix2 p c)
      = xs0 (ix2 p c) + ∑ j : Fin 512,
          (Ideal.exp (k0_pay10 (F := Ideal) x0 x1 (ix2 p j)) * k0_pay11 (F := Ideal) i (ix2 p j)) * x3 (ix2 j c) := by
  unfold k0_pay14
  simp only [shapeCast_self, pay13_eq]
  rw [addf_apply, mm_C]
  refine congrArg (xs0 (ix2 p c) + ·) (Finset.sum_congr rfl fun j _ => ?_)
  rw [truncf_apply, truncf_apply, mulf_apply]
  rfl

/-- The number of positives: the accumulator plus the tile's row sum of the positives. -/
theorem pay2_at (v23 : FVec Ideal S512x512 .f32) (v27 v29 : FVec Ideal S512x128 .f32) (v43 : Vec Ideal S512x1 .f32)
    (p : Fin 512) (z : Fin 1) :
    k0_pay2 (F := Ideal) v23 v27 v29 v43 (ix2 p z)
      = v43 (ix2 p z) + ∑ j : Fin 512, k0_pay1 (F := Ideal) v23 v27 v29 (ix2 p j) := by
  unfold k0_pay2
  dsimp only
  simp only [shapeCast_self]
  rw [addf_apply, shapeCast_a_a1_apply, laneSum_512x512]

/-- The similarities to the positives: the accumulator plus the tile's row sum of similarity times positive. -/
theorem pay3_at (v12 v23 : FVec Ideal S512x512 .f32) (v27 v29 : FVec Ideal S512x128 .f32) (v50 : Vec Ideal S512x1 .f32)
    (p : Fin 512) (z : Fin 1) :
    k0_pay3 (F := Ideal) v12 v23 v27 v29 v50 (ix2 p z)
      = v50 (ix2 p z) + ∑ j : Fin 512, v12 (ix2 p j) * k0_pay1 (F := Ideal) v23 v27 v29 (ix2 p j) := by
  unfold k0_pay3
  dsimp only
  simp only [shapeCast_self]
  rw [addf_apply, shapeCast_a_a1_apply, laneSum_512x512]
  refine congrArg (v50 (ix2 p z) + ·) (Finset.sum_congr rfl fun j _ => ?_)
  rw [mulf_apply]

/-! ### The cleared accumulators -/

theorem pay7_at (y : S512x128.Idx) : k0_pay7 (F := Ideal) y = 0 := by
  unfold k0_pay7
  rw [shapeCast_self]
  exact Ideal.ofBits_zero_f32

theorem pay8_at (y : S512x1.Idx) : k0_pay8 (F := Ideal) y = 0 := by
  unfold k0_pay8
  rw [shapeCast_self]
  exact Ideal.ofBits_zero_f32

theorem pay9_at (y : S512x1.Idx) : k0_pay9 (F := Ideal) y = 0 := by
  unfold k0_pay9
  rw [shapeCast_self]
  exact Ideal.ofBits_zero_f32

/-! ### The last key block: validity and the row loss -/

/-- A one-bit word widened to 32 bits and converted to a float is `1` or `0`. -/
theorem sitofp_bit (b : Bool) :
    FloatOps.sitofp (F := Ideal) .f32 ((BitVec.ofBool b).setWidth 32) = if b then (1 : EReal) else 0 := by
  show (((((BitVec.ofBool b).setWidth 32).toInt : ℤ) : ℝ) : EReal) = _
  cases b
  · have : ((BitVec.ofBool false).setWidth 32).toInt = 0 := by decide
    rw [this]; simp
  · have : ((BitVec.ofBool true).setWidth 32).toInt = 1 := by decide
    rw [this]; simp

/-- A select on a float comparison `a > z` is the `if` on `z < a`. -/
theorem select_ogt {α : Type} (a z : EReal) (x y : α) :
    Scalar.select (FloatOps.cmpf (F := Ideal) (φ := .f32) .ogt a z) x y = if z < a then x else y := by
  rw [Ideal.cmpf_def]
  unfold Ideal.cmp Scalar.select
  by_cases h : z < a
  · simp [h]
  · simp [h]

/-- A scalar constant's word at the exact values. -/
theorem scalar_ofBits (w : BitVec 32) : Scalar.ofBits (F := Ideal) .f32 w = Ideal.ofBits .f32 w := rfl

/-- The word of `1.0` denotes `1`. -/
theorem one_word : Ideal.ofBits .f32 0x3F800000#32 = 1 :=
  IdealRules.sign_bit.ideal_onePat .f32

/-- The vector logarithm at an index. -/
theorem log_apply {s : Shape} (x : FVec Ideal s .f32) (i : s.Idx) : log x i = Ideal.log (x i) := rfl

/-- The validity flag as a number: `1` where the row has a positive. -/
theorem pay6_at (v75 : Vec Ideal S512x1 .f32) (p : Fin 512) (z : Fin 1) :
    k0_pay6 (F := Ideal) v75 (ix2 p z) = if 0 < v75 (ix2 p z) then (1 : EReal) else 0 := by
  unfold k0_pay6 k0_pay4
  show FloatOps.sitofp (F := Ideal) .f32
      ((BitVec.ofBool (decide (Ideal.ofBits .f32 0x00000000#32 < v75 (ix2 p z)))).setWidth 32) = _
  rw [sitofp_bit, Ideal.ofBits_zero_f32]
  by_cases h : 0 < v75 (ix2 p z)
  · simp [h]
  · simp [h]

/-- The row loss at the last key block, from the class sizes `v61`, the one-hot rows `v27`, and the three totals. -/
theorem pay5_at (v27 : FVec Ideal S512x128 .f32) (v61 : Vec Ideal S1x128 .f32) (v65 : Vec Ideal S512x128 .f32)
    (v75 v78 : Vec Ideal S512x1 .f32) (p : Fin 512) (z : Fin 1) :
    k0_pay5 (F := Ideal) v27 v61 v65 v75 v78 (ix2 p z)
      = if 0 < v75 (ix2 p z) then
          Ideal.log (max (∑ c : Fin 128,
              (if 0 < v61 (ix2 (0 : Fin 1) c) - v27 (ix2 p c) then
                Ideal.div (v65 (ix2 p c)) (max (v61 (ix2 (0 : Fin 1) c) - v27 (ix2 p c)) 1) else 0))
            (Ideal.ofBits .f32 0x0DA24260#32))
          - Ideal.div (v78 (ix2 p z)) (max (v75 (ix2 p z)) 1)
        else 0 := by
  unfold k0_pay5 k0_pay4
  dsimp only
  simp only [shapeCast_self]
  simp only [select_apply, cmpf_apply, subf_apply, divf_apply, maximumf_apply, broadcast_apply, log_apply, scalar_ofBits]
  rw [select_ogt, shapeCast_a_a1_apply, laneSum_512x128, Ideal.ofBits_zero_f32, one_word]
  refine if_congr Iff.rfl ?_ rfl
  refine congrArg (fun s => Ideal.log (max s (Ideal.ofBits .f32 0x0DA24260#32)) - Ideal.div (v78 (ix2 p z)) (max (v75 (ix2 p z)) 1))
    (Finset.sum_congr rfl fun c _ => ?_)
  simp only [select_apply, cmpf_apply, subf_apply, divf_apply, maximumf_apply, broadcast_apply, scalar_ofBits]
  rw [select_ogt, broadcastTo_1b_ab_apply]

end Cert.KernelIdeal.PayAt

end
-- ==== Proof.Accum.lean ====
import proofs.«118708_j2697239462642_1_alg».proof.Proof.BlockReads
import proofs.«118708_j2697239462642_1_alg».proof.Proof.Pieces
import proofs.«118708_j2697239462642_1_alg».proof.Proof.KerSpec
import proofs.«118708_j2697239462642_1_alg».proof.Proof.PayAt

set_option maxRecDepth 16384

noncomputable section

namespace Cert.KernelIdeal.Body

open Cert.KernelIdeal Cert.KernelIdeal.Gen Cert.KernelIdeal.PayAt
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-! ## The three arrays the region reads, as functions of a row and a column -/

/-- The normalized features as the region finds them. -/
def fA (r : Fin 8192) (h : Fin 256) : EReal := V m c main_v2 (ix2 r h)
/-- The padded one-hot matrix as the region finds it. -/
def ohA (r : Fin 8192) (k : Fin 128) : EReal := V m c main_v10 (ix2 r k)
/-- The class counts as the region finds them. -/
def cntA (k : Fin 128) : EReal := V m c main_v12 (ix2 (0 : Fin 1) k)

/-- The row block and the key block of point `t`. -/
abbrev qF (t : Fin cfg0.N) : Fin 16 := ⟨t.val / 16, tq t⟩
abbrev kF (t : Fin cfg0.N) : Fin 16 := ⟨t.val % 16, tk t⟩

/-! ## One tile's arithmetic is one key block's contribution

Stated over any four blocks that read the arrays where the point's windows sit; the point's own blocks are an instance. -/

section Tile
variable (f : Fin 8192 → Fin 256 → EReal) (oh : Fin 8192 → Fin 128 → EReal) (q kj : Fin 16) (i : grid0.Coords)
  (x0 x1 : Vec Ideal S512x256 .f32) (x2 x3 : Vec Ideal S512x128 .f32)
  (hx0 : ∀ (p : Fin 512) (h : Fin 256), x0 (ix2 p h) = f (KerSpec.row q p) h)
  (hx1 : ∀ (j : Fin 512) (h : Fin 256), x1 (ix2 j h) = f (KerSpec.row kj j) h)
  (hx2 : ∀ (p : Fin 512) (k : Fin 128), x2 (ix2 p k) = oh (KerSpec.row q p) k)
  (hx3 : ∀ (j : Fin 512) (k : Fin 128), x3 (ix2 j k) = oh (KerSpec.row kj j) k)
  (hi0 : (i 0).val = q.val) (hi1 : (i 1).val = kj.val)

include hx0 hx1 in
/-- The tile of scaled similarities. -/
theorem sim_var (p j : Fin 512) : k0_pay10 (F := Ideal) x0 x1 (ix2 p j) = KerSpec.sim κv f (KerSpec.row q p) (KerSpec.row kj j) := by
  rw [pay10_at]; unfold KerSpec.sim
  congr 1
  exact Finset.sum_congr rfl fun h _ => by rw [hx0, hx1]

include hi0 hi1 in
/-- The tile's off-diagonal factor: global row against global key. -/
theorem offd_var (p j : Fin 512) : k0_pay11 (F := Ideal) i (ix2 p j) = KerSpec.offd (KerSpec.row q p) (KerSpec.row kj j) := by
  rw [pay11_at, hi0, hi1]; unfold KerSpec.offd
  exact if_congr ⟨fun h => Fin.ext h, fun h => congrArg Fin.val h⟩ rfl rfl

include hx2 hx3 hi0 hi1 in
/-- The tile of positives. -/
theorem pos_var (p j : Fin 512) :
    k0_pay1 (F := Ideal) (k0_pay11 (F := Ideal) i) (k0_pay12 x2) (k0_pay13 x3) (ix2 p j) = KerSpec.pos oh (KerSpec.row q p) (KerSpec.row kj j) := by
  rw [pay1_at, pay12_eq, pay13_eq, offd_var q kj i hi0 hi1]; unfold KerSpec.pos
  congr 1
  exact Finset.sum_congr rfl fun k _ => by rw [hx2, hx3]

include hx0 hx1 hx3 hi0 hi1 in
/-- The tile's contribution to the class sums. -/
theorem tile0_var (p : Fin 512) (k : Fin 128) :
    (∑ j : Fin 512, (Ideal.exp (k0_pay10 (F := Ideal) x0 x1 (ix2 p j)) * k0_pay11 (F := Ideal) i (ix2 p j)) * x3 (ix2 j k))
      = KerSpec.part0 κv f oh (KerSpec.row q p) kj k := by
  unfold KerSpec.part0 KerSpec.E
  exact Finset.sum_congr rfl fun j _ => by rw [sim_var f q kj x0 x1 hx0 hx1, offd_var q kj i hi0 hi1, hx3]

include hx2 hx3 hi0 hi1 in
/-- The tile's contribution to the number of positives. -/
theorem tile1_var (p : Fin 512) :
    (∑ j : Fin 512, k0_pay1 (F := Ideal) (k0_pay11 (F := Ideal) i) (k0_pay12 x2) (k0_pay13 x3) (ix2 p j)) = KerSpec.part1 oh (KerSpec.row q p) kj := by
  unfold KerSpec.part1
  exact Finset.sum_congr rfl fun j _ => pos_var oh q kj i x2 x3 hx2 hx3 hi0 hi1 p j

include hx0 hx1 hx2 hx3 hi0 hi1 in
/-- The tile's contribution to the sum of similarities to the positives. -/
theorem tile2_var (p : Fin 512) :
    (∑ j : Fin 512, k0_pay10 (F := Ideal) x0 x1 (ix2 p j) * k0_pay1 (F := Ideal) (k0_pay11 (F := Ideal) i) (k0_pay12 x2) (k0_pay13 x3) (ix2 p j))
      = KerSpec.part2 κv f oh (KerSpec.row q p) kj := by
  unfold KerSpec.part2
  exact Finset.sum_congr rfl fun j _ => by rw [sim_var f q kj x0 x1 hx0 hx1, pos_var oh q kj i x2 x3 hx2 hx3 hi0 hi1]
end Tile

/-- At point `t` the four blocks read the arrays at the point's row block and key block. -/
theorem h0t (t : Fin cfg0.N) (p : Fin 512) (h : Fin 256) : iblk m c 0 t (ix2 p h) = fA m c (KerSpec.row (qF t) p) h := iblk0_at m c t p h
theorem h1t (t : Fin cfg0.N) (j : Fin 512) (h : Fin 256) : iblk m c 1 t (ix2 j h) = fA m c (KerSpec.row (kF t) j) h := iblk1_at m c t j h
theorem h2t (t : Fin cfg0.N) (p : Fin 512) (k : Fin 128) : iblk m c 2 t (ix2 p k) = ohA m c (KerSpec.row (qF t) p) k := iblk2_at m c t p k
theorem h3t (t : Fin cfg0.N) (j : Fin 512) (k : Fin 128) : iblk m c 3 t (ix2 j k) = ohA m c (KerSpec.row (kF t) j) k := iblk3_at m c t j k

theorem tile0 (t : Fin cfg0.N) (p : Fin 512) (k : Fin 128) :
    (∑ j : Fin 512, (Ideal.exp (k0_pay10 (F := Ideal) (iblk m c 0 t) (iblk m c 1 t) (ix2 p j)) * k0_pay11 (F := Ideal) (grid0.coords t) (ix2 p j)) * iblk m c 3 t (ix2 j k))
      = KerSpec.part0 κv (fA m c) (ohA m c) (KerSpec.row (qF t) p) (kF t) k :=
  tile0_var (fA m c) (ohA m c) (qF t) (kF t) (grid0.coords t) (iblk m c 0 t) (iblk m c 1 t) (iblk m c 3 t)
    (h0t m c t) (h1t m c t) (h3t m c t) (coords_facts t).1 (coords_facts t).2 p k
theorem tile1 (t : Fin cfg0.N) (p : Fin 512) :
    (∑ j : Fin 512, k0_pay1 (F := Ideal) (k0_pay11 (F := Ideal) (grid0.coords t)) (k0_pay12 (iblk m c 2 t)) (k0_pay13 (iblk m c 3 t)) (ix2 p j))
      = KerSpec.part1 (ohA m c) (KerSpec.row (qF t) p) (kF t) :=
  tile1_var (ohA m c) (qF t) (kF t) (grid0.coords t) (iblk m c 2 t) (iblk m c 3 t) (h2t m c t) (h3t m c t) (coords_facts t).1 (coords_facts t).2 p
theorem tile2 (t : Fin cfg0.N) (p : Fin 512) :
    (∑ j : Fin 512, k0_pay10 (F := Ideal) (iblk m c 0 t) (iblk m c 1 t) (ix2 p j)
        * k0_pay1 (F := Ideal) (k0_pay11 (F := Ideal) (grid0.coords t)) (k0_pay12 (iblk m c 2 t)) (k0_pay13 (iblk m c 3 t)) (ix2 p j))
      = KerSpec.part2 κv (fA m c) (ohA m c) (KerSpec.row (qF t) p) (kF t) :=
  tile2_var (fA m c) (ohA m c) (qF t) (kF t) (grid0.coords t) (iblk m c 0 t) (iblk m c 1 t) (iblk m c 2 t) (iblk m c 3 t)
    (h0t m c t) (h1t m c t) (h2t m c t) (h3t m c t) (coords_facts t).1 (coords_facts t).2 p

/-! ## Sums over the key blocks seen so far -/

/-- The key blocks up to `a`. -/
abbrev upTo (a : ℕ) : Finset (Fin 16) := Finset.univ.filter fun kj : Fin 16 => kj.val ≤ a

theorem sum_upTo_zero {M : Type*} [AddCommMonoid M] (g : Fin 16 → M) : ∑ kj ∈ upTo 0, g kj = g 0 := by
  have : upTo 0 = {(0 : Fin 16)} := by
    ext kj; simp only [Finset.mem_filter, Finset.mem_univ, true_and, Finset.mem_singleton, Fin.ext_iff]; omega
  rw [this, Finset.sum_singleton]

theorem sum_upTo_succ {M : Type*} [AddCommMonoid M] (g : Fin 16 → M) (a : ℕ) (ha : a + 1 < 16) :
    ∑ kj ∈ upTo (a + 1), g kj = (∑ kj ∈ upTo a, g kj) + g ⟨a + 1, ha⟩ := by
  have h : upTo (a + 1) = insert (⟨a + 1, ha⟩ : Fin 16) (upTo a) := by
    ext kj; simp only [Finset.mem_filter, Finset.mem_univ, true_and, Finset.mem_insert, Fin.ext_iff]; omega
  have hn : (⟨a + 1, ha⟩ : Fin 16) ∉ upTo a := by
    simp only [Finset.mem_filter, Finset.mem_univ, true_and]; omega
  rw [h, Finset.sum_insert hn, add_comm]

theorem sum_upTo_last {M : Type*} [AddCommMonoid M] (g : Fin 16 → M) : ∑ kj ∈ upTo 15, g kj = ∑ kj, g kj := by
  have : upTo 15 = Finset.univ := by
    ext kj; simp only [Finset.mem_filter, Finset.mem_univ, true_and, iff_true]; have := kj.isLt; omega
  rw [this]

/-! ## The accumulators after each grid point -/

/-- What the three accumulators hold after point `n`: the contributions of the key blocks of the current row block seen so far. -/
def AccInv (n : ℕ) (hn : n < cfg0.N) : Prop :=
  (∀ (p : Fin 512) (k : Fin 128), (stateAt m c n hn).2.2.1 (ix2 p k)
      = ∑ kj ∈ upTo (n % 16), KerSpec.part0 κv (fA m c) (ohA m c) (KerSpec.row (qF ⟨n, hn⟩) p) kj k)
  ∧ (∀ (p : Fin 512) (z : Fin 1), (stateAt m c n hn).2.2.2.1 (ix2 p z)
      = ∑ kj ∈ upTo (n % 16), KerSpec.part1 (ohA m c) (KerSpec.row (qF ⟨n, hn⟩) p) kj)
  ∧ (∀ (p : Fin 512) (z : Fin 1), (stateAt m c n hn).2.2.2.2 (ix2 p z)
      = ∑ kj ∈ upTo (n % 16), KerSpec.part2 κv (fA m c) (ohA m c) (KerSpec.row (qF ⟨n, hn⟩) p) kj)

/-- A first key block: cleared accumulators plus the tile. -/
theorem accInv_first (t : Fin cfg0.N) (h0 : t.val % 16 = 0) : AccInv m c t.val t.isLt := by
  have h1 : ¬t.val % 16 = 15 := by omega
  have hk : kF t = 0 := Fin.ext h0
  have hu : upTo (t.val % 16) = upTo 0 := by rw [h0]
  unfold AccInv
  rw [stateAt_first m c t h0 h1, hu]
  refine ⟨fun p k => ?_, fun p z => ?_, fun p z => ?_⟩
  · rw [stF_a0, pay14_at, pay7_at, zero_add, tile0, sum_upTo_zero, hk]
  · rw [stF_a1, pay2_at, pay8_at, zero_add, tile1, sum_upTo_zero, hk]
  · rw [stF_a2, pay3_at, pay9_at, zero_add, tile2, sum_upTo_zero, hk]

/-- The point before `t` in the same row block. -/
theorem prev_facts (t : Fin cfg0.N) (h0 : ¬t.val % 16 = 0) :
    (t.val - 1) / 16 = t.val / 16 ∧ (t.val - 1) % 16 + 1 = t.val % 16 := by omega

/-- A later key block: what the point before left plus the tile. -/
theorem accInv_step (t : Fin cfg0.N) (h0 : ¬t.val % 16 = 0)
    (ih : AccInv m c (t.val - 1) (Nat.lt_of_le_of_lt (Nat.sub_le _ _) t.isLt)) : AccInv m c t.val t.isLt := by
  obtain ⟨eq, ek⟩ := prev_facts t h0
  have hq : qF ⟨t.val - 1, Nat.lt_of_le_of_lt (Nat.sub_le _ _) t.isLt⟩ = qF t := Fin.ext eq
  have hlt : (t.val - 1) % 16 + 1 < 16 := by rw [ek]; exact tk t
  have hkF : (⟨(t.val - 1) % 16 + 1, hlt⟩ : Fin 16) = kF t := Fin.ext ek
  obtain ⟨i0, i1, i2⟩ := ih
  have hu : upTo (t.val % 16) = upTo ((t.val - 1) % 16 + 1) := by rw [ek]
  unfold AccInv
  rw [hu]
  by_cases h1 : t.val % 16 = 15
  · rw [stateAt_last m c t h0 h1]
    refine ⟨fun p k => ?_, fun p z => ?_, fun p z => ?_⟩
    · rw [stL_a0, pay14_at, tile0, sum_upTo_succ _ _ hlt, hkF]; congr 1; rw [← hq]; exact i0 p k
    · rw [stL_a1, pay2_at, tile1, sum_upTo_succ _ _ hlt, hkF]; congr 1; rw [← hq]; exact i1 p z
    · rw [stL_a2, pay3_at, tile2, sum_upTo_succ _ _ hlt, hkF]; congr 1; rw [← hq]; exact i2 p z
  · rw [stateAt_mid m c t h0 h1]
    refine ⟨fun p k => ?_, fun p z => ?_, fun p z => ?_⟩
    · rw [stM_a0, pay14_at, tile0, sum_upTo_succ _ _ hlt, hkF]; congr 1; rw [← hq]; exact i0 p k
    · rw [stM_a1, pay2_at, tile1, sum_upTo_succ _ _ hlt, hkF]; congr 1; rw [← hq]; exact i1 p z
    · rw [stM_a2, pay3_at, tile2, sum_upTo_succ _ _ hlt, hkF]; congr 1; rw [← hq]; exact i2 p z

/-- At every point. -/
theorem accInv : ∀ (n : ℕ) (hn : n < cfg0.N), AccInv m c n hn := by
  intro n
  induction n with
  | zero => intro hn; exact accInv_first m c ⟨0, hn⟩ (Nat.zero_mod _)
  | succ n ih =>
    intro hn
    by_cases h0 : (n + 1) % 16 = 0
    · exact accInv_first m c ⟨n + 1, hn⟩ h0
    · exact accInv_step m c ⟨n + 1, hn⟩ h0 (ih (Nat.lt_of_succ_lt hn))

end Cert.KernelIdeal.Body

end
-- ==== Proof.Final.lean ====
import proofs.«118708_j2697239462642_1_alg».proof.Proof.Accum

set_option maxRecDepth 16384

noncomputable section

namespace Cert.KernelIdeal.Body

open Cert.KernelIdeal Cert.KernelIdeal.Gen Cert.KernelIdeal.PayAt
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (c : Dev nD)

/-! ## What a last key block stores

At the last key block of a row block the three accumulators hold the totals over all 16 key blocks, and the two outputs are
the row's loss and validity flag computed from them. -/

/-- A last key block's output 5, row by row. -/
theorem o5_at (t : Fin cfg0.N) (h1 : t.val % 16 = 15) (p : Fin 512) (z : Fin 1) :
    (stateAt m c t.val t.isLt).1 (ix2 p z) = KerSpec.lossRow κv (fA m c) (ohA m c) (cntA m c) (KerSpec.row (qF t) p) := by
  have h0 : ¬t.val % 16 = 0 := by omega
  obtain ⟨i0, i1, i2⟩ := accInv m c t.val t.isLt
  rw [h1] at i0 i1 i2
  simp only [sum_upTo_last] at i0 i1 i2
  have e0 : k0_pay14 (F := Ideal) (grid0.coords t) (iblk m c 0 t) (iblk m c 1 t) (iblk m c 3 t) (prevSt m c t).2.2.1 = (stateAt m c t.val t.isLt).2.2.1 := by
    rw [stateAt_last m c t h0 h1, stL_a0]
  have e1 : k0_pay2 (F := Ideal) (k0_pay11 (F := Ideal) (grid0.coords t)) (k0_pay12 (iblk m c 2 t)) (k0_pay13 (iblk m c 3 t)) (prevSt m c t).2.2.2.1 = (stateAt m c t.val t.isLt).2.2.2.1 := by
    rw [stateAt_last m c t h0 h1, stL_a1]
  have e2 : k0_pay3 (F := Ideal) (k0_pay10 (iblk m c 0 t) (iblk m c 1 t)) (k0_pay11 (F := Ideal) (grid0.coords t)) (k0_pay12 (iblk m c 2 t)) (k0_pay13 (iblk m c 3 t)) (prevSt m c t).2.2.2.2 = (stateAt m c t.val t.isLt).2.2.2.2 := by
    rw [stateAt_last m c t h0 h1, stL_a2]
  rw [stateAt_last m c t h0 h1, stL_o5, e0, e1, e2, pay5_at]

  simp only [pay12_eq, iblk2_at, iblk4_at, i0, i1, i2]
  rfl

/-- A last key block's output 6, row by row. -/
theorem o6_at (t : Fin cfg0.N) (h1 : t.val % 16 = 15) (p : Fin 512) (z : Fin 1) :
    (stateAt m c t.val t.isLt).2.1 (ix2 p z) = KerSpec.validf (ohA m c) (KerSpec.row (qF t) p) := by
  have h0 : ¬t.val % 16 = 0 := by omega
  obtain ⟨i0, i1, i2⟩ := accInv m c t.val t.isLt
  rw [h1] at i0 i1 i2
  simp only [sum_upTo_last] at i0 i1 i2
  have e0 : k0_pay14 (F := Ideal) (grid0.coords t) (iblk m c 0 t) (iblk m c 1 t) (iblk m c 3 t) (prevSt m c t).2.2.1 = (stateAt m c t.val t.isLt).2.2.1 := by
    rw [stateAt_last m c t h0 h1, stL_a0]
  have e1 : k0_pay2 (F := Ideal) (k0_pay11 (F := Ideal) (grid0.coords t)) (k0_pay12 (iblk m c 2 t)) (k0_pay13 (iblk m c 3 t)) (prevSt m c t).2.2.2.1 = (stateAt m c t.val t.isLt).2.2.2.1 := by
    rw [stateAt_last m c t h0 h1, stL_a1]
  have e2 : k0_pay3 (F := Ideal) (k0_pay10 (iblk m c 0 t) (iblk m c 1 t)) (k0_pay11 (F := Ideal) (grid0.coords t)) (k0_pay12 (iblk m c 2 t)) (k0_pay13 (iblk m c 3 t)) (prevSt m c t).2.2.2.2 = (stateAt m c t.val t.isLt).2.2.2.2 := by
    rw [stateAt_last m c t h0 h1, stL_a2]
  rw [stateAt_last m c t h0 h1, stL_o6, e1, pay6_at, i1]

  rfl

/-- The same at any index of the block. -/
theorem o5_idx (t : Fin cfg0.N) (h1 : t.val % 16 = 15) (y : S512x1.Idx) :
    (stateAt m c t.val t.isLt).1 y = KerSpec.lossRow κv (fA m c) (ohA m c) (cntA m c) (KerSpec.row (qF t) (y 0)) :=
  (congrArg _ (eq_ix2 y)).trans (o5_at m c t h1 (y 0) (y 1))
theorem o6_idx (t : Fin cfg0.N) (h1 : t.val % 16 = 15) (y : S512x1.Idx) :
    (stateAt m c t.val t.isLt).2.1 y = KerSpec.validf (ohA m c) (KerSpec.row (qF t) (y 0)) :=
  (congrArg _ (eq_ix2 y)).trans (o6_at m c t h1 (y 0) (y 1))

/-! ## The two output arrays after the region -/

/-- The loss column: row `r`'s loss. -/
abbrev G5 : S8192x1.Idx → Elt Ideal .f32 := fun i => KerSpec.lossRow κv (fA m c) (ohA m c) (cntA m c) ⟨(i 0).val, idx2_lt0 i⟩
/-- The validity column: row `r`'s flag. -/
abbrev G6 : S8192x1.Idx → Elt Ideal .f32 := fun i => KerSpec.validf (ohA m c) ⟨(i 0).val, idx2_lt0 i⟩

theorem mem_blk5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v13_0).slice (win0_5.rect t)).set ↔ _
  rw [View.set_slice_whole, Rect.mem_set_unit]
  exact Iff.rfl
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v13_1).slice (win0_6.rect t)).set ↔ _
  rw [View.set_slice_whole, Rect.mem_set_unit]
  exact Iff.rfl

/-- The point that writes row `r` back: the last key block of row block `r / 512`. -/
theorem lastPt_lt (i : S8192x1.Idx) : (i 0).val / 512 * 16 + 15 < cfg0.N := by
  have hi0 : (i 0).val < 8192 := (i 0).isLt
  rw [show cfg0.N = 256 from N_0]; omega
abbrev lastPt (i : S8192x1.Idx) : Fin cfg0.N := ⟨(i 0).val / 512 * 16 + 15, lastPt_lt i⟩

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  refine ⟨lastPt i, (flush0_5 _).mpr (by show ((i 0).val / 512 * 16 + 15) % 16 = 15; omega), ?_⟩
  rw [mem_blk5]
  obtain ⟨-, -, -, -, -, -, -, -, -, -, e50, e51, -⟩ := idx_facts (lastPt i)
  have hq : (lastPt i).val / 16 = (i 0).val / 512 := by show ((i 0).val / 512 * 16 + 15) / 16 = _; omega
  intro a
  match a with
  | ⟨0, _⟩ => show win0_5.index (lastPt i) (0 : Fin 2) * 512 ≤ (i 0).val ∧ (i 0).val < win0_5.index (lastPt i) (0 : Fin 2) * 512 + 512; rw [e50, hq]; omega
  | ⟨1, _⟩ => show win0_5.index (lastPt i) (1 : Fin 2) * 1 ≤ (i 1).val ∧ (i 1).val < win0_5.index (lastPt i) (1 : Fin 2) * 1 + 1; rw [e51]; omega

theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  refine ⟨lastPt i, (flush0_6 _).mpr (by show ((i 0).val / 512 * 16 + 15) % 16 = 15; omega), ?_⟩
  rw [mem_blk6]
  obtain ⟨-, -, -, -, -, -, -, -, -, -, -, -, e60, e61⟩ := idx_facts (lastPt i)
  have hq : (lastPt i).val / 16 = (i 0).val / 512 := by show ((i 0).val / 512 * 16 + 15) / 16 = _; omega
  intro a
  match a with
  | ⟨0, _⟩ => show win0_6.index (lastPt i) (0 : Fin 2) * 512 ≤ (i 0).val ∧ (i 0).val < win0_6.index (lastPt i) (0 : Fin 2) * 512 + 512; rw [e60, hq]; omega
  | ⟨1, _⟩ => show win0_6.index (lastPt i) (1 : Fin 2) * 1 ≤ (i 1).val ∧ (i 1).val < win0_6.index (lastPt i) (1 : Fin 2) * 1 + 1; rw [e61]; omega

set_option maxHeartbeats 1000000 in
/-- What a last key block writes back is its block of the loss column. -/
theorem flushed5_eq (t : Fin cfg0.N) (hf : (cfg0.win 5).flush t = true) :
    (dats m 0 c).flushed 5 t = ((cfg0.win 5).blk t).view.read (Elt Ideal) (G5 m c) := by
  have h1 : t.val % 16 = 15 := (flush0_5 t).mp hf
  obtain ⟨-, -, -, -, -, -, -, -, -, -, e50, e51, -⟩ := idx_facts t
  show (cfg0.win 5).cut (grid0.coords t) ((dats m 0 c).after 5 t) = _
  rw [after5]
  funext y
  show (stateAt m c t.val t.isLt).1 y = G5 m c (((cfg0.win 5).blk t).view.emb y)
  refine (o5_idx m c t h1 y).trans (congrArg (KerSpec.lossRow κv (fA m c) (ohA m c) (cntA m c)) (Fin.ext ?_))
  show t.val / 16 * 512 + (y 0).val = win0_5.index t (0 : Fin 2) * 512 + 1 * (y 0).val
  omega

set_option maxHeartbeats 1000000 in
theorem flushed6_eq (t : Fin cfg0.N) (hf : (cfg0.win 6).flush t = true) :
    (dats m 0 c).flushed 6 t = ((cfg0.win 6).blk t).view.read (Elt Ideal) (G6 m c) := by
  have h1 : t.val % 16 = 15 := (flush0_6 t).mp hf
  obtain ⟨-, -, -, -, -, -, -, -, -, -, -, -, e60, e61⟩ := idx_facts t
  show (cfg0.win 6).cut (grid0.coords t) ((dats m 0 c).after 6 t) = _
  rw [after6]
  funext y
  show (stateAt m c t.val t.isLt).2.1 y = G6 m c (((cfg0.win 6).blk t).view.emb y)
  refine (o6_idx m c t h1 y).trans (congrArg (KerSpec.validf (ohA m c)) (Fin.ext ?_))
  show t.val / 16 * 512 + (y 0).val = win0_6.index t (0 : Fin 2) * 512 + 1 * (y 0).val
  omega

/-- After the region the loss column holds every row's loss, and the validity column every row's flag. -/
theorem final5 : (dats m 0 c).arrAt 5 cfg0.N = G5 m c :=
  (dats m 0 c).arrAt_eq_of_cover 5 (G5 m c) (fun t hf => flushed5_eq m c t hf) cover5
theorem final6 : (dats m 0 c).arrAt 6 cfg0.N = G6 m c :=
  (dats m 0 c).arrAt_eq_of_cover 6 (G6 m c) (fun t hf => flushed6_eq m c t hf) cover6

end Cert.KernelIdeal.Body

end
-- ==== Proof.BodyOblig.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyState
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
/-- The body at any point. The inputs' memrefs hold their blocks; the point's key-block coordinate says which of the three
    cases it is in; the invariant hands the body the accumulators at what the point before left (at anything at the very
    first point) and takes them back at this point's contents; an output is handed back untouched except at a last key
    block, where it is returned with its stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live_in 0 (by decide) t], after0]
    rw [show (dats m 0 c).leavesExact 1 t = owns (c : Thread nD τ) (ms1 t) fullShare ((dats m 0 c).after 1 t) from by
      unfold Dat.leavesExact; rw [live_in 1 (by decide) t], after1]
    rw [show (dats m 0 c).leavesExact 2 t = owns (c : Thread nD τ) (ms2 t) fullShare ((dats m 0 c).after 2 t) from by
      unfold Dat.leavesExact; rw [live_in 2 (by decide) t], after2]
    rw [show (dats m 0 c).leavesExact 3 t = owns (c : Thread nD τ) (ms3 t) fullShare ((dats m 0 c).after 3 t) from by
      unfold Dat.leavesExact; rw [live_in 3 (by decide) t], after3]
    rw [show (dats m 0 c).leavesExact 4 t = owns (c : Thread nD τ) (ms4 t) fullShare ((dats m 0 c).after 4 t) from by
      unfold Dat.leavesExact; rw [live_in 4 (by decide) t], after4]
    rw [Dat.leavesExact_idle (dats m 0 c) 5 t (idle5 t (fun h => h1 ((condLast_iff t).mp h))) (noFlush5 t (fun h => h1 ((condLast_iff t).mp h)))]
    rw [Dat.leavesExact_idle (dats m 0 c) 6 t (idle6 t (fun h => h1 ((condLast_iff t).mp h))) (noFlush6 t (fun h => h1 ((condLast_iff t).mp h)))]
    rw [stateAt_first m c t h0 h1]
    unfold stF; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rF c t ((condFirst_iff t).mpr h0) (fun h => h1 ((condLast_iff t).mp h)) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covF0 c t _ _ _ _ _ _)
          isplitl [HS1]
          · unfold owns; iexists _; isplitr
            swap; · iexact HS1
            ipureintro; exact View.read_writes_of_cover _ _ _ _ _ (covF1 c t _ _ _ _ _ _)
          · unfold owns; iexists _; isplitr
            swap; · iexact HS2
            ipureintro; exact View.read_writes_of_cover _ _ _ _ _ (covF2 c t _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rF c t ((condFirst_iff t).mpr h0) (fun h => h1 ((condLast_iff t).mp h)) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covF0 c t _ _ _ _ _ _)
          isplitl [HS1]
          · unfold owns; iexists _; isplitr
            swap; · iexact HS1
            ipureintro; exact View.read_writes_of_cover _ _ _ _ _ (covF1 c t _ _ _ _ _ _)
          · unfold owns; iexists _; isplitr
            swap; · iexact HS2
            ipureintro; exact View.read_writes_of_cover _ _ _ _ _ (covF2 c t _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun hz => h0 (by rw [hz])
    by_cases h1 : t.val % 16 = 15
    · rw [PhiS_castSucc m c t, PhiS_pos m c _ _ hz]
      rw [show (dats m 0 c).leavesExact 0 t = owns (c : Thread nD τ) (ms0 t) fullShare ((dats m 0 c).after 0 t) from by
        unfold Dat.leavesExact; rw [live_in 0 (by decide) t], after0]
      rw [show (dats m 0 c).leavesExact 1 t = owns (c : Thread nD τ) (ms1 t) fullShare ((dats m 0 c).after 1 t) from by
        unfold Dat.leavesExact; rw [live_in 1 (by decide) t], after1]
      rw [show (dats m 0 c).leavesExact 2 t = owns (c : Thread nD τ) (ms2 t) fullShare ((dats m 0 c).after 2 t) from by
        unfold Dat.leavesExact; rw [live_in 2 (by decide) t], after2]
      rw [show (dats m 0 c).leavesExact 3 t = owns (c : Thread nD τ) (ms3 t) fullShare ((dats m 0 c).after 3 t) from by
        unfold Dat.leavesExact; rw [live_in 3 (by decide) t], after3]
      rw [show (dats m 0 c).leavesExact 4 t = owns (c : Thread nD τ) (ms4 t) fullShare ((dats m 0 c).after 4 t) from by
        unfold Dat.leavesExact; rw [live_in 4 (by decide) t], after4]
      rw [show (dats m 0 c).leavesExact 5 t = owns (c : Thread nD τ) (ms5 t) fullShare ((dats m 0 c).after 5 t) from by
        unfold Dat.leavesExact; rw [live5 t ((condLast_iff t).mpr h1)], after5]
      rw [show (dats m 0 c).leavesExact 6 t = owns (c : Thread nD τ) (ms6 t) fullShare ((dats m 0 c).after 6 t) from by
        unfold Dat.leavesExact; rw [live6 t ((condLast_iff t).mpr h1)], after6]
      rw [stateAt_last m c t h0 h1]
      unfold stL; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((rL c t (fun h => h0 ((condFirst_iff t).mp h)) ((condLast_iff t).mpr h1) (iblk m c 0 t) (iblk m c 1 t) (iblk m c 2 t) (iblk m c 3 t) (iblk m c 4 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, ⟨%e5, H5⟩, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covL0 c t _ _ _ _ _ _ _ _ _ _)
          isplitl [HS1]
          · unfold owns; iexists _; isplitr
            swap; · iexact HS1
            ipureintro; exact View.read_writes_of_cover _ _ _ _ _ (covL1 c t _ _ _ _ _ _ _ _ _ _)
          · unfold owns; iexists _; isplitr
            swap; · iexact HS2
            ipureintro; exact View.read_writes_of_cover _ _ _ _ _ (covL2 c t _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (covL5 c t _ _ _ _ _ _ _ _ _ _)
      · unfold owns; iexists _; isplitr
        swap; · iexact H6
        ipureintro; exact View.read_writes_of_cover _ _ _ _ _ (covL6 c t _ _ _ _ _ _ _ _ _ _)
    · rw [PhiS_castSucc m c t, PhiS_pos m c _ _ hz]
      rw [show (dats m 0 c).leavesExact 0 t = owns (c : Thread nD τ) (ms0 t) fullShare ((dats m 0 c).after 0 t) from by
        unfold Dat.leavesExact; rw [live_in 0 (by decide) t], after0]
      rw [show (dats m 0 c).leavesExact 1 t = owns (c : Thread nD τ) (ms1 t) fullShare ((dats m 0 c).after 1 t) from by
        unfold Dat.leavesExact; rw [live_in 1 (by decide) t], after1]
      rw [show (dats m 0 c).leavesExact 2 t = owns (c : Thread nD τ) (ms2 t) fullShare ((dats m 0 c).after 2 t) from by
        unfold Dat.leavesExact; rw [live_in 2 (by decide) t], after2]
      rw [show (dats m 0 c).leavesExact 3 t = owns (c : Thread nD τ) (ms3 t) fullShare ((dats m 0 c).after 3 t) from by
        unfold Dat.leavesExact; rw [live_in 3 (by decide) t], after3]
      rw [show (dats m 0 c).leavesExact 4 t = owns (c : Thread nD τ) (ms4 t) fullShare ((dats m 0 c).after 4 t) from by
        unfold Dat.leavesExact; rw [live_in 4 (by decide) t], after4]
      rw [Dat.leavesExact_idle (dats m 0 c) 5 t (idle5 t (fun h => h1 ((condLast_iff t).mp h))) (noFlush5 t (fun h => h1 ((condLast_iff t).mp h)))]
      rw [Dat.leavesExact_idle (dats m 0 c) 6 t (idle6 t (fun h => h1 ((condLast_iff t).mp h))) (noFlush6 t (fun h => h1 ((condLast_iff t).mp h)))]
      rw [stateAt_mid m c t h0 h1]
      unfold stM; (try dsimp only)
      iintro ⟨⟨⟨HS0, HS1, HS2⟩, Hg⟩, Ho, ⟨%d0, H0⟩, ⟨%d1, H1⟩, ⟨%d2, H2⟩, ⟨%d3, H3⟩, ⟨%d4, H4⟩, H5, H6⟩
      iapply ((rM c t (fun h => h0 ((condFirst_iff t).mp h)) (fun h => h1 ((condLast_iff t).mp h)) (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (covM0 c t _ _ _ _ _ _ _ _ _)
          isplitl [HS1]
          · unfold owns; iexists _; isplitr
            swap; · iexact HS1
            ipureintro; exact View.read_writes_of_cover _ _ _ _ _ (covM1 c t _ _ _ _ _ _ _ _ _)
          · unfold owns; iexists _; isplitr
            swap; · iexact HS2
            ipureintro; exact View.read_writes_of_cover _ _ _ _ _ (covM2 c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

set_option maxHeartbeats 3200000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the accumulators' named contents are forgotten. -/
theorem hout (c : Dev nD) : (dats m 0 c).Φ (Fin.last cfg0.N) ⊢ Pipeline.ΦA spec0 c := by
  have h : (dats m 0 c).Φ (Fin.last cfg0.N) = PhiS m c (Fin.last cfg0.N).val (Nat.le_of_lt_succ (Fin.last cfg0.N).isLt) := by
    dsimp only [dats]
  have hz : (Fin.last cfg0.N).val ≠ 0 := by rw [Fin.val_last]; have : cfg0.N = 256 := N_0; omega
  rw [h, PhiS_pos m c _ _ hz, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.KernelIdeal.Body

end
-- ==== Proof.LaunchShared.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyState
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The arrays behind the windows

Seven windows, five arrays: the normalized features are handed to the kernel twice (as the row block and as the key block),
and so is the one-hot matrix. Each doubly windowed array is held at one half share by each of its two windows. -/

abbrev arrList : List (Ref sig .tc) := [main_v2, main_v10, main_v12, main_v13_0, main_v13_1]
theorem arrImg : Finset.univ.image (arrRef spec0) = arrList.toFinset := by decide
theorem arrList_nodup : arrList.Nodup := by decide

/-- The five distinct buffers, one by one. -/
theorem arrBufs_chain (c : Dev nD) (Vb : (b : Ref sig .tc) → Buf (Elt F) ((c.tc : Thread nD τ).loc b)) :
    (arrBufs spec0 c Vb : sProp 𝕄)
      = iprop((((c.tc : Thread nD τ).loc main_v2) ↦{fullShare} Vb main_v2) ∗ (((c.tc : Thread nD τ).loc main_v10) ↦{fullShare} Vb main_v10)
          ∗ (((c.tc : Thread nD τ).loc main_v12) ↦{fullShare} Vb main_v12) ∗ (((c.tc : Thread nD τ).loc main_v13_0) ↦{fullShare} Vb main_v13_0)
          ∗ (((c.tc : Thread nD τ).loc main_v13_1) ↦{fullShare} Vb main_v13_1)) := by
  unfold Pipeline.arrBufs
  exact bigSep_eq_bigSepL_of_eq arrList arrImg arrList_nodup _

/-- The seven windows' holdings, one by one: each window's array whole, at the window's share. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_v2) ↦{fullShare.left} Fa 0) ∗ (((c.tc : Thread nD τ).loc main_v2) ↦{fullShare.right} Fa 1)
          ∗ (((c.tc : Thread nD τ).loc main_v10) ↦{fullShare.left} Fa 2) ∗ (((c.tc : Thread nD τ).loc main_v10) ↦{fullShare.right} Fa 3)
          ∗ (((c.tc : Thread nD τ).loc main_v12) ↦{fullShare} Fa 4) ∗ (((c.tc : Thread nD τ).loc main_v13_0) ↦{fullShare} Fa 5)
          ∗ (((c.tc : Thread nD τ).loc main_v13_1) ↦{fullShare} Fa 6)) := by
  unfold Dat.arrays
  rw [bigSep_W0]
  rw [(arr_whole0 0).set_eq_univ, (arr_whole0 2).set_eq_univ, (arr_whole0 4).set_eq_univ, (arr_whole0 5).set_eq_univ, (arr_whole0 6).set_eq_univ]
  rfl

/-- A whole buffer held outright is the same buffer held at two half shares, and back. -/
theorem halve (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem unhalve (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- At the region's entry: the five buffers at the entry contents make the seven holdings. -/
theorem hsplit (c : Dev nD) : (arrBufs spec0 c (V m c) : sProp 𝕄) ⊢ (dats m 0 c).arrays ((dats m 0 c).arrAt · 0) := by
  rw [arrBufs_chain, arrays_chain]
  iintro ⟨H2, H10, H12, H130, H131⟩
  ihave H2' := (halve _ _) $$ H2
  icases H2' with ⟨H2l, H2r⟩
  ihave H10' := (halve _ _) $$ H10
  icases H10' with ⟨H10l, H10r⟩
  isplitl [H2l]; · iexact H2l
  isplitl [H2r]; · iexact H2r
  isplitl [H10l]; · iexact H10l
  isplitl [H10r]; · iexact H10r
  isplitl [H12]; · iexact H12
  isplitl [H130]; · iexact H130
  iexact H131

/-! ## Leaving the region, and the host lines after it -/

/-- The buffer contents when the region is left: the two outputs at what the write-backs made of them, everything else as
    the region found it. -/
def Vexit (c : Dev nD) : Valuation τ sig (Elt F) :=
  Function.update (Function.update (V0 m c) (Proc.devRef .tc main_v13_0) ((dats m 0 c).arrAt 5 cfg0.N))
    (Proc.devRef .tc main_v13_1) ((dats m 0 c).arrAt 6 cfg0.N)
/-- The buffer contents after the host lines that follow the region. -/
def Vfin (c : Dev nD) : Valuation τ sig (Elt F) :=
  StableHlo.after (List.flatten [hostOps1 (F := F), hostOps1_1 (F := F)]) (Vexit m c)

theorem Vexit_o6 (c : Dev nD) : Vexit m c (Proc.devRef .tc main_v13_1) = (dats m 0 c).arrAt 6 cfg0.N := Function.update_self ..
theorem Vexit_o5 (c : Dev nD) : Vexit m c (Proc.devRef .tc main_v13_0) = (dats m 0 c).arrAt 5 cfg0.N :=
  (Function.update_of_ne (by decide) ..).trans (Function.update_self ..)
theorem Vexit_other (c : Dev nD) (b : Ref sig .tc) (h5 : b ≠ main_v13_0) (h6 : b ≠ main_v13_1) :
    Vexit m c (Proc.devRef .tc b) = V m c b :=
  (Function.update_of_ne (fun h => h6 (Proc.devRef_injective _ h)) ..).trans (Function.update_of_ne (fun h => h5 (Proc.devRef_injective _ h)) ..)

/-- The seven holdings at the region's exit are the five buffers at the exit contents (the halves rejoined), and back. -/
theorem arrays_exit (c : Dev nD) :
    ((dats m 0 c).arrays ((dats m 0 c).arrAt · cfg0.N) : sProp 𝕄) ⊣⊢ arrBufs spec0 c (fun b => Vexit m c (Proc.devRef .tc b)) := by
  rw [arrBufs_chain, arrays_chain, Vexit_o5, Vexit_o6,
    Vexit_other m c main_v2 (by decide) (by decide), Vexit_other m c main_v10 (by decide) (by decide), Vexit_other m c main_v12 (by decide) (by decide),
    (dats m 0 c).arrAt_in 0 rfl, (dats m 0 c).arrAt_in 1 rfl, (dats m 0 c).arrAt_in 2 rfl, (dats m 0 c).arrAt_in 3 rfl, (dats m 0 c).arrAt_in 4 rfl,
    A_eq, A_eq, A_eq, A_eq, A_eq]
  constructor
  · iintro ⟨H2l, H2r, H10l, H10r, H12, H130, H131⟩
    isplitl [H2l H2r]
    · iapply (unhalve _ _)
      isplitl [H2l] <;> iassumption
    isplitl [H10l H10r]
    · iapply (unhalve _ _)
      isplitl [H10l] <;> iassumption
    isplitl [H12]; · iexact H12
    isplitl [H130]; · iexact H130
    iexact H131
  · iintro ⟨H2, H10, H12, H130, H131⟩
    ihave H2' := (halve _ _) $$ H2
    icases H2' with ⟨H2l, H2r⟩
    ihave H10' := (halve _ _) $$ H10
    icases H10' with ⟨H10l, H10r⟩
    isplitl [H2l]; · iexact H2l
    isplitl [H2r]; · iexact H2r
    isplitl [H10l]; · iexact H10l
    isplitl [H10r]; · iexact H10r
    isplitl [H12]; · iexact H12
    isplitl [H130]; · iexact H130
    iexact H131

/-- The buffers no window stages are where the region found them. -/
theorem rest_exit (c : Dev nD) :
    (unscopedRestP Pipeline.Prefetch.none spec0 c (V m c) : sProp 𝕄)
      = unscopedRestP Pipeline.Prefetch.none spec0 c (fun b => Vexit m c (Proc.devRef .tc b)) := by
  unfold Pipeline.unscopedRestP
  exact bigSep_congr fun b hb => by
    have hb' : b ∉ Finset.univ.image (arrRef spec0) := (Finset.mem_sdiff.mp (Finset.mem_sdiff.mp hb).1).2
    rw [arrImg] at hb'
    dsimp only
    rw [Vexit_other m c b (fun h => hb' (by rw [h]; decide)) (fun h => hb' (by rw [h]; decide))]

/-- The buffers a host line after the region may touch, held at a valuation: the five arrays' buffers and the rest. No
    injectivity of the windows' arrays is needed: the split is over the SET of arrays. -/
theorem held_tail (c : Dev nD) (Wv : Valuation τ sig (Elt F)) :
    (StableHlo.held (c.tc : Thread nD τ) (tailRefs sig Pipeline.Prefetch.none spec0) Wv : sProp 𝕄)
      = iprop(arrBufs spec0 c (fun b => Wv (Proc.devRef .tc b)) ∗ unscopedRestP Pipeline.Prefetch.none spec0 c (fun b => Wv (Proc.devRef .tc b))) := by
  classical
  have hdisj : Disjoint (Finset.univ.image (arrRef spec0)) (restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

theorem tail_sub : ∀ ops ∈ ([hostOps1, hostOps1_1] : List (List (HloOp τ sig (Elt F)))), ∀ op ∈ ops,
    op.bufs ⊆ tailRefs sig Pipeline.Prefetch.none spec0 := by
  rw [Pipeline.tailRefs_none spec0 winFacts₀0.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The host lines after the region write none of the five arrays. -/
theorem Vfin_arr (c : Dev nD) (b : Ref sig .tc) (hb : b ∈ arrList) : Vfin m c (Proc.devRef .tc b) = Vexit m c (Proc.devRef .tc b) := by
  unfold Vfin
  refine StableHlo.after_of_forall_not_mem _ _ fun op hop => ?_
  simp only [List.flatten_cons, List.flatten_nil, List.append_nil, hostOps1, hostOps1_1, List.cons_append, List.nil_append,
    List.mem_cons, List.mem_nil_iff, or_false] at hop
  simp only [arrList, List.mem_cons, List.mem_nil_iff, or_false] at hb
  rcases hop with rfl | rfl | rfl | rfl | rfl | rfl | rfl | rfl | rfl | rfl | rfl | rfl <;>
    rcases hb with rfl | rfl | rfl | rfl | rfl <;>
    simp only [StableHlo.nullary_writes, StableHlo.unary_writes, StableHlo.binary_writes, StableHlo.ternary_writes,
      StableHlo.TRef.unary, StableHlo.TRef.ternary, Finset.mem_singleton] <;>
    exact StableHlo.devRef_ne_of_ne (by decide)

end Cert.KernelIdeal.Body

end
-- ==== Proof.RunMain.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.BodyOblig
import proofs.«118708_j2697239462642_1_alg».proof.Proof.LaunchShared
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## @main around the region -/

theorem pre_sub : ([hostOps0, hostOps0_1, hostOps0_2, hostOps0_3] : List (List (HloOp τ sig (Elt F)))).Forall
    fun ops => ops.Forall fun op => op.bufs ⊆ StableHlo.tcRefs τ sig :=
  ⟨hostOps0_sub, hostOps0_1_sub, hostOps0_2_sub, hostOps0_3_sub⟩
theorem pre_fresh : ([hostOps0, hostOps0_1, hostOps0_2, hostOps0_3] : List (List (HloOp τ sig (Elt F)))).Forall
    fun ops => ops.Forall fun op => op.fresh = ∅ := by
  simp only [List.Forall]; repeat' constructor

/-- @main is the host lines before the region, the region, the host lines after it: it reduces to the region continued by
    the later lines, at the contents the earlier lines leave. -/
theorem hmain (𝒱₀ : Variants) : HMainK (Ix := Unit) (Name := ℕ) (U := UR sig nD τ) (Lvl := ℕ) cfgs 0 defs₀ 𝒱₀ m (main (F := F)) (V m)
      (fun _ => chain [StableHlo.seq hostOps1, StableHlo.seq hostOps1_1]) :=
  hmain_around cfgs 0 defs₀ 𝒱₀ m main [hostOps0, hostOps0_1, hostOps0_2, hostOps0_3] [hostOps1, hostOps1_1] pre_sub pre_fresh main_chain

/-! ## The lines after the region, from the seven holdings -/

theorem arrBufs_fin (c : Dev nD) :
    (arrBufs spec0 c (fun b => Vfin m c (Proc.devRef .tc b)) : sProp 𝕄) = arrBufs spec0 c (fun b => Vexit m c (Proc.devRef .tc b)) := by
  unfold Pipeline.arrBufs
  exact bigSep_congr fun b hb => by
    dsimp only
    rw [Vfin_arr m c b (by rw [arrImg] at hb; exact List.mem_toFinset.mp hb)]

theorem pre_tail (c : Dev nD) :
    iprop(boundary (c.tc : Thread nD τ) ∗ (dats m 0 c).arrays ((dats m 0 c).arrAt · cfg0.N) ∗ unscopedRestP Prefetch.none spec0 c (V m c))
      ⊢ (iprop(boundary (c.tc : Thread nD τ) ∗ StableHlo.held (c.tc : Thread nD τ) (tailRefs sig Prefetch.none spec0) (Vexit m c)) : sProp 𝕄) := by
  rw [held_tail, rest_exit]
  iintro ⟨Hb, Ha, Hr⟩
  isplitl [Hb]; · iexact Hb
  isplitl [Ha]
  · iapply (arrays_exit m c).1; iexact Ha
  iexact Hr

theorem post_tail (c : Dev nD) :
    (StableHlo.held (c.tc : Thread nD τ) (tailRefs sig Prefetch.none spec0) (Vfin m c) : sProp 𝕄)
      ⊢ iprop((dats m 0 c).arrays ((dats m 0 c).arrAt · cfg0.N) ∗ unscopedRestP Prefetch.none spec0 c (fun b => Vfin m c (Proc.devRef .tc b))) := by
  rw [held_tail, arrBufs_fin]
  iintro ⟨Ha, Hr⟩
  isplitl [Ha]
  · iapply (arrays_exit m c).2; iexact Ha
  iexact Hr

set_option backward.isDefEq.respectTransparency.types false in
/-- From the region's exit the later host lines run within the five arrays' buffers and the buffers no window stages, and
    hand the seven holdings back unchanged with the rest at what the lines leave. -/
theorem htail (𝒱₀ : Variants) (c : Dev nD) (Q' : PUnit → sProp 𝕄) :
    iprop((iprop((dats m 0 c).arrays ((dats m 0 c).arrAt · cfg0.N) ∗ unscopedRestP Prefetch.none spec0 c (fun b => Vfin m c (Proc.devRef .tc b))) -∗ Q' ⟨⟩)
        ∗ boundary (c.tc : Thread nD τ) ∗ (dats m 0 c).arrays ((dats m 0 c).arrAt · cfg0.N) ∗ unscopedRestP Prefetch.none spec0 c (V m c))
      ⊢ wp frame (wpE (Pipeline.defs (fun q => (cfgs q).toPCfg (Val := Elt F)) defs₀) (Variants.lift 𝒱₀) (c.tc : Thread nD τ) none) Set.univ
          (chain (([hostOps1, hostOps1_1] : List (List (HloOp τ sig (Elt F)))).map StableHlo.seq)) Q' := by
  rw [← List.append_nil (([hostOps1, hostOps1_1] : List (List (HloOp τ sig (Elt F)))).map StableHlo.seq)]
  iintro ⟨Hk, H⟩
  ihave H' := (pre_tail m c) $$ H
  iapply (wp_seqs_then (fun q => (cfgs q).toPCfg (Val := Elt F)) defs₀ 𝒱₀ c (tailRefs sig Prefetch.none spec0) [] [hostOps1, hostOps1_1] tail_sub tail_fresh (Vexit m c)) $$ H'
  iintro H''
  rw [chain_nil, wp_pure]
  imodintro
  iapply Hk
  icases H'' with ⟨-, Hh⟩
  iapply (post_tail m c)
  iexact Hh

/-! ## The run -/

set_option backward.isDefEq.respectTransparency.types false in
set_option maxHeartbeats 1600000 in
/-- Every weakly fair execution of @main terminates, each window's array ends at what the proof data computes and every
    other unscoped buffer at what the host lines after the region leave. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefsP sig Prefetch.none spec0, r.2.mem ((c.tc : Thread nD τ).loc b) = Vfin m c (Proc.devRef .tc b)) := by
  classical
  exact θ_run_region_pf_tail (fun q => (cfgs q).toPCfg (Val := Elt F)) (fun q => (cfgs q).toPCfg_adm) (dats m) () cellOf_inj (0 : Fin 1)
    winFacts₀0 (OwnSemFacts.none spec0) (PreFacts.none _) emb₁ defs₀ Variants.none m ρ main
    (fun _ => chain (([hostOps1, hostOps1_1] : List (List (HloOp τ sig (Elt F)))).map StableHlo.seq))
    (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => Vfin m c (Proc.devRef .tc b)))
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := htail m Variants.none)
    (QY := fun c s => ∀ b ∈ restRefsP sig Prefetch.none spec0, s.mem ((c.tc : Thread nD τ).loc b) = Vfin m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => Vfin m c (Proc.devRef .tc b)) s')
      isplitl [HU] <;> iassumption)
    (hQ := fun s h c => ⟨(h c).1, (h c).2.2⟩)

end Cert.KernelIdeal.Body

end
-- ==== Proof.FrameOf.lean ====
import proofs.«118708_j2697239462642_1_alg».proof.Proof.Gen.KernelIdeal.Launch
import proofs.«118708_j2697239462642_1_alg».proof.Proof.Gen.KernelIdeal.Skeleton
import proofs.«118708_j2697239462642_1_alg».proof.Proof.Gen.KernelIdeal.Points
import proofs.«118708_j2697239462642_1_alg».proof.Proof.RunMain
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! ## The argument arrays are never written -/

theorem V_arg0 (c : Dev nD) : V m c main_arg0 = m ((c.tc : Thread nD τ).loc main_arg0) := by
  dsimp only [V, V0]
  simp only [hostOps0, hostOps0_1, hostOps0_2, hostOps0_3, List.flatten_cons, List.flatten_nil, List.append_nil, List.cons_append, List.nil_append]
  after_results
theorem V_arg1 (c : Dev nD) : V m c main_arg1 = m ((c.tc : Thread nD τ).loc main_arg1) := by
  dsimp only [V, V0]
  simp only [hostOps0, hostOps0_1, hostOps0_2, hostOps0_3, List.flatten_cons, List.flatten_nil, List.append_nil, List.cons_append, List.nil_append]
  after_results

theorem Vfin_arg0 (c : Dev nD) : Vfin m c (Proc.devRef .tc main_arg0) = m ((c.tc : Thread nD τ).loc main_arg0) := by
  have h : Vfin m c (Proc.devRef .tc main_arg0) = Vexit m c (Proc.devRef .tc main_arg0) := by
    unfold Vfin
    simp only [hostOps1, hostOps1_1, List.flatten_cons, List.flatten_nil, List.append_nil, List.cons_append, List.nil_append]
    after_results
  rw [h, Vexit_other m c main_arg0 (by decide) (by decide)]
  exact V_arg0 m c
theorem Vfin_arg1 (c : Dev nD) : Vfin m c (Proc.devRef .tc main_arg1) = m ((c.tc : Thread nD τ).loc main_arg1) := by
  have h : Vfin m c (Proc.devRef .tc main_arg1) = Vexit m c (Proc.devRef .tc main_arg1) := by
    unfold Vfin
    simp only [hostOps1, hostOps1_1, List.flatten_cons, List.flatten_nil, List.append_nil, List.cons_append, List.nil_append]
    after_results
  rw [h, Vexit_other m c main_arg1 (by decide) (by decide)]
  exact V_arg1 m c

theorem arg0_rest : main_arg0 ∈ restRefsP sig Prefetch.none spec0 := by decide
theorem arg1_rest : main_arg1 ∈ restRefsP sig Prefetch.none spec0 := by decide
theorem v19_rest : main_v19 ∈ restRefsP sig Prefetch.none spec0 := by decide

/-- The program runs to the end, faults nowhere, and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (Vfin_arg0 m c), ((h c).2 main_arg1 arg1_rest).trans (Vfin_arg1 m c)⟩)
    (run_main m ρ)

/-- The same run with the result named: the scalar the last host line writes. -/
theorem run_value : θ_run defs (onTc (τ := τ) (main (F := F))) ⟨m, fun _ => 0, ρ⟩ (fun r => ∀ c : Dev nD,
      r.2.mem ((c.tc : Thread nD τ).loc main_v19) = Vfin m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v19 v19_rest, ((h c).2 main_arg0 arg0_rest).trans (Vfin_arg0 m c), ((h c).2 main_arg1 arg1_rest).trans (Vfin_arg1 m c)⟩)
    (run_main m ρ)

end Cert.KernelIdeal.Body

end
-- ==== Proof.RefSpec.lean ====
import Idealize.ShloMosaic.PureOps.Ideal
import Idealize.ShloMosaic.Lib.ValueIdx

/-!
# The supervised-contrastive loss of the reference, as one function on extended reals

The reference normalizes each feature row, forms all pairwise similarities divided by a temperature,
and for every anchor row `r` compares the similarities to rows of the same class with a denominator
built from per-class means of `exp` similarities. Everything below is stated from

* `f r h` — the NORMALIZED feature matrix (8192 rows, 256 columns), and
* `o r c` — the ONE-HOT label matrix (8192 rows, 32 classes),

with exact operations on `EReal`: `Ideal.div` is the division with its conventions at zero and at the
infinities, `Ideal.exp` and `Ideal.log` the extended exponential and logarithm. The temperature and the
floor under the logarithm are kept as the 32-bit words the program prints; the words of `0.0` and `1.0`
are written as the extended reals `0` and `1` they denote, and a sum that the program starts from the
word `0.0` is written without that leading zero (`0 + x = x` holds for every extended real).
-/

noncomputable section

open scoped BigOperators

namespace RefSpec

open Idealize.ShloMosaic

/-- Similarity of rows `r` and `k`: the inner product of the normalized rows divided by the temperature
    (the word `0x3DCCCCCD`, the float nearest `0.1`). -/
def sim (f : Fin 8192 → Fin 256 → EReal) (r k : Fin 8192) : EReal :=
  Ideal.div (∑ h : Fin 256, f r h * f k h) (Ideal.ofBits .f32 0x3DCCCCCD#32)

/-- The off-diagonal factor `1 − [r = k]`. -/
def offd (r k : Fin 8192) : EReal := 1 - (if r = k then (1 : EReal) else 0)

/-- `E r k = exp (sim r k) · (1 − [r = k])`: the exponentiated similarity, the anchor itself excluded. -/
def E (f : Fin 8192 → Fin 256 → EReal) (r k : Fin 8192) : EReal :=
  Ideal.exp (sim f r k) * offd r k

/-- Per anchor `r` and class `c`: the sum of `E r k` over the rows `k` of class `c`. -/
def classSum (f : Fin 8192 → Fin 256 → EReal) (o : Fin 8192 → Fin 32 → EReal) (r : Fin 8192) (c : Fin 32) : EReal :=
  ∑ k : Fin 8192, E f r k * o k c

/-- The number of rows of class `c` (a column sum of the one-hot matrix). -/
def classTotal (o : Fin 8192 → Fin 32 → EReal) (c : Fin 32) : EReal := ∑ r' : Fin 8192, o r' c

/-- Per anchor and class: the number of OTHER rows of that class. -/
def counts (o : Fin 8192 → Fin 32 → EReal) (r : Fin 8192) (c : Fin 32) : EReal :=
  classTotal o c - o r c

/-- One class's term of the denominator: the class mean of `E` where the class has another member, else `0`. -/
def denomTerm (f : Fin 8192 → Fin 256 → EReal) (o : Fin 8192 → Fin 32 → EReal) (r : Fin 8192) (c : Fin 32) : EReal :=
  if 0 < counts o r c then Ideal.div (classSum f o r c) (max (counts o r c) 1) else 0

/-- The denominator of anchor `r`: the sum over the classes of the class means. -/
def denom (f : Fin 8192 → Fin 256 → EReal) (o : Fin 8192 → Fin 32 → EReal) (r : Fin 8192) : EReal :=
  ∑ c : Fin 32, denomTerm f o r c

/-- `posMask r k`: `1` when `k ≠ r` has the label of `r`, as the product of one-hot rows times `1 − [r = k]`. -/
def posMask (o : Fin 8192 → Fin 32 → EReal) (r k : Fin 8192) : EReal :=
  (∑ c : Fin 32, o r c * o k c) * offd r k

/-- The number of positives of anchor `r`. -/
def P (o : Fin 8192 → Fin 32 → EReal) (r : Fin 8192) : EReal := ∑ k : Fin 8192, posMask o r k

/-- An anchor is valid when it has a positive. -/
def valid (o : Fin 8192 → Fin 32 → EReal) (r : Fin 8192) : Prop := 0 < P o r

instance (o : Fin 8192 → Fin 32 → EReal) (r : Fin 8192) : Decidable (valid o r) :=
  inferInstanceAs (Decidable (0 < P o r))

/-- The sum of the similarities to the positives of `r`. -/
def posSimSum (f : Fin 8192 → Fin 256 → EReal) (o : Fin 8192 → Fin 32 → EReal) (r : Fin 8192) : EReal :=
  ∑ k : Fin 8192, sim f r k * posMask o r k

/-- The mean similarity to the positives of `r`. -/
def meanPos (f : Fin 8192 → Fin 256 → EReal) (o : Fin 8192 → Fin 32 → EReal) (r : Fin 8192) : EReal :=
  Ideal.div (posSimSum f o r) (max (P o r) 1)

/-- The loss of anchor `r`: `log (max denom tiny) − meanPos` for a valid anchor, else `0`; `tiny` is the word
    `0x0DA24260` (the float nearest `1e-30`). -/
def lossRow (f : Fin 8192 → Fin 256 → EReal) (o : Fin 8192 → Fin 32 → EReal) (r : Fin 8192) : EReal :=
  if valid o r then Ideal.log (max (denom f o r) (Ideal.ofBits .f32 0x0DA24260#32)) - meanPos f o r else 0

/-- The number of valid anchors, as an extended real. -/
def nValid (o : Fin 8192 → Fin 32 → EReal) : EReal := ∑ r : Fin 8192, (if valid o r then (1 : EReal) else 0)

/-- The loss: the mean of the row losses over the valid anchors, `0` when there is none. -/
def refLoss (f : Fin 8192 → Fin 256 → EReal) (o : Fin 8192 → Fin 32 → EReal) : EReal :=
  if 0 < nValid o then Ideal.div (∑ r : Fin 8192, lossRow f o r) (max (nValid o) 1) else 0

/-- The off-diagonal factor by cases. -/
theorem offd_self (r : Fin 8192) : offd r r = 0 := by
  rw [offd, if_pos rfl, ← EReal.coe_one, ← EReal.coe_sub, sub_self, EReal.coe_zero]
theorem offd_of_ne {r k : Fin 8192} (h : r ≠ k) : offd r k = 1 := by
  rw [offd, if_neg h, sub_zero]

end RefSpec

end
-- ==== Proof.HostSide.lean ====
import proofs.«118708_j2697239462642_1_alg».proof.KernelIdeal
import proofs.«118708_j2697239462642_1_alg».proof.Proof.RefReadP
import proofs.«118708_j2697239462642_1_alg».proof.Proof.KerSpec
import proofs.«118708_j2697239462642_1_alg».proof.Proof.RefSpec
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws
import Idealize.ShloMosaic.PureOps.IdealRules

/-!
# The host lines of the kernel program, read at the exact values

Before the tiled region the program normalizes the feature rows, forms the one-hot label matrix padded with zero columns to
128 classes, and sums its columns; after it, it sums the per-row losses and validity flags over all rows and divides. Each of
these is read here as a pure function: the normalization is the reference's own term, the padded matrix is the reference's
one-hot matrix inside the first 32 columns and `0` beyond, the column sums start from the word of `0.0` (which is `0` and is
dropped), and the final quotient is selected by the comparison of the count with `0`.
-/

noncomputable section

open scoped BigOperators

namespace Cert.KernelIdeal.HostSide

open Cert.KernelIdeal Cert.KernelIdeal.Facts₀ Idealize.ShloMosaic Idealize.ShloMosaic.ValueIdx

variable [Cert.KernelIdeal.Facts]

/-- The normalized features: each row divided by the square root of its sum of squares. -/
def nfK (x0 : (⟨S8192x256, .f32⟩ : BufTy).Contents (Elt Ideal)) : (⟨S8192x256, .f32⟩ : BufTy).Contents (Elt Ideal) :=
  Host.divf (F := Ideal) x0 (broadcastInDim S8192x256 ![0, 1] bcast_S8192x1_S8192x256_0_1
    (Host.sqrt (F := Ideal) (broadcastInDim S8192x1 ![0] bcast_S8192_S8192x1_0
      (Host.reduceAdd (F := Ideal) (mulf x0 x0) (constant (F := Ideal) S_ .f32 0#32) reducesTo_S8192x256_S8192_d1 h_S_))))

/-- The one-hot label matrix, padded with 96 zero columns. -/
def ohK (x1 : (⟨S8192, .i32⟩ : BufTy).Contents (Elt Ideal)) : (⟨S8192x128, .f32⟩ : BufTy).Contents (Elt Ideal) :=
  pad S8192x128 ![0, 0] ![0, 96] ![0, 0]
    (uitofp (F := Ideal) .f32 (cmpi .eq
      (broadcastInDim S8192x32 ![0, 1] bcast_S8192x1_S8192x32_0_1 (broadcastInDim S8192x1 ![0] bcast_S8192_S8192x1_0 x1))
      (broadcastInDim S8192x32 ![0, 1] bcast_S1x32_S8192x32_0_1 (broadcastInDim S1x32 ![1] bcast_S32_S1x32_1 (iotaInDim S32 32 0)))))
    (sitofp (F := Ideal) .f32 (constantI S_ 32 0#32)) pads_S8192x32_S8192x128_000_0960 h_S_

/-- The column sums of the padded one-hot matrix, as one row. -/
def cntK (x1 : (⟨S8192, .i32⟩ : BufTy).Contents (Elt Ideal)) : (⟨S1x128, .f32⟩ : BufTy).Contents (Elt Ideal) :=
  broadcastInDim S1x128 ![1] bcast_S128_S1x128_1
    (Host.reduceAdd (F := Ideal) (ohK x1) (constant (F := Ideal) S_ .f32 0#32) reducesTo_S8192x128_S128_d0 h_S_)

/-- The final mean: the sum of the row losses `L` over the number of valid rows (the sum of the flags `V`), or `0`. -/
def tailVal (L V : (⟨S8192x1, .f32⟩ : BufTy).Contents (Elt Ideal)) : (⟨S_, .f32⟩ : BufTy).Contents (Elt Ideal) :=
  select
    (cmpf (F := Ideal) .ogt (Host.reduceAdd (F := Ideal) V (constant (F := Ideal) S_ .f32 0#32) reducesTo_S8192x1_S_d0_1 h_S_)
      (constant (F := Ideal) S_ .f32 0#32))
    (Host.divf (F := Ideal) (Host.reduceAdd (F := Ideal) L (constant (F := Ideal) S_ .f32 0#32) reducesTo_S8192x1_S_d0_1 h_S_)
      (maximumf (Host.reduceAdd (F := Ideal) V (constant (F := Ideal) S_ .f32 0#32) reducesTo_S8192x1_S_d0_1 h_S_)
        (constant (F := Ideal) S_ .f32 0x3F800000#32)))
    (constant (F := Ideal) S_ .f32 0#32)

/-! ## Words -/

/-- A select on a float comparison `a > z` is the `if` on `z < a`. -/
theorem select_ogt {α : Type} (a z : EReal) (x y : α) :
    Scalar.select (FloatOps.cmpf (F := Ideal) (φ := .f32) .ogt a z) x y = if z < a then x else y := by
  rw [Ideal.cmpf_def]
  unfold Ideal.cmp Scalar.select
  by_cases h : z < a
  · simp [h]
  · simp [h]

/-- The word of `1.0` denotes `1`. -/
theorem one_word : Ideal.ofBits .f32 0x3F800000#32 = 1 :=
  IdealRules.sign_bit.ideal_onePat .f32

/-! ## The three host values before the region -/

/-- The normalization is the reference's own chain of operations. -/
theorem nfK_eq (x0 : (⟨S8192x256, .f32⟩ : BufTy).Contents (Elt Ideal)) :
    nfK x0 = Cert.ReferenceIdeal.ReadP.val_main_v2 (F := Ideal) x0 := by
  unfold nfK Cert.ReferenceIdeal.ReadP.val_main_v2 Cert.ReferenceIdeal.ReadP.val_main_v1 Cert.ReferenceIdeal.ReadP.val_main_v0
    Cert.ReferenceIdeal.ReadP.val_main_call0_v2 Cert.ReferenceIdeal.ReadP.val_main_call0_v1
    Cert.ReferenceIdeal.ReadP.val_main_call0_v0 Cert.ReferenceIdeal.ReadP.val_main_call0_cst
  rfl

/-- The padded matrix: the reference's one-hot entry in a genuine class column, `0` in a padded one. -/
theorem ohK_at (x1 : (⟨S8192, .i32⟩ : BufTy).Contents (Elt Ideal)) (r : Fin 8192) (c : Fin 128) :
    ohK x1 (ix2 r c)
      = KerSpec.pad (fun r c => Cert.ReferenceIdeal.ReadP.val_main_v23 (F := Ideal) x1 (ix2 r c)) r c := by
  unfold KerSpec.pad
  by_cases h : c.val < 32
  · rw [dif_pos h]
    unfold ohK
    refine (pad_apply_of_inside _ _ _ _ _ _ _ (ix2 r c) (ix2 r ⟨c.val, h⟩) (fun a => ?_)).trans ?_
    · match a with
      | ⟨0, _⟩ => show r.val = 0 + r.val * (0 + 1); omega
      | ⟨1, _⟩ => show c.val = 0 + c.val * (0 + 1); omega
    · unfold Cert.ReferenceIdeal.ReadP.val_main_v23 Cert.ReferenceIdeal.ReadP.val_main_v22 Cert.ReferenceIdeal.ReadP.val_main_v20
        Cert.ReferenceIdeal.ReadP.val_main_v17 Cert.ReferenceIdeal.ReadP.val_main_v21 Cert.ReferenceIdeal.ReadP.val_main_v19
        Cert.ReferenceIdeal.ReadP.val_main_v18
      rfl
  · rw [dif_neg h]
    unfold ohK
    refine (pad_apply_of_not_inside _ _ _ _ _ _ _ (ix2 r c) (1 : Fin 2) ?_).trans ?_
    · show ¬(0 ≤ c.val ∧ (c.val - 0) % (0 + 1) = 0 ∧ (c.val - 0) / (0 + 1) < 32)
      omega
    · show ((((0#32 : BitVec 32).toInt : ℤ) : ℝ) : EReal) = 0
      have : (0#32 : BitVec 32).toInt = 0 := by decide
      rw [this]; simp

/-- The class sizes of the padded matrix: the column sums. -/
theorem cntK_at (x1 : (⟨S8192, .i32⟩ : BufTy).Contents (Elt Ideal)) (c : Fin 128) :
    cntK x1 (ix2 (0 : Fin 1) c) = KerSpec.colSum (fun r c => ohK x1 (ix2 r c)) c := by
  unfold cntK KerSpec.colSum
  refine (broadcastInDim_apply _ bcast_S128_S1x128_1 _ (ix2 (0 : Fin 1) c) (ix1 c) (fun a => ?_)).trans ?_
  · match a with
    | ⟨0, _⟩ => show c.val = if (128 : Nat) = 1 then 0 else c.val; rw [if_neg (by decide)]
  · simp only [Host.reduceAdd, Ideal.hostReduceAdd_def]
    rw [Ideal.hostReduceAdd_single reducesTo_S8192x128_S128_d0 (by decide)]
    show Ideal.ofBits .f32 0#32 + _ = _
    rw [Ideal.ofBits_zero_f32, zero_add]
    refine Finset.sum_congr rfl fun r _ => congrArg (ohK x1) (funext fun a => Fin.ext (by
      match a with
      | ⟨0, _⟩ => rfl
      | ⟨1, _⟩ => rfl))

/-! ## The host value after the region -/

/-- The host's sum over both axes of a column array: the sum of its 8192 entries. -/
theorem hostSum_col (V : (⟨S8192x1, .f32⟩ : BufTy).Contents (Elt Ideal)) (i : S_.Idx) :
    Host.reduceAdd (F := Ideal) V (constant (F := Ideal) S_ .f32 0#32) reducesTo_S8192x1_S_d0_1 h_S_ i
      = ∑ r : Fin 8192, V (ix2 r (0 : Fin 1)) := by
  simp only [Host.reduceAdd, Ideal.hostReduceAdd_def]
  rw [Ideal.hostReduceAdd_total reducesTo_S8192x1_S_d0_1 (fun b => b.elim0)]
  show Ideal.ofBits .f32 0#32 + _ = _
  rw [Ideal.ofBits_zero_f32, zero_add, sum_idx2]
  exact Finset.sum_congr rfl fun r _ => Fin.sum_univ_one _

/-- The final mean as an `if` on the number of valid rows. -/
theorem tailVal_at (L V : (⟨S8192x1, .f32⟩ : BufTy).Contents (Elt Ideal)) (i : S_.Idx) :
    tailVal L V i
      = if 0 < ∑ r : Fin 8192, V (ix2 r (0 : Fin 1)) then
          Ideal.div (∑ r : Fin 8192, L (ix2 r (0 : Fin 1))) (max (∑ r : Fin 8192, V (ix2 r (0 : Fin 1))) 1)
        else 0 := by
  unfold tailVal
  show Scalar.select (FloatOps.cmpf (F := Ideal) (φ := .f32) .ogt
        (Host.reduceAdd (F := Ideal) V (constant (F := Ideal) S_ .f32 0#32) reducesTo_S8192x1_S_d0_1 h_S_ i)
        (Ideal.ofBits .f32 0#32))
      (Ideal.div (Host.reduceAdd (F := Ideal) L (constant (F := Ideal) S_ .f32 0#32) reducesTo_S8192x1_S_d0_1 h_S_ i)
        (max (Host.reduceAdd (F := Ideal) V (constant (F := Ideal) S_ .f32 0#32) reducesTo_S8192x1_S_d0_1 h_S_ i)
          (Ideal.ofBits .f32 0x3F800000#32)))
      (Ideal.ofBits .f32 0#32) = _
  rw [hostSum_col, hostSum_col, select_ogt, Ideal.ofBits_zero_f32, one_word]

end Cert.KernelIdeal.HostSide

end
-- ==== Proof.Bridge.lean ====
import proofs.«118708_j2697239462642_1_alg».proof.Proof.RefSpec
import proofs.«118708_j2697239462642_1_alg».proof.Proof.KerSpec
import Mathlib.Algebra.BigOperators.Fin

/-!
# The kernel's arrangement of the loss equals the reference's

The two sides differ in four ways, none of which needs finiteness of any entry: the similarity is a quotient by the
temperature on one side and a product with a factor `κ` on the other (the hypothesis `hκ` says the two agree at every
extended real); the off-diagonal factor is written `1 − [r = k]` or `[r ≠ k]`; a sum over the 8192 keys is taken at once
or as 16 blocks of 512 consecutive keys; and the class axis has 32 entries or 128 of which the last 96 are zero columns.
Addition of extended reals is commutative and associative, and `0 · x = x · 0 = 0`, `0 − 0 = 0`, `x + 0 = x` hold at
every extended real, so sums regroup and the padded classes contribute nothing.
-/

noncomputable section

open scoped BigOperators

namespace Cert.Bridge

open Idealize.ShloMosaic

/-! ## Regrouping the two kinds of sums -/

/-- Keys by block and position in the block: `(kj, j) ↦ 512·kj + j` is a bijection onto the 8192 keys. -/
def rowEquiv : Fin 16 × Fin 512 ≃ Fin 8192 where
  toFun p := KerSpec.row p.1 p.2
  invFun k := (⟨k.val / 512, by have := k.isLt; omega⟩, ⟨k.val % 512, Nat.mod_lt _ (by norm_num)⟩)
  left_inv p := by
    rcases p with ⟨a, b⟩
    have := b.isLt
    refine Prod.ext (Fin.ext ?_) (Fin.ext ?_)
    · show (a.val * 512 + b.val) / 512 = a.val
      omega
    · show (a.val * 512 + b.val) % 512 = b.val
      omega
  right_inv k := by
    refine Fin.ext ?_
    show k.val / 512 * 512 + k.val % 512 = k.val
    omega

/-- A sum over all keys is the sum over the 16 key blocks of the sums over each block's 512 keys. -/
theorem sum_rows {M : Type*} [AddCommMonoid M] (g : Fin 8192 → M) :
    ∑ k : Fin 8192, g k = ∑ kj : Fin 16, ∑ j : Fin 512, g (KerSpec.row kj j) := by
  rw [← Equiv.sum_comp rowEquiv g, Fintype.sum_prod_type]
  rfl

/-- A class among the 128 padded ones. -/
def up (c : Fin 32) : Fin 128 := ⟨c.val, lt_trans c.isLt (by norm_num)⟩

/-- A sum over the 128 padded classes of a function that vanishes from class 32 on is the sum over the 32 classes. -/
theorem sum_pad {M : Type*} [AddCommMonoid M] (g : Fin 128 → M) (hg : ∀ c : Fin 128, 32 ≤ c.val → g c = 0) :
    ∑ c : Fin 128, g c = ∑ c : Fin 32, g (up c) := by
  have h := Fin.sum_univ_add (a := 32) (b := 96) (fun i => g i)
  have hz : ∑ i : Fin 96, g (Fin.natAdd 32 i) = 0 :=
    Finset.sum_eq_zero fun i _ => hg (Fin.natAdd 32 i) (Nat.le_add_right 32 i.val)
  refine h.trans ?_
  show (∑ i : Fin 32, g (Fin.castAdd 96 i)) + ∑ i : Fin 96, g (Fin.natAdd 32 i) = _
  rw [hz, add_zero]
  rfl

/-- The same, with the 32 terms named. -/
theorem sum_pad' {M : Type*} [AddCommMonoid M] (g : Fin 128 → M) (g' : Fin 32 → M)
    (hg : ∀ c : Fin 128, 32 ≤ c.val → g c = 0) (hg' : ∀ c : Fin 32, g (up c) = g' c) :
    ∑ c : Fin 128, g c = ∑ c : Fin 32, g' c :=
  (sum_pad g hg).trans (Finset.sum_congr rfl fun c _ => hg' c)

/-! ## The padded one-hot matrix -/

theorem pad_up (o : Fin 8192 → Fin 32 → EReal) (r : Fin 8192) (c : Fin 32) : KerSpec.pad o r (up c) = o r c := by
  unfold KerSpec.pad
  exact dif_pos c.isLt

theorem pad_ge (o : Fin 8192 → Fin 32 → EReal) (r : Fin 8192) (c : Fin 128) (h : 32 ≤ c.val) : KerSpec.pad o r c = 0 := by
  unfold KerSpec.pad
  exact dif_neg (by omega)

/-- The column sums of the padded matrix: the class sizes, and `0` for a padded class. -/
theorem colSum_up (o : Fin 8192 → Fin 32 → EReal) (c : Fin 32) :
    KerSpec.colSum (KerSpec.pad o) (up c) = RefSpec.classTotal o c := by
  unfold KerSpec.colSum RefSpec.classTotal
  exact Finset.sum_congr rfl fun r _ => pad_up o r c

theorem colSum_ge (o : Fin 8192 → Fin 32 → EReal) (c : Fin 128) (h : 32 ≤ c.val) :
    KerSpec.colSum (KerSpec.pad o) c = 0 := by
  unfold KerSpec.colSum
  exact Finset.sum_eq_zero fun r _ => pad_ge o r c h

/-- The class sizes without the anchor. -/
theorem cnti_up (o : Fin 8192 → Fin 32 → EReal) (r : Fin 8192) (c : Fin 32) :
    KerSpec.cnti (KerSpec.colSum (KerSpec.pad o)) (KerSpec.pad o) r (up c) = RefSpec.counts o r c := by
  unfold KerSpec.cnti RefSpec.counts
  rw [colSum_up, pad_up]

theorem cnti_ge (o : Fin 8192 → Fin 32 → EReal) (r : Fin 8192) (c : Fin 128) (h : 32 ≤ c.val) :
    KerSpec.cnti (KerSpec.colSum (KerSpec.pad o)) (KerSpec.pad o) r c = 0 := by
  unfold KerSpec.cnti
  rw [colSum_ge o c h, pad_ge o r c h, sub_zero]

/-! ## Similarities and positives -/

/-- The two spellings of the off-diagonal factor. -/
theorem offd_eq (r k : Fin 8192) : KerSpec.offd r k = RefSpec.offd r k := by
  unfold KerSpec.offd
  by_cases h : r = k
  · rw [if_pos h, h, RefSpec.offd_self]
  · rw [if_neg h, RefSpec.offd_of_ne h]

/-- Dividing by the temperature is multiplying by `κ`. -/
theorem sim_eq (κ : EReal) (f : Fin 8192 → Fin 256 → EReal)
    (hκ : ∀ x : EReal, Ideal.div x (Ideal.ofBits .f32 0x3DCCCCCD#32) = x * κ) (r k : Fin 8192) :
    KerSpec.sim κ f r k = RefSpec.sim f r k :=
  (hκ _).symm

theorem E_eq (κ : EReal) (f : Fin 8192 → Fin 256 → EReal)
    (hκ : ∀ x : EReal, Ideal.div x (Ideal.ofBits .f32 0x3DCCCCCD#32) = x * κ) (r k : Fin 8192) :
    KerSpec.E κ f r k = RefSpec.E f r k := by
  unfold KerSpec.E RefSpec.E
  rw [sim_eq κ f hκ, offd_eq]

/-- The positives: a padded class contributes `0 · 0`. -/
theorem pos_eq (o : Fin 8192 → Fin 32 → EReal) (r k : Fin 8192) :
    KerSpec.pos (KerSpec.pad o) r k = RefSpec.posMask o r k := by
  unfold KerSpec.pos RefSpec.posMask
  rw [offd_eq]
  refine congrArg (· * RefSpec.offd r k) (sum_pad' _ _ (fun c hc => ?_) (fun c => ?_))
  · rw [pad_ge o r c hc, zero_mul]
  · rw [pad_up, pad_up]

/-! ## The three totals over the key blocks -/

/-- The class sums of `E`, for a genuine class. -/
theorem A0_eq (κ : EReal) (f : Fin 8192 → Fin 256 → EReal) (o : Fin 8192 → Fin 32 → EReal)
    (hκ : ∀ x : EReal, Ideal.div x (Ideal.ofBits .f32 0x3DCCCCCD#32) = x * κ) (r : Fin 8192) (c : Fin 32) :
    KerSpec.A0 κ f (KerSpec.pad o) r (up c) = RefSpec.classSum f o r c := by
  unfold KerSpec.A0 KerSpec.part0 RefSpec.classSum
  rw [sum_rows (fun k => RefSpec.E f r k * o k c)]
  refine Finset.sum_congr rfl fun kj _ => Finset.sum_congr rfl fun j _ => ?_
  rw [E_eq κ f hκ, pad_up]

/-- The number of positives. -/
theorem A1_eq (o : Fin 8192 → Fin 32 → EReal) (r : Fin 8192) : KerSpec.A1 (KerSpec.pad o) r = RefSpec.P o r := by
  unfold KerSpec.A1 KerSpec.part1 RefSpec.P
  rw [sum_rows (fun k => RefSpec.posMask o r k)]
  exact Finset.sum_congr rfl fun kj _ => Finset.sum_congr rfl fun j _ => pos_eq o r _

/-- The sum of the similarities to the positives. -/
theorem A2_eq (κ : EReal) (f : Fin 8192 → Fin 256 → EReal) (o : Fin 8192 → Fin 32 → EReal)
    (hκ : ∀ x : EReal, Ideal.div x (Ideal.ofBits .f32 0x3DCCCCCD#32) = x * κ) (r : Fin 8192) :
    KerSpec.A2 κ f (KerSpec.pad o) r = RefSpec.posSimSum f o r := by
  unfold KerSpec.A2 KerSpec.part2 RefSpec.posSimSum
  rw [sum_rows (fun k => RefSpec.sim f r k * RefSpec.posMask o r k)]
  refine Finset.sum_congr rfl fun kj _ => Finset.sum_congr rfl fun j _ => ?_
  rw [sim_eq κ f hκ, pos_eq]

/-! ## The denominator -/

theorem term_up (κ : EReal) (f : Fin 8192 → Fin 256 → EReal) (o : Fin 8192 → Fin 32 → EReal)
    (hκ : ∀ x : EReal, Ideal.div x (Ideal.ofBits .f32 0x3DCCCCCD#32) = x * κ) (r : Fin 8192) (c : Fin 32) :
    KerSpec.term κ f (KerSpec.pad o) (KerSpec.colSum (KerSpec.pad o)) r (up c) = RefSpec.denomTerm f o r c := by
  unfold KerSpec.term RefSpec.denomTerm
  rw [cnti_up, A0_eq κ f o hκ]

/-- A padded class has no member: its term is the `else` branch. -/
theorem term_ge (κ : EReal) (f : Fin 8192 → Fin 256 → EReal) (o : Fin 8192 → Fin 32 → EReal) (r : Fin 8192)
    (c : Fin 128) (h : 32 ≤ c.val) :
    KerSpec.term κ f (KerSpec.pad o) (KerSpec.colSum (KerSpec.pad o)) r c = 0 := by
  unfold KerSpec.term
  rw [cnti_ge o r c h, if_neg (lt_irrefl 0)]

theorem denom_eq (κ : EReal) (f : Fin 8192 → Fin 256 → EReal) (o : Fin 8192 → Fin 32 → EReal)
    (hκ : ∀ x : EReal, Ideal.div x (Ideal.ofBits .f32 0x3DCCCCCD#32) = x * κ) (r : Fin 8192) :
    KerSpec.denom κ f (KerSpec.pad o) (KerSpec.colSum (KerSpec.pad o)) r = RefSpec.denom f o r := by
  unfold KerSpec.denom RefSpec.denom
  exact sum_pad' _ _ (fun c hc => term_ge κ f o r c hc) (fun c => term_up κ f o hκ r c)

/-! ## The row losses, the number of valid rows, the loss -/

theorem lossRow_eq (κ : EReal) (f : Fin 8192 → Fin 256 → EReal) (o : Fin 8192 → Fin 32 → EReal)
    (hκ : ∀ x : EReal, Ideal.div x (Ideal.ofBits .f32 0x3DCCCCCD#32) = x * κ) (r : Fin 8192) :
    KerSpec.lossRow κ f (KerSpec.pad o) (KerSpec.colSum (KerSpec.pad o)) r = RefSpec.lossRow f o r := by
  unfold KerSpec.lossRow RefSpec.lossRow RefSpec.meanPos
  rw [A1_eq, A2_eq κ f o hκ, denom_eq κ f o hκ]
  exact if_congr Iff.rfl rfl rfl

theorem nValid_eq (o : Fin 8192 → Fin 32 → EReal) : KerSpec.nValid (KerSpec.pad o) = RefSpec.nValid o := by
  unfold KerSpec.nValid RefSpec.nValid KerSpec.validf
  refine Finset.sum_congr rfl fun r _ => ?_
  rw [A1_eq]
  exact if_congr Iff.rfl rfl rfl

/-- The kernel's arrangement of the loss, at the padded one-hot matrix and its column sums, is the reference's loss. -/
theorem bridge (κ : EReal) (f : Fin 8192 → Fin 256 → EReal) (o : Fin 8192 → Fin 32 → EReal)
    (hκ : ∀ x : EReal, Ideal.div x (Ideal.ofBits .f32 0x3DCCCCCD#32) = x * κ) :
    KerSpec.kerLoss κ f (KerSpec.pad o) (KerSpec.colSum (KerSpec.pad o)) = RefSpec.refLoss f o := by
  have hs : ∑ r : Fin 8192, KerSpec.lossRow κ f (KerSpec.pad o) (KerSpec.colSum (KerSpec.pad o)) r
      = ∑ r : Fin 8192, RefSpec.lossRow f o r :=
    Finset.sum_congr rfl fun r _ => lossRow_eq κ f o hκ r
  unfold KerSpec.kerLoss RefSpec.refLoss
  rw [nValid_eq, hs]

end Cert.Bridge

end
-- ==== Proof.Consts.lean ====
import Idealize.ShloMosaic.PureOps.Ideal

/-!
# The one float word of the reference that is not a dyadic with a short reading

The reference divides the similarities by the word `0x3DCCCCCD`, the float nearest `0.1`: exactly `13421773 / 2^27`.
Dividing by it is multiplying by its reciprocal `134217728 / 13421773`, on every extended real.
-/

noncomputable section

namespace Cert.Consts

open Idealize.ShloMosaic

/-- The temperature word denotes `13421773 / 134217728`. -/
theorem ofBits_temp : Ideal.ofBits .f32 0x3DCCCCCD#32 = ((13421773 / 134217728 : ℝ) : EReal) := by
  simp [Ideal.ofBits, Ideal.ieee, -EReal.coe_mul]; norm_num

/-- Division by the temperature word is the product with `134217728 / 13421773`, at the infinities too. -/
theorem div_temp (x : EReal) :
    Ideal.div x (Ideal.ofBits .f32 0x3DCCCCCD#32) = x * ((134217728 / 13421773 : ℝ) : EReal) := by
  rw [ofBits_temp, Ideal.div_coe (by norm_num)]
  congr 2
  norm_num

end Cert.Consts

end
-- ==== Proof.KernelValue.lean ====
import proofs.«118708_j2697239462642_1_alg».proof.Proof.Final
import proofs.«118708_j2697239462642_1_alg».proof.Proof.FrameOf
import proofs.«118708_j2697239462642_1_alg».proof.Proof.HostSide
import proofs.«118708_j2697239462642_1_alg».proof.Proof.Bridge
import proofs.«118708_j2697239462642_1_alg».proof.Proof.Consts
import Idealize.ShloMosaic.Lib.StableHlo.Run

set_option maxRecDepth 16384

noncomputable section

namespace Cert.KernelIdeal.Body

open Cert.KernelIdeal Cert.KernelIdeal.Gen Cert.KernelIdeal.PayAt Cert.KernelIdeal.HostSide
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (c : Dev nD)

/-! ## What the host lines before the region leave in the three arrays the region reads -/

/-- The normalized features. -/
theorem V_v2 : V m c main_v2 = nfK (m ((c.tc : Thread nD τ).loc main_arg0)) := by
  dsimp only [V, V0]
  simp only [hostOps0, hostOps0_1, hostOps0_2, hostOps0_3, List.flatten_cons, List.flatten_nil, List.append_nil, List.cons_append, List.nil_append]
  after_results
  rfl
/-- The padded one-hot matrix. -/
theorem V_v10 : V m c main_v10 = ohK (m ((c.tc : Thread nD τ).loc main_arg1)) := by
  dsimp only [V, V0]
  simp only [hostOps0, hostOps0_1, hostOps0_2, hostOps0_3, List.flatten_cons, List.flatten_nil, List.append_nil, List.cons_append, List.nil_append]
  after_results
  rfl
/-- The class counts. -/
theorem V_v12 : V m c main_v12 = cntK (m ((c.tc : Thread nD τ).loc main_arg1)) := by
  dsimp only [V, V0]
  simp only [hostOps0, hostOps0_1, hostOps0_2, hostOps0_3, List.flatten_cons, List.flatten_nil, List.append_nil, List.cons_append, List.nil_append]
  after_results
  rfl

/-- The last two host lines' arithmetic on two columns, read at the scalar's one index. -/
theorem tail_term (L Vv : (⟨S8192x1, .f32⟩ : BufTy).Contents (Elt Ideal)) (i : S_.Idx) :
    (show (⟨S_, .f32⟩ : BufTy).Contents (Elt Ideal) from (TRef.of (T := ⟨S_, .f32⟩) main_v19).toBuf (Val := Elt Ideal)
      (select
        ((TRef.of (T := ⟨S_, .i1⟩) main_v16).ofBuf (Val := Elt Ideal)
          (cmpf .ogt (Host.reduceAdd (F := Ideal) Vv (constant (F := Ideal) S_ .f32 0#32) Facts₀.reducesTo_S8192x1_S_d0_1 Facts₀.h_S_) (constant (F := Ideal) S_ .f32 0#32)))
        ((TRef.of (T := ⟨S_, .f32⟩) main_v18).ofBuf (Val := Elt Ideal)
          (Host.divf (F := Ideal) (Host.reduceAdd (F := Ideal) L (constant (F := Ideal) S_ .f32 0#32) Facts₀.reducesTo_S8192x1_S_d0_1 Facts₀.h_S_)
            (maximumf (Host.reduceAdd (F := Ideal) Vv (constant (F := Ideal) S_ .f32 0#32) Facts₀.reducesTo_S8192x1_S_d0_1 Facts₀.h_S_) (constant (F := Ideal) S_ .f32 0x3F800000#32))))
        ((TRef.of (T := ⟨S_, .f32⟩) main_call2_v0).ofBuf (Val := Elt Ideal)
          ((TRef.of (T := ⟨S_, .f32⟩) main_call2_v0).toBuf (Val := Elt Ideal)
            (id ((TRef.of (T := ⟨S_, .f32⟩) main_cst_4).ofBuf (Val := Elt Ideal) (constant (F := Ideal) S_ .f32 0#32))))))) i
      = if 0 < ∑ r : Fin 8192, Vv (ix2 r (0 : Fin 1)) then
          Ideal.div (∑ r : Fin 8192, L (ix2 r (0 : Fin 1))) (max (∑ r : Fin 8192, Vv (ix2 r (0 : Fin 1))) 1)
        else 0 := by
  show Scalar.select (FloatOps.cmpf (F := Ideal) (φ := .f32) .ogt
        (Host.reduceAdd (F := Ideal) Vv (constant (F := Ideal) S_ .f32 0#32) Facts₀.reducesTo_S8192x1_S_d0_1 Facts₀.h_S_ i)
        (Ideal.ofBits .f32 0#32))
      (Ideal.div (Host.reduceAdd (F := Ideal) L (constant (F := Ideal) S_ .f32 0#32) Facts₀.reducesTo_S8192x1_S_d0_1 Facts₀.h_S_ i)
        (max (Host.reduceAdd (F := Ideal) Vv (constant (F := Ideal) S_ .f32 0#32) Facts₀.reducesTo_S8192x1_S_d0_1 Facts₀.h_S_ i)
          (Ideal.ofBits .f32 0x3F800000#32)))
      (Ideal.ofBits .f32 0#32) = _
  rw [hostSum_col, hostSum_col, HostSide.select_ogt, Ideal.ofBits_zero_f32, HostSide.one_word]

/-- The loss column and the validity column as the region leaves them. -/
abbrev Lcol : (⟨S8192x1, .f32⟩ : BufTy).Contents (Elt Ideal) := Vexit m c (Proc.devRef .tc main_v13_0)
abbrev Vcol : (⟨S8192x1, .f32⟩ : BufTy).Contents (Elt Ideal) := Vexit m c (Proc.devRef .tc main_v13_1)

/-- The scalar the last host line writes, from the two columns the region wrote. -/
theorem Vfin_v19_at (i : S_.Idx) : Vfin m c (Proc.devRef .tc main_v19) i
    = if 0 < ∑ r : Fin 8192, Vcol m c (ix2 r (0 : Fin 1)) then
        Ideal.div (∑ r : Fin 8192, Lcol m c (ix2 r (0 : Fin 1))) (max (∑ r : Fin 8192, Vcol m c (ix2 r (0 : Fin 1))) 1)
      else 0 := by
  refine Eq.trans (congrFun ?h i) (tail_term (Lcol m c) (Vcol m c) i)
  unfold Vfin
  simp only [hostOps1, hostOps1_1, List.flatten_cons, List.flatten_nil, List.append_nil, List.cons_append, List.nil_append]
  after_results

/-! ## The kernel's result is the loss of its own closed form -/

abbrev x0 : (⟨S8192x256, .f32⟩ : BufTy).Contents (Elt Ideal) := m ((c.tc : Thread nD τ).loc main_arg0)
abbrev x1 : (⟨S8192, .i32⟩ : BufTy).Contents (Elt Ideal) := m ((c.tc : Thread nD τ).loc main_arg1)

/-- The normalized features and the one-hot matrix as the reference computes them from the same arguments. -/
abbrev nfR (r : Fin 8192) (h : Fin 256) : EReal := Cert.ReferenceIdeal.ReadP.val_main_v2 (F := Ideal) (x0 m c) (ix2 r h)
abbrev ohR (r : Fin 8192) (k : Fin 32) : EReal := Cert.ReferenceIdeal.ReadP.val_main_v23 (F := Ideal) (x1 m c) (ix2 r k)

theorem fA_eq : fA m c = nfR m c := by
  funext r h; unfold fA; rw [V_v2, nfK_eq]
theorem ohA_eq : ohA m c = KerSpec.pad (ohR m c) := by
  funext r k; unfold ohA; rw [V_v10, ohK_at]
theorem cntA_eq : cntA m c = KerSpec.colSum (KerSpec.pad (ohR m c)) := by
  funext k; unfold cntA; rw [V_v12, cntK_at]
  congr 1; funext r k'; exact ohK_at _ r k'

set_option maxHeartbeats 1000000 in
/-- The kernel's result: the loss in the kernel's closed form, of the arrays the host lines prepared. -/
theorem kernel_kerLoss : Vfin m c (Proc.devRef .tc main_v19) = fun _ => KerSpec.kerLoss κv (fA m c) (ohA m c) (cntA m c) := by
  have hL : Lcol m c = G5 m c := (Vexit_o5 m c).trans (final5 m c)
  have hV : Vcol m c = G6 m c := (Vexit_o6 m c).trans (final6 m c)
  funext i
  rw [Vfin_v19_at, hL, hV]
  rfl

/-- The kernel's result is the reference's loss of the same arguments. -/
theorem kernel_value : Vfin m c (Proc.devRef .tc main_v19) = fun _ => RefSpec.refLoss (nfR m c) (ohR m c) := by
  rw [kernel_kerLoss, fA_eq, ohA_eq, cntA_eq]
  funext _
  exact Cert.Bridge.bridge κv (nfR m c) (ohR m c) Cert.Consts.div_temp

end Cert.KernelIdeal.Body

end
-- ==== Proof.RefValue.lean ====
import proofs.«118708_j2697239462642_1_alg».proof.Proof.RefReadP
import proofs.«118708_j2697239462642_1_alg».proof.Proof.RefSpec
import Idealize.ShloMosaic.Lib.ValueIdx
import Idealize.ShloMosaic.Lib.Pipeline.Value
import Idealize.ShloMosaic.PureOps.Ideal.Laws
import Idealize.ShloMosaic.PureOps.Reduce

/-!
# The reference program computes `RefSpec.refLoss`

Every stage of the reference is read at an index built from coordinates and identified with the piece of
`RefSpec` it computes, from the two stages kept opaque: the normalized feature matrix (`nf`) and the one-hot
label matrix (`oh`). Float sums start from the word of `0.0`, which is the extended real `0` and is dropped
(`0 + x = x`); the words of `1.0` are read as `1`. The one integer stage — the number of valid anchors, an
`int32` sum of 8192 words that are each `0` or `1` — cannot wrap, so its value is the count.
-/

noncomputable section

open scoped BigOperators

namespace Cert.ReferenceIdeal.RefValue

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-! ## Words and casts -/

/-- The word of `1.0` denotes the extended real `1`. -/
theorem one_word : Ideal.ofBits .f32 0x3F800000#32 = 1 :=
  IdealRules.sign_bit.ideal_onePat .f32

/-- An `i1` equality test of two words, converted to a float, is the indicator of their equality. -/
theorem uitofp_cmpi_eq (x y : BitVec 32) :
    FloatOps.uitofp (F := Ideal) .f32 (IntOp.cmpi .eq x y) = if x = y then (1 : EReal) else 0 := by
  show (((BitVec.ofBool (x == y)).toNat : ℝ) : EReal) = _
  by_cases h : x = y
  · simp [h]
  · simp [h]

/-- Two naturals below `8192` (so below `2^32`) have the same 32-bit word only when equal. -/
theorem ofNat_eq_iff {a b : Nat} (ha : a < 8192) (hb : b < 8192) :
    BitVec.ofNat 32 a = BitVec.ofNat 32 b ↔ a = b := by
  constructor
  · intro h
    have := congrArg BitVec.toNat h
    simp only [BitVec.toNat_ofNat] at this
    omega
  · rintro rfl; rfl

/-- A select on a float comparison `a > z` is the `if` on `z < a`. -/
theorem select_ogt {α : Type} (a z : EReal) (x y : α) :
    Scalar.select (FloatOps.cmpf (F := Ideal) (φ := .f32) .ogt a z) x y = if z < a then x else y := by
  rw [Ideal.cmpf_def]
  unfold Ideal.cmp Scalar.select
  by_cases h : z < a
  · simp [h]
  · simp [h]

/-- Adding up words that are each `0` or `1`, fewer than `2^32` of them, never wraps: the sum word's value is the
    number of ones. -/
theorem fold_addi_toNat {ι : Type} [DecidableEq ι] (x : ι → BitVec 32) (hx : ∀ i, (x i).toNat ≤ 1) (S : Finset ι) :
    S.card < 2 ^ 32 → (S.fold IntOp.addi 0#32 x).toNat = ∑ i ∈ S, (x i).toNat := by
  induction S using Finset.induction_on with
  | empty => intro _; simp
  | insert a S ha ih =>
    intro hc
    rw [Finset.card_insert_of_notMem ha] at hc
    have ih' := ih (by omega)
    have hle : ∑ i ∈ S, (x i).toNat ≤ S.card := by
      calc ∑ i ∈ S, (x i).toNat ≤ ∑ _i ∈ S, 1 := Finset.sum_le_sum fun i _ => hx i
        _ = S.card := by simp
    rw [Finset.fold_insert ha, Finset.sum_insert ha]
    show (x a + Finset.fold IntOp.addi 0#32 x S).toNat = _
    rw [BitVec.toNat_add, ih']
    have := hx a
    omega

/-- The real-to-extended-real coercion goes through finite sums. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A count, as a natural number, cast to the extended reals is the sum of the indicators there. -/
theorem natCount_cast {ι : Type} [Fintype ι] (p : ι → Prop) [DecidablePred p] :
    (((∑ i : ι, (if p i then 1 else 0 : ℕ) : ℕ) : ℝ) : EReal) = ∑ i : ι, (if p i then (1 : EReal) else 0) := by
  rw [Nat.cast_sum, coe_sum]
  refine Finset.sum_congr rfl fun i _ => ?_
  by_cases h : p i
  · simp [h]
  · simp [h]

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The signed maximum with `1` of a small count, converted to a float: the maximum of the count and `1`. -/
theorem sitofp_maxsi_one (n : BitVec 32) (hn : n.toNat ≤ 8192) :
    FloatOps.sitofp (F := Ideal) .f32 (IntOp.maxsi n 1#32) = max (((n.toNat : ℕ) : ℝ) : EReal) 1 := by
  show ((((IntOp.maxsi n 1#32).toInt : ℤ) : ℝ) : EReal) = _
  have hi : n.toInt = (n.toNat : ℤ) := by
    rw [BitVec.toInt_eq_toNat_cond]; split <;> omega
  have h1 : (1#32 : BitVec 32).toInt = 1 := by decide
  unfold IntOp.maxsi
  rw [BitVec.slt, h1, hi]
  by_cases h : (1 : ℤ) < (n.toNat : ℤ)
  · rw [if_pos (by simpa using h), hi]
    have : (1 : EReal) ≤ (((n.toNat : ℕ) : ℝ) : EReal) := by
      rw [← EReal.coe_one, EReal.coe_le_coe_iff]; exact_mod_cast h.le
    rw [max_eq_left this]; simp
  · rw [if_neg (by simpa using h), h1]
    have : (((n.toNat : ℕ) : ℝ) : EReal) ≤ 1 := by
      rw [← EReal.coe_one, EReal.coe_le_coe_iff]; exact_mod_cast (not_lt.mp h)
    rw [max_eq_right this]; simp

/-- The signed test `n > 0` of a small count selects as the test `0 < n` on naturals. -/
theorem select_sgt_zero {α : Type} (n : BitVec 32) (hn : n.toNat ≤ 8192) (x y : α) :
    Scalar.select (IntOp.cmpi .sgt n 0#32) x y = if 0 < n.toNat then x else y := by
  have hi : n.toInt = (n.toNat : ℤ) := by
    rw [BitVec.toInt_eq_toNat_cond]; split <;> omega
  have h0 : (0#32 : BitVec 32).toInt = 0 := by decide
  unfold IntOp.cmpi Scalar.select
  show (if BitVec.ofBool ((0#32).slt n) = 1#1 then x else y) = _
  rw [BitVec.slt, h0, hi]
  by_cases h : 0 < n.toNat
  · rw [if_pos h, if_pos (by simp [h])]
  · rw [if_neg h, if_neg (by simp [h])]

/-! ## The two opaque stages by coordinates -/

/-- The feature array and the label array of the program. -/
abbrev X0 : Type := (⟨S8192x256, .f32⟩ : BufTy).Contents (Elt Ideal)
abbrev X1 : Type := (⟨S8192, .i32⟩ : BufTy).Contents (Elt Ideal)

/-- The normalized features (each row divided by its norm), by row and column. -/
abbrev nf (x0 : X0) : Fin 8192 → Fin 256 → EReal := fun r h => val_main_v2 (F := Ideal) x0 (ix2 r h)
/-- The one-hot label matrix, by row and class. -/
abbrev oh (x1 : X1) : Fin 8192 → Fin 32 → EReal := fun r c => val_main_v23 (F := Ideal) x1 (ix2 r c)

/-- An entry of the one-hot matrix is the indicator that the row's label is the class. -/
theorem oh_eq (x1 : X1) (r : Fin 8192) (c : Fin 32) :
    oh x1 r c = if x1 (ix1 r) = BitVec.ofNat 32 c.val then (1 : EReal) else 0 := by
  show val_main_v23 (F := Ideal) x1 (ix2 r c) = _
  rw [val_main_v23_apply, val_main_v22_apply, val_main_v20_apply, val_main_v17_apply, val_main_v21_apply,
    val_main_v19_apply, val_main_v18_apply, uitofp_cmpi_eq]
  have e : idx_main_v17 (idx_main_v20 (ix2 r c)) = ix1 r := funext fun a => Fin.ext (by match a with | ⟨0, _⟩ => rfl)
  rw [e]

/-- So it is `1` or `0`. -/
theorem onehot_01 (x1 : X1) (r : Fin 8192) (c : Fin 32) :
    val_main_v23 (F := Ideal) x1 (ix2 r c) = 1 ∨ val_main_v23 (F := Ideal) x1 (ix2 r c) = 0 := by
  have h := oh_eq x1 r c
  by_cases hc : x1 (ix1 r) = BitVec.ofNat 32 c.val
  · exact Or.inl (h.trans (if_pos hc))
  · exact Or.inr (h.trans (if_neg hc))

/-! ## Similarities -/

/-- The Gram matrix of the normalized rows. -/
theorem v4_at (x0 : X0) (r k : Fin 8192) :
    val_main_v4 (F := Ideal) x0 (ix2 r k) = ∑ h : Fin 256, nf x0 r h * nf x0 k h := by
  rw [val_main_v4_apply]
  refine Finset.sum_congr rfl fun h _ => ?_
  rw [val_main_v3_apply]
  have e1 : lidx_main_v4 (ix2 r k) h = ix2 r h := funext fun a => Fin.ext (by match a with | ⟨0, _⟩ => rfl | ⟨1, _⟩ => rfl)
  have e2 : idx_main_v3 (ridx_main_v4 (ix2 r k) h) = ix2 k h := funext fun a => Fin.ext (by match a with | ⟨0, _⟩ => rfl | ⟨1, _⟩ => rfl)
  rw [e1, e2]

/-- Divided by the temperature: the similarity. -/
theorem v6_at (x0 : X0) (r k : Fin 8192) :
    val_main_v6 (F := Ideal) x0 (ix2 r k) = RefSpec.sim (nf x0) r k := by
  rw [val_main_v6_apply, val_main_v5_apply, val_main_cst_apply, v4_at]
  rfl

/-- The off-diagonal factor: `1.0` minus the converted test "row index = column index". -/
theorem v14_at (r k : Fin 8192) : val_main_v14 (F := Ideal) (ix2 r k) = RefSpec.offd r k := by
  rw [val_main_v14_apply, val_main_v13_apply, val_main_cst_0_apply, val_main_v12_apply, val_main_v11_apply,
    val_main_v10_apply, val_main_v7_apply, val_main_v9_apply, val_main_c_apply, val_main_v8_apply, uitofp_cmpi_eq]
  show Ideal.ofBits .f32 0x3F800000#32 - _ = _
  rw [one_word]
  unfold RefSpec.offd
  have hrk : (IntOp.addi (BitVec.ofNat 32 r.val) 0#32 = BitVec.ofNat 32 k.val) ↔ r = k := by
    show BitVec.ofNat 32 r.val + 0#32 = BitVec.ofNat 32 k.val ↔ r = k
    rw [BitVec.add_zero, ofNat_eq_iff r.isLt k.isLt, Fin.val_inj]
  exact congrArg (1 - ·) (if_congr hrk rfl rfl)

/-- `exp` of the similarity, the diagonal removed. -/
theorem v16_at (x0 : X0) (r k : Fin 8192) :
    val_main_v16 (F := Ideal) x0 (ix2 r k) = RefSpec.E (nf x0) r k := by
  rw [val_main_v16_apply, val_main_v15_apply, v6_at, v14_at]
  rfl

/-! ## The denominator -/

/-- The per-class sums of `E`. -/
theorem v24_at (x0 : X0) (x1 : X1) (r : Fin 8192) (c : Fin 32) :
    val_main_v24 (F := Ideal) x0 x1 (ix2 r c) = RefSpec.classSum (nf x0) (oh x1) r c := by
  rw [val_main_v24_apply]
  refine Finset.sum_congr rfl fun k _ => ?_
  have e1 : lidx_main_v24 (ix2 r c) k = ix2 r k := funext fun a => Fin.ext (by match a with | ⟨0, _⟩ => rfl | ⟨1, _⟩ => rfl)
  have e2 : ridx_main_v24 (ix2 r c) k = ix2 k c := funext fun a => Fin.ext (by match a with | ⟨0, _⟩ => rfl | ⟨1, _⟩ => rfl)
  rw [e1, e2, v16_at]

/-- The class sizes (column sums of the one-hot matrix). -/
theorem v25_at (x1 : X1) (c : Fin 32) :
    val_main_v25 (F := Ideal) x1 (ix1 c) = RefSpec.classTotal (oh x1) c := by
  rw [val_main_v25_apply, val_main_cst_1_apply]
  show Ideal.ofBits .f32 0x00000000#32 + _ = _
  rw [Ideal.ofBits_zero_f32, zero_add]
  refine Finset.sum_congr rfl fun k _ => ?_
  have e : idx_main_v25 (ix1 c) k = ix2 k c := funext fun a => Fin.ext (by match a with | ⟨0, _⟩ => rfl | ⟨1, _⟩ => rfl)
  rw [e]

/-- The class sizes without the anchor. -/
theorem v28_at (x1 : X1) (r : Fin 8192) (c : Fin 32) :
    val_main_v28 (F := Ideal) x1 (ix2 r c) = RefSpec.counts (oh x1) r c := by
  rw [val_main_v28_apply, val_main_v27_apply, val_main_v26_apply]
  have e : idx_main_v26 (idx_main_v27 (ix2 r c)) = ix1 c := funext fun a => Fin.ext (by match a with | ⟨0, _⟩ => rfl)
  rw [e, v25_at]
  rfl

/-- One class's term: the class mean where the class has another member. -/
theorem v34_at (x0 : X0) (x1 : X1) (r : Fin 8192) (c : Fin 32) :
    val_main_v34 (F := Ideal) x0 x1 (ix2 r c) = RefSpec.denomTerm (nf x0) (oh x1) r c := by
  rw [val_main_v34_apply, val_main_v30_apply, val_main_v29_apply, val_main_cst_2_apply, val_main_v33_apply,
    val_main_v32_apply, val_main_v31_apply, val_main_cst_3_apply, val_main_call1_v1_apply, val_main_call1_v0_apply,
    val_main_cst_4_apply, v28_at, v24_at, select_ogt]
  simp only [Ideal.ofBits_def, Ideal.ofBits_zero_f32, one_word]
  rfl

/-- The denominator: the sum of the class terms. -/
theorem v35_at (x0 : X0) (x1 : X1) (r : Fin 8192) :
    val_main_v35 (F := Ideal) x0 x1 (ix1 r) = RefSpec.denom (nf x0) (oh x1) r := by
  rw [val_main_v35_apply, val_main_cst_5_apply]
  show Ideal.ofBits .f32 0x00000000#32 + _ = _
  rw [Ideal.ofBits_zero_f32, zero_add]
  refine Finset.sum_congr rfl fun c _ => ?_
  have e : idx_main_v35 (ix1 r) c = ix2 r c := funext fun a => Fin.ext (by match a with | ⟨0, _⟩ => rfl | ⟨1, _⟩ => rfl)
  rw [e, v34_at]

/-! ## The positives -/

/-- Same label and not the anchor itself. -/
theorem v38_at (x1 : X1) (r k : Fin 8192) :
    val_main_v38 (F := Ideal) x1 (ix2 r k) = RefSpec.posMask (oh x1) r k := by
  rw [val_main_v38_apply, v14_at, val_main_v37_apply]
  show (∑ c : Fin 32, _) * _ = _
  unfold RefSpec.posMask
  refine congrArg (· * RefSpec.offd r k) (Finset.sum_congr rfl fun c _ => ?_)
  rw [val_main_v36_apply]
  have e1 : lidx_main_v37 (ix2 r k) c = ix2 r c := funext fun a => Fin.ext (by match a with | ⟨0, _⟩ => rfl | ⟨1, _⟩ => rfl)
  have e2 : idx_main_v36 (ridx_main_v37 (ix2 r k) c) = ix2 k c := funext fun a => Fin.ext (by match a with | ⟨0, _⟩ => rfl | ⟨1, _⟩ => rfl)
  rw [e1, e2]

/-- The number of positives. -/
theorem v39_at (x1 : X1) (r : Fin 8192) :
    val_main_v39 (F := Ideal) x1 (ix1 r) = RefSpec.P (oh x1) r := by
  rw [val_main_v39_apply, val_main_cst_6_apply]
  show Ideal.ofBits .f32 0x00000000#32 + _ = _
  rw [Ideal.ofBits_zero_f32, zero_add]
  refine Finset.sum_congr rfl fun k _ => ?_
  have e : idx_main_v39 (ix1 r) k = ix2 r k := funext fun a => Fin.ext (by match a with | ⟨0, _⟩ => rfl | ⟨1, _⟩ => rfl)
  rw [e, v38_at]

/-- The sum of the similarities to the positives. -/
theorem v43_at (x0 : X0) (x1 : X1) (r : Fin 8192) :
    val_main_v43 (F := Ideal) x0 x1 (ix1 r) = RefSpec.posSimSum (nf x0) (oh x1) r := by
  rw [val_main_v43_apply, val_main_cst_8_apply]
  show Ideal.ofBits .f32 0x00000000#32 + _ = _
  rw [Ideal.ofBits_zero_f32, zero_add]
  refine Finset.sum_congr rfl fun k _ => ?_
  have e : idx_main_v43 (ix1 r) k = ix2 r k := funext fun a => Fin.ext (by match a with | ⟨0, _⟩ => rfl | ⟨1, _⟩ => rfl)
  rw [e, val_main_v42_apply, v6_at, v38_at]
  rfl

/-- Their mean. -/
theorem v46_at (x0 : X0) (x1 : X1) (r : Fin 8192) :
    val_main_v46 (F := Ideal) x0 x1 (ix1 r) = RefSpec.meanPos (nf x0) (oh x1) r := by
  rw [val_main_v46_apply, v43_at, val_main_v45_apply, v39_at, val_main_v44_apply, val_main_cst_9_apply]
  show Ideal.div _ (max _ (Ideal.ofBits .f32 0x3F800000#32)) = _
  rw [one_word]
  rfl

/-! ## The row losses and their sum -/

/-- The validity bit of an anchor. -/
theorem v41_at (x1 : X1) (r : Fin 8192) :
    val_main_v41 (F := Ideal) x1 (ix1 r) = BitVec.ofBool (decide (RefSpec.valid (oh x1) r)) := by
  rw [val_main_v41_apply, v39_at, val_main_v40_apply, val_main_cst_7_apply, Ideal.cmpf_def]
  show Ideal.cmp .ogt _ (Ideal.ofBits .f32 0x00000000#32) = _
  rw [Ideal.ofBits_zero_f32]
  rfl

/-- The loss of one anchor. -/
theorem v51_at (x0 : X0) (x1 : X1) (r : Fin 8192) :
    val_main_v51 (F := Ideal) x0 x1 (ix1 r) = RefSpec.lossRow (nf x0) (oh x1) r := by
  rw [val_main_v51_apply, val_main_v41_apply, v39_at, val_main_v40_apply, val_main_cst_7_apply, val_main_v50_apply,
    val_main_v49_apply, val_main_v48_apply, v35_at, val_main_v47_apply, val_main_cst_10_apply, v46_at,
    val_main_call2_v1_apply, val_main_call2_v0_apply, val_main_cst_11_apply, select_ogt]
  simp only [Ideal.ofBits_def, Ideal.ofBits_zero_f32, Ideal.subf_def, Ideal.hostUnary_log_def, Ideal.maximumf_def]
  unfold RefSpec.lossRow
  exact if_congr Iff.rfl rfl rfl

/-- The sum of the row losses. -/
theorem v55_at (x0 : X0) (x1 : X1) (j : S_.Idx) :
    val_main_v55 (F := Ideal) x0 x1 j = ∑ r : Fin 8192, RefSpec.lossRow (nf x0) (oh x1) r := by
  rw [val_main_v55_apply, val_main_cst_14_apply]
  show Ideal.ofBits .f32 0x00000000#32 + _ = _
  rw [Ideal.ofBits_zero_f32, zero_add, sum_idx1]
  exact Finset.sum_congr rfl fun r _ => v51_at x0 x1 r

/-! ## The number of valid anchors -/

instance : Subsingleton S_.Idx := ⟨fun a b => funext fun d => d.elim0⟩

/-- The validity bit widened to 32 bits is the word `1` or `0`. -/
theorem v52_toNat (x1 : X1) (r : Fin 8192) :
    (val_main_v52 (F := Ideal) x1 (ix1 r)).toNat = if RefSpec.valid (oh x1) r then 1 else 0 := by
  rw [val_main_v52_apply, v41_at]
  by_cases h : RefSpec.valid (oh x1) r
  · simp [h]
  · simp [h]

/-- The `int32` sum of the 8192 validity words is the number of valid anchors: it cannot wrap. -/
theorem v53_toNat (x1 : X1) (j : S_.Idx) :
    (val_main_v53 (F := Ideal) x1 j).toNat = ∑ r : Fin 8192, (if RefSpec.valid (oh x1) r then 1 else 0 : ℕ) := by
  unfold val_main_v53
  rw [Host.reduce_eq_fold, Finset.filter_true_of_mem (fun i _ => Subsingleton.elim _ _)]
  have hx : ∀ i, (val_main_v52 (F := Ideal) x1 i).toNat ≤ 1 := by
    intro i
    obtain ⟨r, rfl⟩ : ∃ r, i = ix1 r := ⟨i 0, eq_ix1 i⟩
    rw [v52_toNat]; split <;> omega
  have hcard : (Finset.univ : Finset S8192.Idx).card < 2 ^ 32 := by
    rw [Finset.card_univ, Fintype.card_congr (idxEquiv1 (n := 8192)), Fintype.card_fin]; norm_num
  show (Finset.univ.fold IntOp.addi 0#32 (val_main_v52 (F := Ideal) x1)).toNat = _
  rw [fold_addi_toNat _ hx Finset.univ hcard, sum_idx1]
  exact Finset.sum_congr rfl fun r _ => v52_toNat x1 r

theorem v53_le (x1 : X1) (j : S_.Idx) : (val_main_v53 (F := Ideal) x1 j).toNat ≤ 8192 := by
  rw [v53_toNat]
  calc ∑ r : Fin 8192, (if RefSpec.valid (oh x1) r then 1 else 0 : ℕ) ≤ ∑ _r : Fin 8192, 1 :=
        Finset.sum_le_sum fun r _ => by split <;> omega
    _ = 8192 := by simp

/-- As an extended real the count is `RefSpec.nValid`. -/
theorem nValid_eq (x1 : X1) (j : S_.Idx) :
    ((((val_main_v53 (F := Ideal) x1 j).toNat : ℕ) : ℝ) : EReal) = RefSpec.nValid (oh x1) := by
  rw [v53_toNat, natCount_cast]
  rfl

/-- The divisor of the mean: the count, at least `1`, as a float. -/
theorem v57_at (x1 : X1) (j : S_.Idx) :
    val_main_v57 (F := Ideal) x1 j = max (RefSpec.nValid (oh x1)) 1 := by
  rw [val_main_v57_apply, val_main_v56_apply, val_main_c_15_apply, sitofp_maxsi_one _ (v53_le x1 j), nValid_eq]

/-! ## The result -/

/-- The reference's result is `RefSpec.refLoss` of the normalized features and the one-hot labels. -/
theorem ref_value (x0 : X0) (x1 : X1) :
    val_main_v59 (F := Ideal) x0 x1
      = fun _ => RefSpec.refLoss (fun r h => val_main_v2 (F := Ideal) x0 (ix2 r h))
          (fun r c => val_main_v23 (F := Ideal) x1 (ix2 r c)) := by
  funext j
  rw [val_main_v59_apply, val_main_v54_apply, val_main_c_13_apply, select_sgt_zero _ (v53_le x1 j),
    val_main_v58_apply, v55_at, v57_at, val_main_call3_v0_apply, val_main_cst_16_apply]
  have hpos : (0 < (val_main_v53 (F := Ideal) x1 j).toNat) ↔ 0 < RefSpec.nValid (oh x1) := by
    rw [← nValid_eq x1 j, EReal.coe_pos, Nat.cast_pos]
  unfold RefSpec.refLoss
  exact if_congr hpos rfl Ideal.ofBits_zero_f32

end Cert.ReferenceIdeal.RefValue

end
-- ==== Proof.RefRun.lean ====
/-
  The reference program's run. Its @main is a straight line of 88 host operations: every weakly fair execution ends with each
  buffer at the operations' fold over the launch contents (the run lemma for a straight line of host operations, `run_seq`).
  The result is read in stretches — up to the one-hot matrix, up to the denominator, up to the row losses, and the final
  mean — each stretch over an arbitrary incoming valuation, its few live outputs stated as the stages of the operations one
  at a time.
-/
import proofs.«118708_j2697239462642_1_alg».proof.Proof.RefReadP
import Idealize.ShloMosaic.Lib.StableHlo.Run

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 88 operations, in order (a called function's operations stand in its call's place, spelt `TRef.…`). -/
abbrev ops : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    unary main_v0 main_v1 (broadcastInDim S8192x256 ![0, 1] bcast_S8192x1_S8192x256_0_1 : (⟨S8192x1, .f32⟩ : BufTy).Contents (Elt F) → (⟨S8192x256, .f32⟩ : BufTy).Contents (Elt F)),
    binary main_arg0 main_v1 main_v2 (Host.divf : (⟨S8192x256, .f32⟩ : BufTy).Contents (Elt F) → (⟨S8192x256, .f32⟩ : BufTy).Contents (Elt F) → (⟨S8192x256, .f32⟩ : BufTy).Contents (Elt F)),
    unary main_v2 main_v3 ((transpose S256x8192 [1, 0] · transposes_S8192x256_S256x8192_1_0) : (⟨S8192x256, .f32⟩ : BufTy).Contents (Elt F) → (⟨S256x8192, .f32⟩ : BufTy).Contents (Elt F)),
    binary main_v2 main_v3 main_v4 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3DCCCCCD#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    unary main_v11 main_v12 (uitofp .f32 : (⟨S8192x8192, .i1⟩ : BufTy).Contents (Elt F) → (⟨S8192x8192, .f32⟩ : BufTy).Contents (Elt F)),
    nullary main_cst_0 (constant S_ .f32 0x3F800000#32),
    unary main_cst_0 main_v13 (broadcastInDim S8192x8192 ![] bcast_S_S8192x8192 : (⟨S_, .f32⟩ : BufTy).Contents (Elt F) → (⟨S8192x8192, .f32⟩ : BufTy).Contents (Elt F)),
    binary main_v13 main_v12 main_v14 (subf : (⟨S8192x8192, .f32⟩ : BufTy).Contents (Elt F) → (⟨S8192x8192, .f32⟩ : BufTy).Contents (Elt F) → (⟨S8192x8192, .f32⟩ : BufTy).Contents (Elt F)),
    unary main_v6 main_v15 (Host.exp : (⟨S8192x8192, .f32⟩ : BufTy).Contents (Elt F) → (⟨S8192x8192, .f32⟩ : BufTy).Contents (Elt F)),
    binary main_v15 main_v14 main_v16 (mulf : (⟨S8192x8192, .f32⟩ : BufTy).Contents (Elt F) → (⟨S8192x8192, .f32⟩ : BufTy).Contents (Elt F) → (⟨S8192x8192, .f32⟩ : BufTy).Contents (Elt F)),
    unary main_arg1 main_v17 (broadcastInDim S8192x1 ![0] bcast_S8192_S8192x1_0 : (⟨S8192, .i32⟩ : BufTy).Contents (Elt F) → (⟨S8192x1, .i32⟩ : BufTy).Contents (Elt F)),
    nullary main_v18 (iotaInDim S32 32 0),
    unary main_v18 main_v19 (broadcastInDim S1x32 ![1] bcast_S32_S1x32_1 : (⟨S32, .i32⟩ : BufTy).Contents (Elt F) → (⟨S1x32, .i32⟩ : BufTy).Contents (Elt F)),
    unary main_v17 main_v20 (broadcastInDim S8192x32 ![0, 1] bcast_S8192x1_S8192x32_0_1 : (⟨S8192x1, .i32⟩ : BufTy).Contents (Elt F) → (⟨S8192x32, .i32⟩ : BufTy).Contents (Elt F)),
    unary main_v19 main_v21 (broadcastInDim S8192x32 ![0, 1] bcast_S1x32_S8192x32_0_1 : (⟨S1x32, .i32⟩ : BufTy).Contents (Elt F) → (⟨S8192x32, .i32⟩ : BufTy).Contents (Elt F)),
    binary main_v20 main_v21 main_v22 (cmpi .eq : (⟨S8192x32, .i32⟩ : BufTy).Contents (Elt F) → (⟨S8192x32, .i32⟩ : BufTy).Contents (Elt F) → (⟨S8192x32, .i1⟩ : BufTy).Contents (Elt F)),
    unary main_v22 main_v23 (uitofp .f32 : (⟨S8192x32, .i1⟩ : BufTy).Contents (Elt F) → (⟨S8192x32, .f32⟩ : BufTy).Contents (Elt F)),
    binary main_v16 main_v23 main_v24 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v23 main_cst_1 main_v25 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    unary main_v25 main_v26 (broadcastInDim S1x32 ![1] bcast_S32_S1x32_1 : (⟨S32, .f32⟩ : BufTy).Contents (Elt F) → (⟨S1x32, .f32⟩ : BufTy).Contents (Elt F)),
    unary main_v26 main_v27 (broadcastInDim S8192x32 ![0, 1] bcast_S1x32_S8192x32_0_1 : (⟨S1x32, .f32⟩ : BufTy).Contents (Elt F) → (⟨S8192x32, .f32⟩ : BufTy).Contents (Elt F)),
    binary main_v27 main_v23 main_v28 (subf : (⟨S8192x32, .f32⟩ : BufTy).Contents (Elt F) → (⟨S8192x32, .f32⟩ : BufTy).Contents (Elt F) → (⟨S8192x32, .f32⟩ : BufTy).Contents (Elt F)),
    nullary main_cst_2 (constant S_ .f32 0x00000000#32),
    unary main_cst_2 main_v29 (broadcastInDim S8192x32 ![] bcast_S_S8192x32 : (⟨S_, .f32⟩ : BufTy).Contents (Elt F) → (⟨S8192x32, .f32⟩ : BufTy).Contents (Elt F)),
    binary main_v28 main_v29 main_v30 (cmpf .ogt : (⟨S8192x32, .f32⟩ : BufTy).Contents (Elt F) → (⟨S8192x32, .f32⟩ : BufTy).Contents (Elt F) → (⟨S8192x32, .i1⟩ : BufTy).Contents (Elt F)),
    nullary main_cst_3 (constant S_ .f32 0x3F800000#32),
    unary main_cst_3 main_v31 (broadcastInDim S8192x32 ![] bcast_S_S8192x32 : (⟨S_, .f32⟩ : BufTy).Contents (Elt F) → (⟨S8192x32, .f32⟩ : BufTy).Contents (Elt F)),
    binary main_v28 main_v31 main_v32 (maximumf : (⟨S8192x32, .f32⟩ : BufTy).Contents (Elt F) → (⟨S8192x32, .f32⟩ : BufTy).Contents (Elt F) → (⟨S8192x32, .f32⟩ : BufTy).Contents (Elt F)),
    binary main_v24 main_v32 main_v33 (Host.divf : (⟨S8192x32, .f32⟩ : BufTy).Contents (Elt F) → (⟨S8192x32, .f32⟩ : BufTy).Contents (Elt F) → (⟨S8192x32, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x32, .f32⟩) main_call1_v1) (broadcastInDim S8192x32 ![] bcast_S_S8192x32),
    TRef.ternary (TRef.of (T := ⟨S8192x32, .i1⟩) main_v30) (TRef.of (T := ⟨S8192x32, .f32⟩) main_v33) (TRef.of (T := ⟨S8192x32, .f32⟩) main_call1_v1) (TRef.of (T := ⟨S8192x32, .f32⟩) main_v34) select,
    nullary main_cst_5 (constant S_ .f32 0x00000000#32),
    binary main_v34 main_cst_5 main_v35 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v23 main_v36 ((transpose S32x8192 [1, 0] · transposes_S8192x32_S32x8192_1_0) : (⟨S8192x32, .f32⟩ : BufTy).Contents (Elt F) → (⟨S32x8192, .f32⟩ : BufTy).Contents (Elt F)),
    binary main_v23 main_v36 main_v37 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    binary main_v37 main_v14 main_v38 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x00000000#32),
    binary main_v38 main_cst_6 main_v39 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0x00000000#32),
    unary main_cst_7 main_v40 (broadcastInDim S8192 ![] bcast_S_S8192 : (⟨S_, .f32⟩ : BufTy).Contents (Elt F) → (⟨S8192, .f32⟩ : BufTy).Contents (Elt F)),
    binary main_v39 main_v40 main_v41 (cmpf .ogt : (⟨S8192, .f32⟩ : BufTy).Contents (Elt F) → (⟨S8192, .f32⟩ : BufTy).Contents (Elt F) → (⟨S8192, .i1⟩ : BufTy).Contents (Elt F)),
    binary main_v6 main_v38 main_v42 (mulf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x00000000#32),
    binary main_v42 main_cst_8 main_v43 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0x3F800000#32),
    unary main_cst_9 main_v44 (broadcastInDim S8192 ![] bcast_S_S8192 : (⟨S_, .f32⟩ : BufTy).Contents (Elt F) → (⟨S8192, .f32⟩ : BufTy).Contents (Elt F)),
    binary main_v39 main_v44 main_v45 (maximumf : (⟨S8192, .f32⟩ : BufTy).Contents (Elt F) → (⟨S8192, .f32⟩ : BufTy).Contents (Elt F) → (⟨S8192, .f32⟩ : BufTy).Contents (Elt F)),
    binary main_v43 main_v45 main_v46 (Host.divf : (⟨S8192, .f32⟩ : BufTy).Contents (Elt F) → (⟨S8192, .f32⟩ : BufTy).Contents (Elt F) → (⟨S8192, .f32⟩ : BufTy).Contents (Elt F)),
    nullary main_cst_10 (constant S_ .f32 0x0DA24260#32),
    unary main_cst_10 main_v47 (broadcastInDim S8192 ![] bcast_S_S8192 : (⟨S_, .f32⟩ : BufTy).Contents (Elt F) → (⟨S8192, .f32⟩ : BufTy).Contents (Elt F)),
    binary main_v35 main_v47 main_v48 (maximumf : (⟨S8192, .f32⟩ : BufTy).Contents (Elt F) → (⟨S8192, .f32⟩ : BufTy).Contents (Elt F) → (⟨S8192, .f32⟩ : BufTy).Contents (Elt F)),
    unary main_v48 main_v49 (Host.log : (⟨S8192, .f32⟩ : BufTy).Contents (Elt F) → (⟨S8192, .f32⟩ : BufTy).Contents (Elt F)),
    binary main_v49 main_v46 main_v50 (subf : (⟨S8192, .f32⟩ : BufTy).Contents (Elt F) → (⟨S8192, .f32⟩ : BufTy).Contents (Elt F) → (⟨S8192, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v41) (TRef.of (T := ⟨S8192, .f32⟩) main_v50) (TRef.of (T := ⟨S8192, .f32⟩) main_call2_v1) (TRef.of (T := ⟨S8192, .f32⟩) main_v51) select,
    unary main_v41 main_v52 ((extui 32 · natLt_1_32) : (⟨S8192, .i1⟩ : BufTy).Contents (Elt F) → (⟨S8192, .i32⟩ : BufTy).Contents (Elt F)),
    nullary main_c_12 (constantI S_ 32 0#32),
    binary main_v52 main_c_12 main_v53 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_13 (constantI S_ 32 0#32),
    binary main_v53 main_c_13 main_v54 (cmpi .sgt : (⟨S_, .i32⟩ : BufTy).Contents (Elt F) → (⟨S_, .i32⟩ : BufTy).Contents (Elt F) → (⟨S_, .i1⟩ : BufTy).Contents (Elt F)),
    nullary main_cst_14 (constant S_ .f32 0x00000000#32),
    binary main_v51 main_cst_14 main_v55 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_15 (constantI S_ 32 1#32),
    binary main_v53 main_c_15 main_v56 (maxsi : (⟨S_, .i32⟩ : BufTy).Contents (Elt F) → (⟨S_, .i32⟩ : BufTy).Contents (Elt F) → (⟨S_, .i32⟩ : BufTy).Contents (Elt F)),
    unary main_v56 main_v57 (sitofp .f32 : (⟨S_, .i32⟩ : BufTy).Contents (Elt F) → (⟨S_, .f32⟩ : BufTy).Contents (Elt F)),
    binary main_v55 main_v57 main_v58 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.ternary (TRef.of (T := ⟨S_, .i1⟩) main_v54) (TRef.of (T := ⟨S_, .f32⟩) main_v58) (TRef.of (T := ⟨S_, .f32⟩) main_call3_v0) (TRef.of (T := ⟨S_, .f32⟩) main_v59) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., binary_bufs_sub .., unary_bufs_sub .., nullary_bufs_sub .., unary_bufs_sub .., unary_bufs_sub .., unary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., unary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub ..⟩

/-! ## The stretches -/

abbrev ops1 : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    unary main_v0 main_v1 (broadcastInDim S8192x256 ![0, 1] bcast_S8192x1_S8192x256_0_1 : (⟨S8192x1, .f32⟩ : BufTy).Contents (Elt F) → (⟨S8192x256, .f32⟩ : BufTy).Contents (Elt F)),
    binary main_arg0 main_v1 main_v2 (Host.divf : (⟨S8192x256, .f32⟩ : BufTy).Contents (Elt F) → (⟨S8192x256, .f32⟩ : BufTy).Contents (Elt F) → (⟨S8192x256, .f32⟩ : BufTy).Contents (Elt F)),
    unary main_v2 main_v3 ((transpose S256x8192 [1, 0] · transposes_S8192x256_S256x8192_1_0) : (⟨S8192x256, .f32⟩ : BufTy).Contents (Elt F) → (⟨S256x8192, .f32⟩ : BufTy).Contents (Elt F)),
    binary main_v2 main_v3 main_v4 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3DCCCCCD#32),
    unary main_cst main_v5 (broadcastInDim S8192x8192 ![] bcast_S_S8192x8192 : (⟨S_, .f32⟩ : BufTy).Contents (Elt F) → (⟨S8192x8192, .f32⟩ : BufTy).Contents (Elt F)),
    binary main_v4 main_v5 main_v6 (Host.divf : (⟨S8192x8192, .f32⟩ : BufTy).Contents (Elt F) → (⟨S8192x8192, .f32⟩ : BufTy).Contents (Elt F) → (⟨S8192x8192, .f32⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    unary main_v11 main_v12 (uitofp .f32 : (⟨S8192x8192, .i1⟩ : BufTy).Contents (Elt F) → (⟨S8192x8192, .f32⟩ : BufTy).Contents (Elt F)),
    nullary main_cst_0 (constant S_ .f32 0x3F800000#32),
    unary main_cst_0 main_v13 (broadcastInDim S8192x8192 ![] bcast_S_S8192x8192 : (⟨S_, .f32⟩ : BufTy).Contents (Elt F) → (⟨S8192x8192, .f32⟩ : BufTy).Contents (Elt F)),
    binary main_v13 main_v12 main_v14 (subf : (⟨S8192x8192, .f32⟩ : BufTy).Contents (Elt F) → (⟨S8192x8192, .f32⟩ : BufTy).Contents (Elt F) → (⟨S8192x8192, .f32⟩ : BufTy).Contents (Elt F)),
    unary main_v6 main_v15 (Host.exp : (⟨S8192x8192, .f32⟩ : BufTy).Contents (Elt F) → (⟨S8192x8192, .f32⟩ : BufTy).Contents (Elt F)),
    binary main_v15 main_v14 main_v16 (mulf : (⟨S8192x8192, .f32⟩ : BufTy).Contents (Elt F) → (⟨S8192x8192, .f32⟩ : BufTy).Contents (Elt F) → (⟨S8192x8192, .f32⟩ : BufTy).Contents (Elt F)),
    unary main_arg1 main_v17 (broadcastInDim S8192x1 ![0] bcast_S8192_S8192x1_0 : (⟨S8192, .i32⟩ : BufTy).Contents (Elt F) → (⟨S8192x1, .i32⟩ : BufTy).Contents (Elt F)),
    nullary main_v18 (iotaInDim S32 32 0),
    unary main_v18 main_v19 (broadcastInDim S1x32 ![1] bcast_S32_S1x32_1 : (⟨S32, .i32⟩ : BufTy).Contents (Elt F) → (⟨S1x32, .i32⟩ : BufTy).Contents (Elt F)),
    unary main_v17 main_v20 (broadcastInDim S8192x32 ![0, 1] bcast_S8192x1_S8192x32_0_1 : (⟨S8192x1, .i32⟩ : BufTy).Contents (Elt F) → (⟨S8192x32, .i32⟩ : BufTy).Contents (Elt F)),
    unary main_v19 main_v21 (broadcastInDim S8192x32 ![0, 1] bcast_S1x32_S8192x32_0_1 : (⟨S1x32, .i32⟩ : BufTy).Contents (Elt F) → (⟨S8192x32, .i32⟩ : BufTy).Contents (Elt F)),
    binary main_v20 main_v21 main_v22 (cmpi .eq : (⟨S8192x32, .i32⟩ : BufTy).Contents (Elt F) → (⟨S8192x32, .i32⟩ : BufTy).Contents (Elt F) → (⟨S8192x32, .i1⟩ : BufTy).Contents (Elt F)),
    unary main_v22 main_v23 (uitofp .f32 : (⟨S8192x32, .i1⟩ : BufTy).Contents (Elt F) → (⟨S8192x32, .f32⟩ : BufTy).Contents (Elt F)) ]
abbrev ops2 : List (HloOp τ sig (Elt F)) :=
  [ binary main_v16 main_v23 main_v24 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v23 main_cst_1 main_v25 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    unary main_v25 main_v26 (broadcastInDim S1x32 ![1] bcast_S32_S1x32_1 : (⟨S32, .f32⟩ : BufTy).Contents (Elt F) → (⟨S1x32, .f32⟩ : BufTy).Contents (Elt F)),
    unary main_v26 main_v27 (broadcastInDim S8192x32 ![0, 1] bcast_S1x32_S8192x32_0_1 : (⟨S1x32, .f32⟩ : BufTy).Contents (Elt F) → (⟨S8192x32, .f32⟩ : BufTy).Contents (Elt F)),
    binary main_v27 main_v23 main_v28 (subf : (⟨S8192x32, .f32⟩ : BufTy).Contents (Elt F) → (⟨S8192x32, .f32⟩ : BufTy).Contents (Elt F) → (⟨S8192x32, .f32⟩ : BufTy).Contents (Elt F)),
    nullary main_cst_2 (constant S_ .f32 0x00000000#32),
    unary main_cst_2 main_v29 (broadcastInDim S8192x32 ![] bcast_S_S8192x32 : (⟨S_, .f32⟩ : BufTy).Contents (Elt F) → (⟨S8192x32, .f32⟩ : BufTy).Contents (Elt F)),
    binary main_v28 main_v29 main_v30 (cmpf .ogt : (⟨S8192x32, .f32⟩ : BufTy).Contents (Elt F) → (⟨S8192x32, .f32⟩ : BufTy).Contents (Elt F) → (⟨S8192x32, .i1⟩ : BufTy).Contents (Elt F)),
    nullary main_cst_3 (constant S_ .f32 0x3F800000#32),
    unary main_cst_3 main_v31 (broadcastInDim S8192x32 ![] bcast_S_S8192x32 : (⟨S_, .f32⟩ : BufTy).Contents (Elt F) → (⟨S8192x32, .f32⟩ : BufTy).Contents (Elt F)),
    binary main_v28 main_v31 main_v32 (maximumf : (⟨S8192x32, .f32⟩ : BufTy).Contents (Elt F) → (⟨S8192x32, .f32⟩ : BufTy).Contents (Elt F) → (⟨S8192x32, .f32⟩ : BufTy).Contents (Elt F)),
    binary main_v24 main_v32 main_v33 (Host.divf : (⟨S8192x32, .f32⟩ : BufTy).Contents (Elt F) → (⟨S8192x32, .f32⟩ : BufTy).Contents (Elt F) → (⟨S8192x32, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x32, .f32⟩) main_call1_v1) (broadcastInDim S8192x32 ![] bcast_S_S8192x32),
    TRef.ternary (TRef.of (T := ⟨S8192x32, .i1⟩) main_v30) (TRef.of (T := ⟨S8192x32, .f32⟩) main_v33) (TRef.of (T := ⟨S8192x32, .f32⟩) main_call1_v1) (TRef.of (T := ⟨S8192x32, .f32⟩) main_v34) select,
    nullary main_cst_5 (constant S_ .f32 0x00000000#32),
    binary main_v34 main_cst_5 main_v35 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)) ]
abbrev ops3a : List (HloOp τ sig (Elt F)) :=
  [ unary main_v23 main_v36 ((transpose S32x8192 [1, 0] · transposes_S8192x32_S32x8192_1_0) : (⟨S8192x32, .f32⟩ : BufTy).Contents (Elt F) → (⟨S32x8192, .f32⟩ : BufTy).Contents (Elt F)),
    binary main_v23 main_v36 main_v37 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    binary main_v37 main_v14 main_v38 (mulf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x00000000#32),
    binary main_v38 main_cst_6 main_v39 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0x00000000#32),
    unary main_cst_7 main_v40 (broadcastInDim S8192 ![] bcast_S_S8192 : (⟨S_, .f32⟩ : BufTy).Contents (Elt F) → (⟨S8192, .f32⟩ : BufTy).Contents (Elt F)),
    binary main_v39 main_v40 main_v41 (cmpf .ogt : (⟨S8192, .f32⟩ : BufTy).Contents (Elt F) → (⟨S8192, .f32⟩ : BufTy).Contents (Elt F) → (⟨S8192, .i1⟩ : BufTy).Contents (Elt F)) ]
abbrev ops3b : List (HloOp τ sig (Elt F)) :=
  [ binary main_v6 main_v38 main_v42 (mulf : (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x00000000#32),
    binary main_v42 main_cst_8 main_v43 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0x3F800000#32),
    unary main_cst_9 main_v44 (broadcastInDim S8192 ![] bcast_S_S8192 : (⟨S_, .f32⟩ : BufTy).Contents (Elt F) → (⟨S8192, .f32⟩ : BufTy).Contents (Elt F)),
    binary main_v39 main_v44 main_v45 (maximumf : (⟨S8192, .f32⟩ : BufTy).Contents (Elt F) → (⟨S8192, .f32⟩ : BufTy).Contents (Elt F) → (⟨S8192, .f32⟩ : BufTy).Contents (Elt F)),
    binary main_v43 main_v45 main_v46 (Host.divf : (⟨S8192, .f32⟩ : BufTy).Contents (Elt F) → (⟨S8192, .f32⟩ : BufTy).Contents (Elt F) → (⟨S8192, .f32⟩ : BufTy).Contents (Elt F)) ]
abbrev ops3c : List (HloOp τ sig (Elt F)) :=
  [ nullary main_cst_10 (constant S_ .f32 0x0DA24260#32),
    unary main_cst_10 main_v47 (broadcastInDim S8192 ![] bcast_S_S8192 : (⟨S_, .f32⟩ : BufTy).Contents (Elt F) → (⟨S8192, .f32⟩ : BufTy).Contents (Elt F)),
    binary main_v35 main_v47 main_v48 (maximumf : (⟨S8192, .f32⟩ : BufTy).Contents (Elt F) → (⟨S8192, .f32⟩ : BufTy).Contents (Elt F) → (⟨S8192, .f32⟩ : BufTy).Contents (Elt F)),
    unary main_v48 main_v49 (Host.log : (⟨S8192, .f32⟩ : BufTy).Contents (Elt F) → (⟨S8192, .f32⟩ : BufTy).Contents (Elt F)),
    binary main_v49 main_v46 main_v50 (subf : (⟨S8192, .f32⟩ : BufTy).Contents (Elt F) → (⟨S8192, .f32⟩ : BufTy).Contents (Elt F) → (⟨S8192, .f32⟩ : BufTy).Contents (Elt F)) ]
abbrev ops3d : List (HloOp τ sig (Elt F)) :=
  [ nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v41) (TRef.of (T := ⟨S8192, .f32⟩) main_v50) (TRef.of (T := ⟨S8192, .f32⟩) main_call2_v1) (TRef.of (T := ⟨S8192, .f32⟩) main_v51) select ]
abbrev ops4a : List (HloOp τ sig (Elt F)) :=
  [ unary main_v41 main_v52 ((extui 32 · natLt_1_32) : (⟨S8192, .i1⟩ : BufTy).Contents (Elt F) → (⟨S8192, .i32⟩ : BufTy).Contents (Elt F)),
    nullary main_c_12 (constantI S_ 32 0#32),
    binary main_v52 main_c_12 main_v53 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    nullary main_c_13 (constantI S_ 32 0#32),
    binary main_v53 main_c_13 main_v54 (cmpi .sgt : (⟨S_, .i32⟩ : BufTy).Contents (Elt F) → (⟨S_, .i32⟩ : BufTy).Contents (Elt F) → (⟨S_, .i1⟩ : BufTy).Contents (Elt F)),
    nullary main_cst_14 (constant S_ .f32 0x00000000#32),
    binary main_v51 main_cst_14 main_v55 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_c_15 (constantI S_ 32 1#32),
    binary main_v53 main_c_15 main_v56 (maxsi : (⟨S_, .i32⟩ : BufTy).Contents (Elt F) → (⟨S_, .i32⟩ : BufTy).Contents (Elt F) → (⟨S_, .i32⟩ : BufTy).Contents (Elt F)),
    unary main_v56 main_v57 (sitofp .f32 : (⟨S_, .i32⟩ : BufTy).Contents (Elt F) → (⟨S_, .f32⟩ : BufTy).Contents (Elt F)),
    binary main_v55 main_v57 main_v58 (Host.divf : (⟨S_, .f32⟩ : BufTy).Contents (Elt F) → (⟨S_, .f32⟩ : BufTy).Contents (Elt F) → (⟨S_, .f32⟩ : BufTy).Contents (Elt F)) ]
abbrev ops4b : List (HloOp τ sig (Elt F)) :=
  [ nullary main_cst_16 (constant S_ .f32 0x00000000#32),
    TRef.unary (TRef.of (T := ⟨S_, .f32⟩) main_cst_16) (TRef.of (T := ⟨S_, .f32⟩) main_call3_v0) id,
    TRef.ternary (TRef.of (T := ⟨S_, .i1⟩) main_v54) (TRef.of (T := ⟨S_, .f32⟩) main_v58) (TRef.of (T := ⟨S_, .f32⟩) main_call3_v0) (TRef.of (T := ⟨S_, .f32⟩) main_v59) select ]

theorem ops_split : (ops : List (HloOp τ sig (Elt F))) = ops1 ++ ops2 ++ ops3a ++ ops3b ++ ops3c ++ ops3d ++ ops4a ++ ops4b := rfl

variable (W : Valuation τ sig (Elt F))

/-! ### Up to the one-hot matrix: similarities, off-diagonal factor, their product with the exponential, one-hot rows -/

theorem s1_v6 : after (ops1 (F := F)) W (Proc.devRef .tc main_v6) = val_main_v6 (F := F) (W (Proc.devRef .tc main_arg0)) := by
  unfold ops1; after_results <;> rfl
theorem s1_v14 : after (ops1 (F := F)) W (Proc.devRef .tc main_v14) = val_main_v14 (F := F) := by
  unfold ops1; after_results <;> rfl
theorem s1_v16 : after (ops1 (F := F)) W (Proc.devRef .tc main_v16) = val_main_v16 (F := F) (W (Proc.devRef .tc main_arg0)) := by
  unfold ops1; after_results <;> rfl
theorem s1_v23 : after (ops1 (F := F)) W (Proc.devRef .tc main_v23) = val_main_v23 (F := F) (W (Proc.devRef .tc main_arg1)) := by
  unfold ops1; after_results <;> rfl

/-! ### Up to the denominator -/

set_option maxHeartbeats 8000000 in
theorem s2_v35 (x0) (x1) (h16 : W (Proc.devRef .tc main_v16) = val_main_v16 (F := F) x0) (h23 : W (Proc.devRef .tc main_v23) = val_main_v23 (F := F) x1) :
    after (ops2 (F := F)) W (Proc.devRef .tc main_v35) = val_main_v35 (F := F) x0 x1 := by
  unfold ops2; after_results; rw [h16, h23]; rfl
theorem s2_keep6 : after (ops2 (F := F)) W (Proc.devRef .tc main_v6) = W (Proc.devRef .tc main_v6) := by
  unfold ops2; after_results <;> rfl
theorem s2_keep14 : after (ops2 (F := F)) W (Proc.devRef .tc main_v14) = W (Proc.devRef .tc main_v14) := by
  unfold ops2; after_results <;> rfl
theorem s2_keep23 : after (ops2 (F := F)) W (Proc.devRef .tc main_v23) = W (Proc.devRef .tc main_v23) := by
  unfold ops2; after_results <;> rfl

/-! ### Up to the row losses and the validity flags: the positives, the mean similarity to them, the row loss -/

set_option maxHeartbeats 8000000 in
theorem s3a_v38 (x1) (h23 : W (Proc.devRef .tc main_v23) = val_main_v23 (F := F) x1) (h14 : W (Proc.devRef .tc main_v14) = val_main_v14 (F := F)) :
    after (ops3a (F := F)) W (Proc.devRef .tc main_v38) = val_main_v38 (F := F) x1 := by
  unfold ops3a; after_results; rw [h23, h14]; rfl
set_option maxHeartbeats 8000000 in
theorem s3a_v39 (x1) (h23 : W (Proc.devRef .tc main_v23) = val_main_v23 (F := F) x1) (h14 : W (Proc.devRef .tc main_v14) = val_main_v14 (F := F)) :
    after (ops3a (F := F)) W (Proc.devRef .tc main_v39) = val_main_v39 (F := F) x1 := by
  unfold ops3a; after_results; rw [h23, h14]; rfl
set_option maxHeartbeats 8000000 in
theorem s3a_v41 (x1) (h23 : W (Proc.devRef .tc main_v23) = val_main_v23 (F := F) x1) (h14 : W (Proc.devRef .tc main_v14) = val_main_v14 (F := F)) :
    after (ops3a (F := F)) W (Proc.devRef .tc main_v41) = val_main_v41 (F := F) x1 := by
  unfold ops3a; after_results; rw [h23, h14]; rfl
theorem s3a_keep6 : after (ops3a (F := F)) W (Proc.devRef .tc main_v6) = W (Proc.devRef .tc main_v6) := by
  unfold ops3a; after_results <;> rfl
theorem s3a_keep35 : after (ops3a (F := F)) W (Proc.devRef .tc main_v35) = W (Proc.devRef .tc main_v35) := by
  unfold ops3a; after_results <;> rfl

set_option maxHeartbeats 8000000 in
theorem s3b_v46 (x0) (x1) (h6 : W (Proc.devRef .tc main_v6) = val_main_v6 (F := F) x0) (h38 : W (Proc.devRef .tc main_v38) = val_main_v38 (F := F) x1)
    (h39 : W (Proc.devRef .tc main_v39) = val_main_v39 (F := F) x1) :
    after (ops3b (F := F)) W (Proc.devRef .tc main_v46) = val_main_v46 (F := F) x0 x1 := by
  unfold ops3b; after_results; rw [h6, h38, h39]; rfl
theorem s3b_keep35 : after (ops3b (F := F)) W (Proc.devRef .tc main_v35) = W (Proc.devRef .tc main_v35) := by
  unfold ops3b; after_results <;> rfl
theorem s3b_keep41 : after (ops3b (F := F)) W (Proc.devRef .tc main_v41) = W (Proc.devRef .tc main_v41) := by
  unfold ops3b; after_results <;> rfl

set_option maxHeartbeats 8000000 in
theorem s3c_v50 (x0) (x1) (h35 : W (Proc.devRef .tc main_v35) = val_main_v35 (F := F) x0 x1) (h46 : W (Proc.devRef .tc main_v46) = val_main_v46 (F := F) x0 x1) :
    after (ops3c (F := F)) W (Proc.devRef .tc main_v50) = val_main_v50 (F := F) x0 x1 := by
  unfold ops3c; after_results; rw [h35, h46]; rfl
theorem s3c_keep41 : after (ops3c (F := F)) W (Proc.devRef .tc main_v41) = W (Proc.devRef .tc main_v41) := by
  unfold ops3c; after_results <;> rfl

set_option maxHeartbeats 8000000 in
theorem s3d_v51 (x0) (x1) (h41 : W (Proc.devRef .tc main_v41) = val_main_v41 (F := F) x1) (h50 : W (Proc.devRef .tc main_v50) = val_main_v50 (F := F) x0 x1) :
    after (ops3d (F := F)) W (Proc.devRef .tc main_v51) = val_main_v51 (F := F) x0 x1 := by
  unfold ops3d; after_results
  unfold val_main_v51
  rw [← h41, ← h50]
  generalize W (Proc.devRef .tc main_v41) = A
  generalize W (Proc.devRef .tc main_v50) = B
  rfl
theorem s3d_keep41 : after (ops3d (F := F)) W (Proc.devRef .tc main_v41) = W (Proc.devRef .tc main_v41) := by
  unfold ops3d; after_results <;> rfl

/-! ### The final mean: the two sums, the count, their quotient; then the choice between it and zero -/

set_option maxHeartbeats 8000000 in
theorem s4a_v54 (x1) (h41 : W (Proc.devRef .tc main_v41) = val_main_v41 (F := F) x1) :
    after (ops4a (F := F)) W (Proc.devRef .tc main_v54) = val_main_v54 (F := F) x1 := by
  unfold ops4a; after_results; rw [h41]; rfl
set_option maxHeartbeats 8000000 in
theorem s4a_v58 (x0) (x1) (h41 : W (Proc.devRef .tc main_v41) = val_main_v41 (F := F) x1) (h51 : W (Proc.devRef .tc main_v51) = val_main_v51 (F := F) x0 x1) :
    after (ops4a (F := F)) W (Proc.devRef .tc main_v58) = val_main_v58 (F := F) x0 x1 := by
  unfold ops4a; after_results; rw [h41, h51]; rfl
set_option maxHeartbeats 8000000 in
theorem s4b_v59 (x0) (x1) (h54 : W (Proc.devRef .tc main_v54) = val_main_v54 (F := F) x1) (h58 : W (Proc.devRef .tc main_v58) = val_main_v58 (F := F) x0 x1) :
    after (ops4b (F := F)) W (Proc.devRef .tc main_v59) = val_main_v59 (F := F) x0 x1 := by
  unfold ops4b; after_results
  unfold val_main_v59
  rw [← h54, ← h58]
  generalize W (Proc.devRef .tc main_v54) = A
  generalize W (Proc.devRef .tc main_v58) = B
  rfl

/-! ## The whole line -/

set_option maxHeartbeats 8000000 in
/-- The result buffer after the 88 operations is the last stage of the two arguments. -/
theorem result_eq : after (ops (F := F)) W (Proc.devRef .tc main_v59) = val_main_v59 (F := F) (W (Proc.devRef .tc main_arg0)) (W (Proc.devRef .tc main_arg1)) := by
  rw [ops_split, after_append, after_append, after_append, after_append, after_append, after_append, after_append]
  have h1_6 := s1_v6 (F := F) W
  have h1_14 := s1_v14 (F := F) W
  have h1_16 := s1_v16 (F := F) W
  have h1_23 := s1_v23 (F := F) W
  have h2_35 := s2_v35 (F := F) (after ops1 W) _ _ h1_16 h1_23
  have h2_6 := (s2_keep6 (F := F) (after ops1 W)).trans h1_6
  have h2_14 := (s2_keep14 (F := F) (after ops1 W)).trans h1_14
  have h2_23 := (s2_keep23 (F := F) (after ops1 W)).trans h1_23
  have ha_38 := s3a_v38 (F := F) (after ops2 (after ops1 W)) _ h2_23 h2_14
  have ha_39 := s3a_v39 (F := F) (after ops2 (after ops1 W)) _ h2_23 h2_14
  have ha_41 := s3a_v41 (F := F) (after ops2 (after ops1 W)) _ h2_23 h2_14
  have ha_6 := (s3a_keep6 (F := F) (after ops2 (after ops1 W))).trans h2_6
  have ha_35 := (s3a_keep35 (F := F) (after ops2 (after ops1 W))).trans h2_35
  have hb_46 := s3b_v46 (F := F) (after ops3a (after ops2 (after ops1 W))) _ _ ha_6 ha_38 ha_39
  have hb_35 := (s3b_keep35 (F := F) (after ops3a (after ops2 (after ops1 W)))).trans ha_35
  have hb_41 := (s3b_keep41 (F := F) (after ops3a (after ops2 (after ops1 W)))).trans ha_41
  have hc_50 := s3c_v50 (F := F) (after ops3b (after ops3a (after ops2 (after ops1 W)))) _ _ hb_35 hb_46
  have hc_41 := (s3c_keep41 (F := F) (after ops3b (after ops3a (after ops2 (after ops1 W))))).trans hb_41
  have hd_51 := s3d_v51 (F := F) (after ops3c (after ops3b (after ops3a (after ops2 (after ops1 W))))) _ _ hc_41 hc_50
  have hd_41 := (s3d_keep41 (F := F) (after ops3c (after ops3b (after ops3a (after ops2 (after ops1 W)))))).trans hc_41
  have he_54 := s4a_v54 (F := F) (after ops3d (after ops3c (after ops3b (after ops3a (after ops2 (after ops1 W)))))) _ hd_41
  have he_58 := s4a_v58 (F := F) (after ops3d (after ops3c (after ops3b (after ops3a (after ops2 (after ops1 W)))))) _ _ hd_41 hd_51
  exact s4b_v59 (F := F) (after ops4a (after ops3d (after ops3c (after ops3b (after ops3a (after ops2 (after ops1 W))))))) _ _ he_54 he_58

/-- No operation writes an argument. -/
theorem arg0_kept : after (ops (F := F)) W (Proc.devRef .tc main_arg0) = W (Proc.devRef .tc main_arg0) := by
  unfold ops; after_results <;> rfl
theorem arg1_kept : after (ops (F := F)) W (Proc.devRef .tc main_arg1) = W (Proc.devRef .tc main_arg1) := by
  unfold ops; after_results <;> rfl

/-- On every device, from any memory with zero counters: every weakly fair execution of @main terminates with the result at
    the last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans (result_eq _), (h c main_arg0).trans (arg0_kept _), (h c main_arg1).trans (arg1_kept _)⟩)
    (run_seq scopedRefs_eq scopedSems_eq defs main (fun _ => ops) main_eq (fun _ => ops_sub) m ρ)

end Cert.ReferenceIdeal.ValueP

end
-- ==== Proof.lean ====
/-
  A supervised-contrastive loss over 8192 normalized feature rows in 32 classes: the kernel against its reference.

  THE TWO SIDES. Both first normalize each feature row and build the one-hot label matrix on the host. The reference then forms
  the whole 8192 × 8192 matrix of similarities sim = (f fᵀ) / T, with T the float nearest 0.1, and from it, per anchor row r:
  the class sums of exp(sim)·[r ≠ k] over the keys k, the class counts without r, the denominator (the sum over the classes
  that have another member of the class mean), the number P of positives, the mean similarity to them, the row loss
  log(max(denominator, 1e-30)) − mean, and finally the mean of the row losses over the rows that have a positive.
  The kernel walks a 16 × 16 grid of 512 × 512 tiles of that matrix: for the row block q and the key block kj it multiplies the
  tile's inner products by a constant, and ADDS, per row of the block, the tile's contribution to three accumulators (class
  sums over 128 padded classes, number of positives, sum of similarities to positives), cleared at kj = 0; at kj = 15 it turns
  the three totals into the row's loss and validity flag; two host sums and a division finish.

  WHY THEY AGREE, as extended reals: the kernel's constant is the folded reciprocal 1 / T, named so in the idealization
  (its value 134217728 / 13421773 is exactly the reciprocal of the float nearest 0.1), and division by a nonzero real is the
  product with its reciprocal at the infinities too; a sum over 8192 keys is the sum over 16 blocks of the blocks' sums, in any
  order (addition of extended reals is commutative and associative; nothing is distributed, so no finiteness is used);
  the padded classes contribute zeros; [r ≠ k] is 1 − [r = k]; and the reference's integer count of valid rows, at most 8192,
  is the kernel's float sum of their 0/1 flags.

  THE FRAMES. The normalized features and the one-hot matrix are each handed to the kernel through two windows (row block and
  key block), so each array is held at one half share by each of its two windows, split at the region's entry and rejoined at
  its exit before the host lines after the region run. The body is run once per case of its two conditionals (first key block,
  middle, last), the three accumulators carried from point to point in the region's invariant.
-/
import proofs.«118708_j2697239462642_1_alg».proof.Defs
import proofs.«118708_j2697239462642_1_alg».proof.Proof.Gen.Kernel
import proofs.«118708_j2697239462642_1_alg».proof.Proof.Gen.KernelIdeal
import proofs.«118708_j2697239462642_1_alg».proof.Proof.Gen.ReferenceIdeal
import proofs.«118708_j2697239462642_1_alg».proof.Proof.Gen.Pre_finite_inputs
import proofs.«118708_j2697239462642_1_alg».proof.Proof.FrameOfK
import proofs.«118708_j2697239462642_1_alg».proof.Proof.KernelValue
import proofs.«118708_j2697239462642_1_alg».proof.Proof.RefValue
import proofs.«118708_j2697239462642_1_alg».proof.Proof.RefRun
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the constant 10.0 is named the reciprocal of the reference's temperature word. -/
theorem preserves : Cert.preserves_Kernel_KernelIdeal :=
  IdealRules.named_const.statement Cert.KernelIdeal.κ "inv_temperature" .f32 0x41200000#32 ((134217728 / 13421773 : ℝ) : EReal) rfl

/-- Both programs end at the reference's loss of the arguments. -/
theorem algebraic : Cert.algebraic_KernelIdeal_ReferenceIdeal := by
  intro m ρ m' ρ' _ hagree
  refine ⟨fun c => fun _ => RefSpec.refLoss (Cert.KernelIdeal.Body.nfR m c) (Cert.KernelIdeal.Body.ohR m c), ?_, ?_⟩
  · exact (θ_run Cert.KernelIdeal.defs _ _).mono
      (fun _ h c => ⟨(h c).1.trans (Cert.KernelIdeal.Body.kernel_value m c), (h c).2.1, (h c).2.2⟩)
      (Cert.KernelIdeal.Body.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.ref_value, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
